-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v149)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v149) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S8x512 : Shape := ⟨2, ![8, 512]⟩
abbrev S65536 : Shape := ⟨1, ![65536]⟩
abbrev S2x458752 : Shape := ⟨2, ![2, 458752]⟩
abbrev S458752 : Shape := ⟨1, ![458752]⟩
abbrev S1x256 : Shape := ⟨2, ![1, 256]⟩
abbrev S1841x256 : Shape := ⟨2, ![1841, 256]⟩
abbrev S512x256 : Shape := ⟨2, ![512, 256]⟩
abbrev S256 : Shape := ⟨1, ![256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S8x512 : S_.BroadcastsInDim S8x512 (![] : Fin 0 → Fin S8x512.rank)
  reducesTo_S8x512_S_d0_1 : S8x512.ReducesTo [0, 1] S_
  bcast_S_S1x256 : S_.BroadcastsInDim S1x256 (![] : Fin 0 → Fin S1x256.rank)
  reducesTo_S1x256_S_d0_1 : S1x256.ReducesTo [0, 1] S_
  bcast_S_S1841x256 : S_.BroadcastsInDim S1841x256 (![] : Fin 0 → Fin S1841x256.rank)
  reducesTo_S1841x256_S_d0_1 : S1841x256.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg11 : FVec F S1x256 .f32) (main_arg12 : FVec F S1x256 .f32) (main_arg13 : FVec F S1841x256 .f32) (main_v33 : IVec S_ 1) : IVec S_ 1 :=
  let main_v34 : FVec F S1x256 .f32 := Host.absf main_arg11
  let main_cst_12 : FVec F S_ .f32 := constant S_ .f32 0x7F800000#32
  let main_v35 : FVec F S1x256 .f32 := broadcastInDim S1x256 ![] bcast_S_S1x256 main_cst_12
  let main_v36 : IVec S1x256 1 := cmpf .olt main_v34 main_v35
  let main_c_13 : IVec S_ 1 := constantI S_ 1 1#1
  let main_v37 : IVec S_ 1 := (fun x v => Host.reduce IntOp.andi x v reducesTo_S1x256_S_d0_1 h_S_) main_v36 main_c_13
  let main_v38 : IVec S_ 1 := andi main_v33 main_v37
  let main_v39 : FVec F S1x256 .f32 := Host.absf main_arg12
  let main_cst_14 : FVec F S_ .f32 := constant S_ .f32 0x7F800000#32
  let main_v40 : FVec F S1x256 .f32 := broadcastInDim S1x256 ![] bcast_S_S1x256 main_cst_14
  let main_v41 : IVec S1x256 1 := cmpf .olt main_v39 main_v40
  let main_c_15 : IVec S_ 1 := constantI S_ 1 1#1
  let main_v42 : IVec S_ 1 := (fun x v => Host.reduce IntOp.andi x v reducesTo_S1x256_S_d0_1 h_S_) main_v41 main_c_15
  let main_v43 : IVec S_ 1 := andi main_v38 main_v42
  let main_v44 : FVec F S1841x256 .f32 := Host.absf main_arg13
  let main_cst_16 : FVec F S_ .f32 := constant S_ .f32 0x7F800000#32
  let main_v45 : FVec F S1841x256 .f32 := broadcastInDim S1841x256 ![] bcast_S_S1841x256 main_cst_16
  let main_v46 : IVec S1841x256 1 := cmpf .olt main_v44 main_v45
  let main_c_17 : IVec S_ 1 := constantI S_ 1 1#1
  let main_v47 : IVec S_ 1 := (fun x v => Host.reduce IntOp.andi x v reducesTo_S1841x256_S_d0_1 h_S_) main_v46 main_c_17
  let main_v48 : IVec S_ 1 := andi main_v43 main_v47
  main_v48

def fn_part1 {F : FTy → Type} [FloatOps F] (main_arg8 : FVec F S1841x256 .f32) (main_arg9 : FVec F S512x256 .f32) (main_arg10 : FVec F S256 .f32) (main_arg11 : FVec F S1x256 .f32) (main_arg12 : FVec F S1x256 .f32) (main_arg13 : FVec F S1841x256 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S1841x256 .f32 := Host.absf main_arg8
  let main_cst_6 : FVec F S_ .f32 := constant S_ .f32 0x7F800000#32
  let main_v20 : FVec F S1841x256 .f32 := broadcastInDim S1841x256 ![] bcast_S_S1841x256 main_cst_6
  let main_v21 : IVec S1841x256 1 := cmpf .olt main_v19 main_v20
  let main_c_7 : IVec S_ 1 := constantI S_ 1 1#1
  let main_v22 : IVec S_ 1 := (fun x v => Host.reduce IntOp.andi x v reducesTo_S1841x256_S_d0_1 h_S_) main_v21 main_c_7
  let main_v23 : IVec S_ 1 := andi main_v18 main_v22
  let main_v24 : FVec F S512x256 .f32 := Host.absf main_arg9
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg11 main_arg12 main_arg13 main_v33

def fn {F : FTy → Type} [FloatOps F] (main_arg0 : FVec F S65536x256 .f32) (main_arg1 : FVec F S8x512 .f32) (main_arg2 : IVec S65536 32) (main_arg3 : IVec S2x458752 32) (main_arg4 : IVec S458752 32) (main_arg5 : IVec S65536 32) (main_arg6 : FVec F S1x256 .f32) (main_arg7 : FVec F S1x256 .f32) (main_arg8 : FVec F S1841x256 .f32) (main_arg9 : FVec F S512x256 .f32) (main_arg10 : FVec F S256 .f32) (main_arg11 : FVec F S1x256 .f32) (main_arg12 : FVec F S1x256 .f32) (main_arg13 : FVec F S1841x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S8x512 .f32 := Host.absf main_arg1
  let main_cst_0 : FVec F S_ .f32 := constant S_ .f32 0x7F800000#32
  let main_v5 : FVec F S8x512 .f32 := broadcastInDim S8x512 ![] bcast_S_S8x512 main_cst_0
  let main_v6 : IVec S8x512 1 := cmpf .olt main_v4 main_v5
  let main_c_1 : IVec S_ 1 := constantI S_ 1 1#1
  let main_v7 : IVec S_ 1 := (fun x v => Host.reduce IntOp.andi x v reducesTo_S8x512_S_d0_1 h_S_) main_v6 main_c_1
  let main_v8 : IVec S_ 1 := andi main_v3 main_v7
  let main_v9 : FVec F S1x256 .f32 := Host.absf main_arg6
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S1x256 .f32 := Host.absf main_arg7
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg8 main_arg9 main_arg10 main_arg11 main_arg12 main_arg13 main_v13 main_v16
-- ==== Kernel.lean ====
abbrev S65536x256 : Shape := ⟨2, ![65536, 256]⟩
abbrev S8x512 : Shape := ⟨2, ![8, 512]⟩
abbrev S65536 : Shape := ⟨1, ![65536]⟩
abbrev S2x458752 : Shape := ⟨2, ![2, 458752]⟩
abbrev S458752 : Shape := ⟨1, ![458752]⟩
abbrev S1x256 : Shape := ⟨2, ![1, 256]⟩
abbrev S1841x256 : Shape := ⟨2, ![1841, 256]⟩
abbrev S512x256 : Shape := ⟨2, ![512, 256]⟩
abbrev S256 : Shape := ⟨1, ![256]⟩
abbrev S65536x1 : Shape := ⟨2, ![65536, 1]⟩
abbrev S1x7 : Shape := ⟨2, ![1, 7]⟩
abbrev S65536x7 : Shape := ⟨2, ![65536, 7]⟩
abbrev S1x458752 : Shape := ⟨2, ![1, 458752]⟩
abbrev S_ : Shape := ⟨0, ![]⟩
abbrev S8x1 : Shape := ⟨2, ![8, 1]⟩
abbrev S8x256 : Shape := ⟨2, ![8, 256]⟩
abbrev S8x32x8 : Shape := ⟨3, ![8, 32, 8]⟩
abbrev S8x32 : Shape := ⟨2, ![8, 32]⟩
abbrev S8x32x1 : Shape := ⟨3, ![8, 32, 1]⟩
abbrev S4096x256 : Shape := ⟨2, ![4096, 256]⟩
abbrev S65536x263 : Shape := ⟨2, ![65536, 263]⟩
abbrev S458752x1 : Shape := ⟨2, ![458752, 1]⟩
abbrev S458752x263 : Shape := ⟨2, ![458752, 263]⟩
abbrev S65536x1841 : Shape := ⟨2, ![65536, 1841]⟩
abbrev S1024x1841 : Shape := ⟨2, ![1024, 1841]⟩
abbrev S1024x256 : Shape := ⟨2, ![1024, 256]⟩

abbrev nBuf : Space → Nat
  | .hbm => 216
  | .vmem => 30
  | .smem => 0
  | _ => 0

abbrev hbmTy0_0 (i : Nat) : BufTy := match i % 128 with
  | 0 => ⟨S65536x256, .f32⟩
  | 1 => ⟨S8x512, .f32⟩
  | 2 => ⟨S65536, .i32⟩
  | 3 => ⟨S2x458752, .i32⟩
  | 4 => ⟨S458752, .i32⟩
  | 5 => ⟨S65536, .i32⟩
  | 6 => ⟨S1x256, .f32⟩
  | 7 => ⟨S1x256, .f32⟩
  | 8 => ⟨S1841x256, .f32⟩
  | 9 => ⟨S512x256, .f32⟩
  | 10 => ⟨S256, .f32⟩
  | 11 => ⟨S1x256, .f32⟩
  | 12 => ⟨S1x256, .f32⟩
  | 13 => ⟨S1841x256, .f32⟩
  | 14 => ⟨S65536x1, .i32⟩
  | 15 => ⟨S1x7, .i32⟩
  | 16 => ⟨S65536x7, .i32⟩
  | 17 => ⟨S65536x7, .i32⟩
  | 18 => ⟨S65536x7, .i1⟩
  | 19 => ⟨S65536x7, .f32⟩
  | 20 => ⟨S1x458752, .i32⟩
  | 21 => ⟨S458752, .i32⟩
  | 22 => ⟨S1x458752, .i32⟩
  | 23 => ⟨S458752, .i32⟩
  | 24 => ⟨S_, .i32⟩
  | 25 => ⟨S458752, .i32⟩
  | 26 => ⟨S458752, .i32⟩
  | 27 => ⟨S458752, .i32⟩
  | 28 => ⟨S_, .f32⟩
  | 29 => ⟨S65536x1, .f32⟩
  | 30 => ⟨S_, .f32⟩
  | 31 => ⟨S8x1, .f32⟩
  | 32 => ⟨S65536x1, .i32⟩
  | 33 => ⟨S8x1, .f32⟩
  | 34 => ⟨S_, .f32⟩
  | 35 => ⟨S8x1, .f32⟩
  | 36 => ⟨S8x1, .f32⟩
  | 37 => ⟨S_, .f32⟩
  | 38 => ⟨S8x1, .f32⟩
  | 39 => ⟨S8x1, .f32⟩
  | 40 => ⟨S_, .f32⟩
  | 41 => ⟨S8x1, .f32⟩
  | 42 => ⟨S8x1, .f32⟩
  | 43 => ⟨S_, .f32⟩
  | 44 => ⟨S8x256, .f32⟩
  | 45 => ⟨S65536x1, .i32⟩
  | 46 => ⟨S8x256, .f32⟩
  | 47 => ⟨S8x256, .f32⟩
  | 48 => ⟨S8x256, .f32⟩
  | 49 => ⟨S8x32x8, .f32⟩
  | 50 => ⟨S_, .f32⟩
  | 51 => ⟨S8x32, .f32⟩
  | 52 => ⟨S8x32x1, .f32⟩
  | 53 => ⟨S8x32x8, .f32⟩
  | 54 => ⟨S8x256, .f32⟩
  | 55 => ⟨S_, .i32⟩
  | 56 => ⟨S65536, .i32⟩
  | 57 => ⟨S65536, .i1⟩
  | 58 => ⟨S_, .i32⟩
  | 59 => ⟨S65536, .i32⟩
  | 60 => ⟨S65536, .i32⟩
  | 61 => ⟨S65536, .i32⟩
  | 62 => ⟨S65536x1, .i32⟩
  | 63 => ⟨S65536x256, .f32⟩
  | 64 => ⟨S65536x256, .f32⟩
  | 65 => ⟨S65536x256, .f32⟩
  | 66 => ⟨S_, .f32⟩
  | 67 => ⟨S8x256, .f32⟩
  | 68 => ⟨S65536x1, .i32⟩
  | 69 => ⟨S8x256, .f32⟩
  | 70 => ⟨S8x256, .f32⟩
  | 71 => ⟨S8x256, .f32⟩
  | 72 => ⟨S8x32x8, .f32⟩
  | 73 => ⟨S_, .f32⟩
  | 74 => ⟨S8x32, .f32⟩
  | 75 => ⟨S8x32x1, .f32⟩
  | 76 => ⟨S8x32x8, .f32⟩
  | 77 => ⟨S8x256, .f32⟩
  | 78 => ⟨S_, .f32⟩
  | 79 => ⟨S8x256, .f32⟩
  | 80 => ⟨S8x256, .f32⟩
  | 81 => ⟨S8x256, .f32⟩
  | 82 => ⟨S_, .f32⟩
  | 83 => ⟨S8x256, .f32⟩
  | 84 => ⟨S8x256, .f32⟩
  | 85 => ⟨S_, .i32⟩
  | 86 => ⟨S65536, .i32⟩
  | 87 => ⟨S65536, .i1⟩
  | 88 => ⟨S_, .i32⟩
  | 89 => ⟨S65536, .i32⟩
  | 90 => ⟨S65536, .i32⟩
  | 91 => ⟨S65536, .i32⟩
  | 92 => ⟨S65536x1, .i32⟩
  | 93 => ⟨S65536x256, .f32⟩
  | 94 => ⟨S65536x256, .f32⟩
  | 95 => ⟨S65536x263, .f32⟩
  | 96 => ⟨S_, .i32⟩
  | 97 => ⟨S458752, .i32⟩
  | 98 => ⟨S458752, .i1⟩
  | 99 => ⟨S_, .i32⟩
  | 100 => ⟨S458752, .i32⟩
  | 101 => ⟨S458752, .i32⟩
  | 102 => ⟨S458752, .i32⟩
  | 103 => ⟨S458752x1, .i32⟩
  | 104 => ⟨S458752x263, .f32⟩
  | 105 => ⟨S_, .f32⟩
  | 106 => ⟨S458752x263, .f32⟩
  | 107 => ⟨S458752x1, .i32⟩
  | 108 => ⟨S458752x263, .f32⟩
  | 109 => ⟨S65536x1841, .f32⟩
  | 110 => ⟨S8x512, .f32⟩
  | 111 => ⟨S8x512, .f32⟩
  | 112 => ⟨S_, .f32⟩
  | 113 => ⟨S8x512, .f32⟩
  | 114 => ⟨S8x512, .f32⟩
  | 115 => ⟨S_, .f32⟩
  | 116 => ⟨S8x512, .f32⟩
  | 117 => ⟨S8x512, .f32⟩
  | 118 => ⟨S8x512, .f32⟩
  | 119 => ⟨S8x256, .f32⟩
  | 120 => ⟨S1x256, .f32⟩
  | 121 => ⟨S8x256, .f32⟩
  | 122 => ⟨S8x256, .f32⟩
  | 123 => ⟨S_, .i32⟩
  | 124 => ⟨S65536, .i32⟩
  | 125 => ⟨S65536, .i1⟩
  | 126 => ⟨S_, .i32⟩
  | 127 => ⟨S65536, .i32⟩
  | _ => ⟨S65536x256, .f32⟩

abbrev hbmTy0_1 (i : Nat) : BufTy := match i % 128 with
  | 0 => ⟨S65536, .i32⟩
  | 1 => ⟨S65536, .i32⟩
  | 2 => ⟨S65536x1, .i32⟩
  | 3 => ⟨S65536x256, .f32⟩
  | 4 => ⟨S65536x256, .f32⟩
  | 5 => ⟨S_, .f32⟩
  | 6 => ⟨S65536x1, .f32⟩
  | 7 => ⟨S_, .f32⟩
  | 8 => ⟨S8x1, .f32⟩
  | 9 => ⟨S65536x1, .i32⟩
  | 10 => ⟨S8x1, .f32⟩
  | 11 => ⟨S_, .f32⟩
  | 12 => ⟨S8x1, .f32⟩
  | 13 => ⟨S8x1, .f32⟩
  | 14 => ⟨S_, .f32⟩
  | 15 => ⟨S8x1, .f32⟩
  | 16 => ⟨S8x1, .f32⟩
  | 17 => ⟨S_, .f32⟩
  | 18 => ⟨S8x1, .f32⟩
  | 19 => ⟨S8x1, .f32⟩
  | 20 => ⟨S_, .f32⟩
  | 21 => ⟨S8x256, .f32⟩
  | 22 => ⟨S65536x1, .i32⟩
  | 23 => ⟨S8x256, .f32⟩
  | 24 => ⟨S8x256, .f32⟩
  | 25 => ⟨S8x256, .f32⟩
  | 26 => ⟨S8x32x8, .f32⟩
  | 27 => ⟨S_, .f32⟩
  | 28 => ⟨S8x32, .f32⟩
  | 29 => ⟨S8x32x1, .f32⟩
  | 30 => ⟨S8x32x8, .f32⟩
  | 31 => ⟨S8x256, .f32⟩
  | 32 => ⟨S_, .i32⟩
  | 33 => ⟨S65536, .i32⟩
  | 34 => ⟨S65536, .i1⟩
  | 35 => ⟨S_, .i32⟩
  | 36 => ⟨S65536, .i32⟩
  | 37 => ⟨S65536, .i32⟩
  | 38 => ⟨S65536, .i32⟩
  | 39 => ⟨S65536x1, .i32⟩
  | 40 => ⟨S65536x256, .f32⟩
  | 41 => ⟨S65536x256, .f32⟩
  | 42 => ⟨S65536x256, .f32⟩
  | 43 => ⟨S_, .f32⟩
  | 44 => ⟨S8x256, .f32⟩
  | 45 => ⟨S65536x1, .i32⟩
  | 46 => ⟨S8x256, .f32⟩
  | 47 => ⟨S8x256, .f32⟩
  | 48 => ⟨S8x256, .f32⟩
  | 49 => ⟨S8x32x8, .f32⟩
  | 50 => ⟨S_, .f32⟩
  | 51 => ⟨S8x32, .f32⟩
  | 52 => ⟨S8x32x1, .f32⟩
  | 53 => ⟨S8x32x8, .f32⟩
  | 54 => ⟨S8x256, .f32⟩
  | 55 => ⟨S_, .f32⟩
  | 56 => ⟨S8x256, .f32⟩
  | 57 => ⟨S8x256, .f32⟩
  | 58 => ⟨S8x256, .f32⟩
  | 59 => ⟨S_, .f32⟩
  | 60 => ⟨S8x256, .f32⟩
  | 61 => ⟨S8x256, .f32⟩
  | 62 => ⟨S_, .i32⟩
  | 63 => ⟨S65536, .i32⟩
  | 64 => ⟨S65536, .i1⟩
  | 65 => ⟨S_, .i32⟩
  | 66 => ⟨S65536, .i32⟩
  | 67 => ⟨S65536, .i32⟩
  | 68 => ⟨S65536, .i32⟩
  | 69 => ⟨S65536x1, .i32⟩
  | 70 => ⟨S65536x256, .f32⟩
  | 71 => ⟨S65536x256, .f32⟩
  | 72 => ⟨S65536x263, .f32⟩
  | 73 => ⟨S_, .i32⟩
  | 74 => ⟨S458752, .i32⟩
  | 75 => ⟨S458752, .i1⟩
  | 76 => ⟨S_, .i32⟩
  | 77 => ⟨S458752, .i32⟩
  | 78 => ⟨S458752, .i32⟩
  | 79 => ⟨S458752, .i32⟩
  | 80 => ⟨S458752x1, .i32⟩
  | 81 => ⟨S458752x263, .f32⟩
  | 82 => ⟨S_, .f32⟩
  | 83 => ⟨S458752x263, .f32⟩
  | 84 => ⟨S458752x1, .i32⟩
  | 85 => ⟨S458752x263, .f32⟩
  | 86 => ⟨S65536x1841, .f32⟩
  | 87 => ⟨S65536x256, .f32⟩
  | _ => ⟨S65536x256, .f32⟩

abbrev hbmTy (i : Nat) : BufTy := match i / 128 with
  | 0 => hbmTy0_0 i
  | 1 => hbmTy0_1 i
  | _ => ⟨S65536x256, .f32⟩

abbrev bufTy : (tb : Table) → Fin (tcTables nBuf tb) → BufTy
  | .hbm, ⟨i, _⟩ => hbmTy i
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S1x256, .f32⟩
  | .local _ .vmem, ⟨5, _⟩ => ⟨S1x256, .f32⟩
  | .local _ .vmem, ⟨6, _⟩ => ⟨S4096x256, .f32⟩
  | .local _ .vmem, ⟨7, _⟩ => ⟨S4096x256, .f32⟩
  | .local _ .vmem, ⟨8, _⟩ => ⟨S1024x1841, .f32⟩
  | .local _ .vmem, ⟨9, _⟩ => ⟨S1024x1841, .f32⟩
  | .local _ .vmem, ⟨10, _⟩ => ⟨S1841x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S4096x256, .f32⟩
  | .local _ .vmem, ⟨16, _⟩ => ⟨S4096x256, .f32⟩
  | .local _ .vmem, ⟨17, _⟩ => ⟨S4096x256, .f32⟩
  | .local _ .vmem, ⟨18, _⟩ => ⟨S4096x256, .f32⟩
  | .local _ .vmem, ⟨19, _⟩ => ⟨S1x256, .f32⟩
  | .local _ .vmem, ⟨20, _⟩ => ⟨S1x256, .f32⟩
  | .local _ .vmem, ⟨21, _⟩ => ⟨S4096x256, .f32⟩
  | .local _ .vmem, ⟨22, _⟩ => ⟨S4096x256, .f32⟩
  | .local _ .vmem, ⟨23, _⟩ => ⟨S1024x1841, .f32⟩
  | .local _ .vmem, ⟨24, _⟩ => ⟨S1024x1841, .f32⟩
  | .local _ .vmem, ⟨25, _⟩ => ⟨S1841x256, .f32⟩
  | .local _ .vmem, ⟨26, _⟩ => ⟨S1024x256, .f32⟩
  | .local _ .vmem, ⟨27, _⟩ => ⟨S1024x256, .f32⟩
  | .local _ .vmem, ⟨28, _⟩ => ⟨S1024x256, .f32⟩
  | .local _ .vmem, ⟨29, _⟩ => ⟨S1024x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_cst_0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_v14 : Ref sig .tc := ⟨.hbm, 38, rfl⟩
abbrev main_v15 : Ref sig .tc := ⟨.hbm, 39, rfl⟩
abbrev main_cst_3 : Ref sig .tc := ⟨.hbm, 40, rfl⟩
abbrev main_v16 : Ref sig .tc := ⟨.hbm, 41, rfl⟩
abbrev main_v17 : Ref sig .tc := ⟨.hbm, 42, rfl⟩
abbrev main_cst_4 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_6 : Ref sig .tc := ⟨.hbm, 55, rfl⟩
abbrev main_v28 : Ref sig .tc := ⟨.hbm, 56, rfl⟩
abbrev main_v29 : Ref sig .tc := ⟨.hbm, 57, rfl⟩
abbrev main_c_7 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_8 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_10 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_11 : Ref sig .tc := ⟨.hbm, 82, rfl⟩
abbrev main_v50 : Ref sig .tc := ⟨.hbm, 83, rfl⟩
abbrev main_v51 : Ref sig .tc := ⟨.hbm, 84, rfl⟩
abbrev main_c_12 : Ref sig .tc := ⟨.hbm, 85, rfl⟩
abbrev main_v52 : Ref sig .tc := ⟨.hbm, 86, rfl⟩
abbrev main_v53 : Ref sig .tc := ⟨.hbm, 87, rfl⟩
abbrev main_c_13 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_c_14 : Ref sig .tc := ⟨.hbm, 96, rfl⟩
abbrev main_v61 : Ref sig .tc := ⟨.hbm, 97, rfl⟩
abbrev main_v62 : Ref sig .tc := ⟨.hbm, 98, rfl⟩
abbrev main_c_15 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_16 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_call1_v0 : Ref sig .tc := ⟨.hbm, 110, rfl⟩
abbrev main_call1_v1 : Ref sig .tc := ⟨.hbm, 111, rfl⟩
abbrev main_call1_cst : Ref sig .tc := ⟨.hbm, 112, rfl⟩
abbrev main_call1_v2 : Ref sig .tc := ⟨.hbm, 113, rfl⟩
abbrev main_call1_v3 : Ref sig .tc := ⟨.hbm, 114, rfl⟩
abbrev main_call1_cst_0 : Ref sig .tc := ⟨.hbm, 115, rfl⟩
abbrev main_call1_v4 : Ref sig .tc := ⟨.hbm, 116, rfl⟩
abbrev main_call1_v5 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_c_17 : Ref sig .tc := ⟨.hbm, 123, rfl⟩
abbrev main_v77 : Ref sig .tc := ⟨.hbm, 124, rfl⟩
abbrev main_v78 : Ref sig .tc := ⟨.hbm, 125, rfl⟩
abbrev main_c_18 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_cst_19 : Ref sig .tc := ⟨.hbm, 133, rfl⟩
abbrev main_v85 : Ref sig .tc := ⟨.hbm, 134, rfl⟩
abbrev main_cst_20 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_cst_21 : Ref sig .tc := ⟨.hbm, 139, rfl⟩
abbrev main_v89 : Ref sig .tc := ⟨.hbm, 140, rfl⟩
abbrev main_v90 : Ref sig .tc := ⟨.hbm, 141, rfl⟩
abbrev main_cst_22 : Ref sig .tc := ⟨.hbm, 142, rfl⟩
abbrev main_v91 : Ref sig .tc := ⟨.hbm, 143, rfl⟩
abbrev main_v92 : Ref sig .tc := ⟨.hbm, 144, rfl⟩
abbrev main_cst_23 : Ref sig .tc := ⟨.hbm, 145, rfl⟩
abbrev main_v93 : Ref sig .tc := ⟨.hbm, 146, rfl⟩
abbrev main_v94 : Ref sig .tc := ⟨.hbm, 147, rfl⟩
abbrev main_cst_24 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_cst_25 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_c_26 : Ref sig .tc := ⟨.hbm, 160, rfl⟩
abbrev main_v105 : Ref sig .tc := ⟨.hbm, 161, rfl⟩
abbrev main_v106 : Ref sig .tc := ⟨.hbm, 162, rfl⟩
abbrev main_c_27 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_cst_28 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_cst_29 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_cst_30 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_cst_31 : Ref sig .tc := ⟨.hbm, 187, rfl⟩
abbrev main_v127 : Ref sig .tc := ⟨.hbm, 188, rfl⟩
abbrev main_v128 : Ref sig .tc := ⟨.hbm, 189, rfl⟩
abbrev main_c_32 : Ref sig .tc := ⟨.hbm, 190, rfl⟩
abbrev main_v129 : Ref sig .tc := ⟨.hbm, 191, rfl⟩
abbrev main_v130 : Ref sig .tc := ⟨.hbm, 192, rfl⟩
abbrev main_c_33 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_c_34 : Ref sig .tc := ⟨.hbm, 201, rfl⟩
abbrev main_v138 : Ref sig .tc := ⟨.hbm, 202, rfl⟩
abbrev main_v139 : Ref sig .tc := ⟨.hbm, 203, rfl⟩
abbrev main_c_35 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_cst_36 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1841 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1841x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4096x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1841 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1841x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S65536_S65536x1_0 : S65536.BroadcastsInDim S65536x1 (![0] : Fin 1 → Fin S65536x1.rank)
  bcast_S65536x1_S65536x7_0_1 : S65536x1.BroadcastsInDim S65536x7 (![0, 1] : Fin 2 → Fin S65536x7.rank)
  bcast_S1x7_S65536x7_0_1 : S1x7.BroadcastsInDim S65536x7 (![0, 1] : Fin 2 → Fin S65536x7.rank)
  slices_S2x458752_S1x458752_0_0 : S2x458752.Slices ![0, 0] S1x458752
  shapeCasts_S1x458752_S458752 : S1x458752.ShapeCasts S458752
  slices_S2x458752_S1x458752_1_0 : S2x458752.Slices ![1, 0] S1x458752
  bcast_S_S458752 : S_.BroadcastsInDim S458752 (![] : Fin 0 → Fin S458752.rank)
  bcast_S_S65536x1 : S_.BroadcastsInDim S65536x1 (![] : Fin 0 → Fin S65536x1.rank)
  bcast_S_S8x1 : S_.BroadcastsInDim S8x1 (![] : Fin 0 → Fin S8x1.rank)
  bcast_S_S8x256 : S_.BroadcastsInDim S8x256 (![] : Fin 0 → Fin S8x256.rank)
  bcast_S8x1_S8x256_0_1 : S8x1.BroadcastsInDim S8x256 (![0, 1] : Fin 2 → Fin S8x256.rank)
  shapeCasts_S8x256_S8x32x8 : S8x256.ShapeCasts S8x32x8
  reducesTo_S8x32x8_S8x32_d2 : S8x32x8.ReducesTo [2] S8x32
  h_S_ : 0 < S_.numel
  bcast_S8x32_S8x32x1_0_1 : S8x32.BroadcastsInDim S8x32x1 (![0, 1] : Fin 2 → Fin S8x32x1.rank)
  bcast_S8x32x1_S8x32x8_0_1_2 : S8x32x1.BroadcastsInDim S8x32x8 (![0, 1, 2] : Fin 3 → Fin S8x32x8.rank)
  shapeCasts_S8x32x8_S8x256 : S8x32x8.ShapeCasts S8x256
  bcast_S_S65536 : S_.BroadcastsInDim S65536 (![] : Fin 0 → Fin S65536.rank)
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  broadcasts_S1x256_S4096x256 : S1x256.Broadcasts S4096x256
  concatenates_S65536x256_S65536x7_S65536x263_d1 : Shape.Concatenates [S65536x256, S65536x7] S65536x263 1
  bcast_S458752_S458752x1_0 : S458752.BroadcastsInDim S458752x1 (![0] : Fin 1 → Fin S458752x1.rank)
  bcast_S_S458752x263 : S_.BroadcastsInDim S458752x263 (![] : Fin 0 → Fin S458752x263.rank)
  shapeCasts_S458752x263_S65536x1841 : S458752x263.ShapeCasts S65536x1841
  bcast_S_S8x512 : S_.BroadcastsInDim S8x512 (![] : Fin 0 → Fin S8x512.rank)
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  inb_S1024x1841_S1024x1841_0_0 : ∀ a, (![0, 0] : Fin 2 → Nat) a + S1024x1841.size a ≤ S1024x1841.size a
  h_S1024x1841 : 0 < S1024x1841.numel
  shapeCasts_S1024x1841_S1024x1841 : S1024x1841.ShapeCasts S1024x1841
  bitsLt_bf16_f32 : FTy.bits .bf16 < FTy.bits .f32
  inb_S1841x256_S1841x256_0_0 : ∀ a, (![0, 0] : Fin 2 → Nat) a + S1841x256.size a ≤ S1841x256.size a
  h_S1841x256 : 0 < S1841x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  scatter_S8x1_S65536x1_S65536x1_1_0_0_1_wf : ScatterDims.WF S8x1 S65536x1 S65536x1 [1] [0] [0] 1
  scatter_S8x256_S65536x1_S65536x256_1_0_0_1_wf : ScatterDims.WF S8x256 S65536x1 S65536x256 [1] [0] [0] 1
  gather_S8x256_S65536x1_S65536x256_1_0_n_n_0_1_1256_wf : GatherDims.WF S8x256 S65536x1 S65536x256 [1] [0] [] [0] [] 1 ![1, 256]
  gather_S65536x263_S458752x1_S458752x263_1_0_n_n_0_1_1263_wf : GatherDims.WF S65536x263 S458752x1 S458752x263 [1] [0] [] [0] [] 1 ![1, 263]
  scatter_S458752x263_S458752x1_S458752x263_1_0_0_1_wf : ScatterDims.WF S458752x263 S458752x1 S458752x263 [1] [0] [0] 1
  dot_S8x512_S512x256_S8x256_1_0_0_1_n_n_wf : DotDims.WF S8x512 S512x256 S8x256 [1] [0] [0] [1] [] []
  dot_S1024x1841_S1841x256_S1024x256_1_0_0_1_n_n_wf : DotDims.WF S1024x1841 S1841x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S65536x256.size a
  hwx0_1 : ∀ i : grid0.Coords, EltTy.bits .f32 = 32 ∨ (Rect.block (s := S65536x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S65536x256.size a
  hwx0_4 : ∀ i : grid0.Coords, EltTy.bits .f32 = 32 ∨ (Rect.block (s := S65536x256) S4096x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1841.size a ≤ S65536x1841.size a
  hwx1_0 : ∀ i : grid1.Coords, EltTy.bits .f32 = 32 ∨ (Rect.block (s := S65536x1841) S1024x1841.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1841x256.size a ≤ S1841x256.size a
  hwx1_1 : ∀ i : grid1.Coords, EltTy.bits .f32 = 32 ∨ (Rect.block (s := S1841x256) S1841x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S65536x256.size a
  hwx1_2 : ∀ i : grid1.Coords, EltTy.bits .f32 = 32 ∨ (Rect.block (s := S65536x256) S1024x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S65536x256.size a
  hwx1_3 : ∀ i : grid1.Coords, EltTy.bits .f32 = 32 ∨ (Rect.block (s := S65536x256) S1024x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S65536x256.size a
  hwx2_0 : ∀ i : grid2.Coords, EltTy.bits .f32 = 32 ∨ (Rect.block (s := S65536x256) S4096x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S65536x256.size a
  hwx2_1 : ∀ i : grid2.Coords, EltTy.bits .f32 = 32 ∨ (Rect.block (s := S65536x256) S4096x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4096x256.size a ≤ S65536x256.size a
  hwx2_4 : ∀ i : grid2.Coords, EltTy.bits .f32 = 32 ∨ (Rect.block (s := S65536x256) S4096x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1841.size a ≤ S65536x1841.size a
  hwx3_0 : ∀ i : grid3.Coords, EltTy.bits .f32 = 32 ∨ (Rect.block (s := S65536x1841) S1024x1841.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1841x256.size a ≤ S1841x256.size a
  hwx3_1 : ∀ i : grid3.Coords, EltTy.bits .f32 = 32 ∨ (Rect.block (s := S1841x256) S1841x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x256.size a ≤ S65536x256.size a
  hwx3_2 : ∀ i : grid3.Coords, EltTy.bits .f32 = 32 ∨ (Rect.block (s := S65536x256) S1024x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x256.size a ≤ S65536x256.size a
  hwx3_3 : ∀ i : grid3.Coords, EltTy.bits .f32 = 32 ∨ (Rect.block (s := S65536x256) S1024x256.size (cc3_transform_3 i) (hinb3_3 i)).WholeWords (EltTy.packing .f32)

variable [Facts₀]

def scatter_S8x1_S65536x1_S65536x1_1_0_0_1 : ScatterDims S8x1 S65536x1 S65536x1 where
  updateWindowDims := [1]
  insertedWindowDims := [0]
  scatterDimsToOperandDims := [0]
  indexVectorDim := 1
  wf := scatter_S8x1_S65536x1_S65536x1_1_0_0_1_wf
def scatter_S8x256_S65536x1_S65536x256_1_0_0_1 : ScatterDims S8x256 S65536x1 S65536x256 where
  updateWindowDims := [1]
  insertedWindowDims := [0]
  scatterDimsToOperandDims := [0]
  indexVectorDim := 1
  wf := scatter_S8x256_S65536x1_S65536x256_1_0_0_1_wf
def gather_S8x256_S65536x1_S65536x256_1_0_n_n_0_1_1256 : GatherDims S8x256 S65536x1 S65536x256 where
  offsetDims := [1]
  collapsedSliceDims := [0]
  operandBatchingDims := []
  startIndicesBatchingDims := []
  startIndexMap := [0]
  indexVectorDim := 1
  sliceSizes := ![1, 256]
  wf := gather_S8x256_S65536x1_S65536x256_1_0_n_n_0_1_1256_wf
def gather_S65536x263_S458752x1_S458752x263_1_0_n_n_0_1_1263 : GatherDims S65536x263 S458752x1 S458752x263 where
  offsetDims := [1]
  collapsedSliceDims := [0]
  operandBatchingDims := []
  startIndicesBatchingDims := []
  startIndexMap := [0]
  indexVectorDim := 1
  sliceSizes := ![1, 263]
  wf := gather_S65536x263_S458752x1_S458752x263_1_0_n_n_0_1_1263_wf
def scatter_S458752x263_S458752x1_S458752x263_1_0_0_1 : ScatterDims S458752x263 S458752x1 S458752x263 where
  updateWindowDims := [1]
  insertedWindowDims := [0]
  scatterDimsToOperandDims := [0]
  indexVectorDim := 1
  wf := scatter_S458752x263_S458752x1_S458752x263_1_0_0_1_wf
def dot_S8x512_S512x256_S8x256_1_0_0_1_n_n : DotDims S8x512 S512x256 S8x256 where
  lhsContracting := [1]
  rhsContracting := [0]
  lhsNonContracting := [0]
  rhsNonContracting := [1]
  lhsBatch := []
  rhsBatch := []
  wf := dot_S8x512_S512x256_S8x256_1_0_0_1_n_n_wf
def dot_S1024x1841_S1841x256_S1024x256_1_0_0_1_n_n : DotDims S1024x1841 S1841x256 S1024x256 where
  lhsContracting := [1]
  rhsContracting := [0]
  lhsNonContracting := [0]
  rhsNonContracting := [1]
  lhsBatch := []
  rhsBatch := []
  wf := dot_S1024x1841_S1841x256_S1024x256_1_0_0_1_n_n_wf

abbrev win0_0 : Pipeline.Window sig grid0 :=
  Pipeline.Window.ofSpec (Memref.whole main_v35) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v58) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v59) S4096x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v71) S1024x1841.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S1841x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v83) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v84) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v112) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v135) S4096x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v136) S4096x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v148) S1024x1841.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg13) S1841x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg0) S1024x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v149) S1024x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S65536x256 : Shape := ⟨2, ![65536, 256]⟩
abbrev S8x512 : Shape := ⟨2, ![8, 512]⟩
abbrev S65536 : Shape := ⟨1, ![65536]⟩
abbrev S2x458752 : Shape := ⟨2, ![2, 458752]⟩
abbrev S458752 : Shape := ⟨1, ![458752]⟩
abbrev S1x256 : Shape := ⟨2, ![1, 256]⟩
abbrev S1841x256 : Shape := ⟨2, ![1841, 256]⟩
abbrev S512x256 : Shape := ⟨2, ![512, 256]⟩
abbrev S256 : Shape := ⟨1, ![256]⟩
abbrev S_ : Shape := ⟨0, ![]⟩
abbrev S65536x1 : Shape := ⟨2, ![65536, 1]⟩
abbrev S8x1 : Shape := ⟨2, ![8, 1]⟩
abbrev S8x256 : Shape := ⟨2, ![8, 256]⟩
abbrev S8x32x8 : Shape := ⟨3, ![8, 32, 8]⟩
abbrev S8x32 : Shape := ⟨2, ![8, 32]⟩
abbrev S8x32x1 : Shape := ⟨3, ![8, 32, 1]⟩
abbrev S1x7 : Shape := ⟨2, ![1, 7]⟩
abbrev S65536x7 : Shape := ⟨2, ![65536, 7]⟩
abbrev S65536x263 : Shape := ⟨2, ![65536, 263]⟩
abbrev S1x458752 : Shape := ⟨2, ![1, 458752]⟩
abbrev S458752x1 : Shape := ⟨2, ![458752, 1]⟩
abbrev S458752x263 : Shape := ⟨2, ![458752, 263]⟩
abbrev S65536x1841 : Shape := ⟨2, ![65536, 1841]⟩

abbrev nBuf : Space → Nat
  | .hbm => 258
  | .vmem => 0
  | .smem => 0
  | _ => 0

abbrev hbmTy0_0 (i : Nat) : BufTy := match i % 128 with
  | 0 => ⟨S65536x256, .f32⟩
  | 1 => ⟨S8x512, .f32⟩
  | 2 => ⟨S65536, .i32⟩
  | 3 => ⟨S2x458752, .i32⟩
  | 4 => ⟨S458752, .i32⟩
  | 5 => ⟨S65536, .i32⟩
  | 6 => ⟨S1x256, .f32⟩
  | 7 => ⟨S1x256, .f32⟩
  | 8 => ⟨S1841x256, .f32⟩
  | 9 => ⟨S512x256, .f32⟩
  | 10 => ⟨S256, .f32⟩
  | 11 => ⟨S1x256, .f32⟩
  | 12 => ⟨S1x256, .f32⟩
  | 13 => ⟨S1841x256, .f32⟩
  | 14 => ⟨S_, .f32⟩
  | 15 => ⟨S65536x1, .f32⟩
  | 16 => ⟨S_, .f32⟩
  | 17 => ⟨S8x1, .f32⟩
  | 18 => ⟨S65536x1, .i32⟩
  | 19 => ⟨S8x1, .f32⟩
  | 20 => ⟨S_, .f32⟩
  | 21 => ⟨S8x1, .f32⟩
  | 22 => ⟨S8x1, .f32⟩
  | 23 => ⟨S_, .f32⟩
  | 24 => ⟨S8x1, .f32⟩
  | 25 => ⟨S8x1, .f32⟩
  | 26 => ⟨S_, .f32⟩
  | 27 => ⟨S8x1, .f32⟩
  | 28 => ⟨S8x1, .f32⟩
  | 29 => ⟨S_, .f32⟩
  | 30 => ⟨S8x256, .f32⟩
  | 31 => ⟨S65536x1, .i32⟩
  | 32 => ⟨S8x256, .f32⟩
  | 33 => ⟨S8x256, .f32⟩
  | 34 => ⟨S8x256, .f32⟩
  | 35 => ⟨S8x32x8, .f32⟩
  | 36 => ⟨S_, .f32⟩
  | 37 => ⟨S8x32, .f32⟩
  | 38 => ⟨S8x32x1, .f32⟩
  | 39 => ⟨S8x32x8, .f32⟩
  | 40 => ⟨S8x256, .f32⟩
  | 41 => ⟨S_, .i32⟩
  | 42 => ⟨S65536, .i32⟩
  | 43 => ⟨S65536, .i1⟩
  | 44 => ⟨S_, .i32⟩
  | 45 => ⟨S65536, .i32⟩
  | 46 => ⟨S65536, .i32⟩
  | 47 => ⟨S65536, .i32⟩
  | 48 => ⟨S65536x1, .i32⟩
  | 49 => ⟨S65536x256, .f32⟩
  | 50 => ⟨S65536x256, .f32⟩
  | 51 => ⟨S65536x256, .f32⟩
  | 52 => ⟨S_, .f32⟩
  | 53 => ⟨S8x256, .f32⟩
  | 54 => ⟨S65536x1, .i32⟩
  | 55 => ⟨S8x256, .f32⟩
  | 56 => ⟨S8x256, .f32⟩
  | 57 => ⟨S8x256, .f32⟩
  | 58 => ⟨S8x32x8, .f32⟩
  | 59 => ⟨S_, .f32⟩
  | 60 => ⟨S8x32, .f32⟩
  | 61 => ⟨S8x32x1, .f32⟩
  | 62 => ⟨S8x32x8, .f32⟩
  | 63 => ⟨S8x256, .f32⟩
  | 64 => ⟨S_, .f32⟩
  | 65 => ⟨S8x256, .f32⟩
  | 66 => ⟨S8x256, .f32⟩
  | 67 => ⟨S8x256, .f32⟩
  | 68 => ⟨S_, .f32⟩
  | 69 => ⟨S8x256, .f32⟩
  | 70 => ⟨S8x256, .f32⟩
  | 71 => ⟨S_, .i32⟩
  | 72 => ⟨S65536, .i32⟩
  | 73 => ⟨S65536, .i1⟩
  | 74 => ⟨S_, .i32⟩
  | 75 => ⟨S65536, .i32⟩
  | 76 => ⟨S65536, .i32⟩
  | 77 => ⟨S65536, .i32⟩
  | 78 => ⟨S65536x1, .i32⟩
  | 79 => ⟨S65536x256, .f32⟩
  | 80 => ⟨S65536x256, .f32⟩
  | 81 => ⟨S65536x256, .f32⟩
  | 82 => ⟨S65536x256, .f32⟩
  | 83 => ⟨S65536x256, .f32⟩
  | 84 => ⟨S65536x256, .f32⟩
  | 85 => ⟨S65536x256, .f32⟩
  | 86 => ⟨S65536x256, .f32⟩
  | 87 => ⟨S_, .f32⟩
  | 88 => ⟨S65536x256, .f32⟩
  | 89 => ⟨S65536x256, .f32⟩
  | 90 => ⟨S_, .f32⟩
  | 91 => ⟨S65536x256, .f32⟩
  | 92 => ⟨S65536x256, .f32⟩
  | 93 => ⟨S65536x256, .f32⟩
  | 94 => ⟨S65536x1, .i32⟩
  | 95 => ⟨S1x7, .i32⟩
  | 96 => ⟨S65536x7, .i32⟩
  | 97 => ⟨S65536x7, .i32⟩
  | 98 => ⟨S65536x7, .i1⟩
  | 99 => ⟨S65536x7, .f32⟩
  | 100 => ⟨S65536x263, .f32⟩
  | 101 => ⟨S1x458752, .i32⟩
  | 102 => ⟨S458752, .i32⟩
  | 103 => ⟨S1x458752, .i32⟩
  | 104 => ⟨S458752, .i32⟩
  | 105 => ⟨S_, .i32⟩
  | 106 => ⟨S458752, .i32⟩
  | 107 => ⟨S458752, .i32⟩
  | 108 => ⟨S458752, .i32⟩
  | 109 => ⟨S_, .i32⟩
  | 110 => ⟨S458752, .i32⟩
  | 111 => ⟨S458752, .i1⟩
  | 112 => ⟨S_, .i32⟩
  | 113 => ⟨S458752, .i32⟩
  | 114 => ⟨S458752, .i32⟩
  | 115 => ⟨S458752, .i32⟩
  | 116 => ⟨S458752x1, .i32⟩
  | 117 => ⟨S458752x263, .f32⟩
  | 118 => ⟨S_, .f32⟩
  | 119 => ⟨S458752x263, .f32⟩
  | 120 => ⟨S458752x1, .i32⟩
  | 121 => ⟨S458752x263, .f32⟩
  | 122 => ⟨S65536x1841, .f32⟩
  | 123 => ⟨S65536x256, .f32⟩
  | 124 => ⟨S8x512, .f32⟩
  | 125 => ⟨S8x512, .f32⟩
  | 126 => ⟨S_, .f32⟩
  | 127 => ⟨S8x512, .f32⟩
  | _ => ⟨S65536x256, .f32⟩

abbrev hbmTy0_1 (i : Nat) : BufTy := match i % 128 with
  | 0 => ⟨S8x512, .f32⟩
  | 1 => ⟨S_, .f32⟩
  | 2 => ⟨S8x512, .f32⟩
  | 3 => ⟨S8x512, .f32⟩
  | 4 => ⟨S8x512, .f32⟩
  | 5 => ⟨S8x256, .f32⟩
  | 6 => ⟨S1x256, .f32⟩
  | 7 => ⟨S8x256, .f32⟩
  | 8 => ⟨S8x256, .f32⟩
  | 9 => ⟨S_, .i32⟩
  | 10 => ⟨S65536, .i32⟩
  | 11 => ⟨S65536, .i1⟩
  | 12 => ⟨S_, .i32⟩
  | 13 => ⟨S65536, .i32⟩
  | 14 => ⟨S65536, .i32⟩
  | 15 => ⟨S65536, .i32⟩
  | 16 => ⟨S65536x1, .i32⟩
  | 17 => ⟨S65536x256, .f32⟩
  | 18 => ⟨S65536x256, .f32⟩
  | 19 => ⟨S_, .f32⟩
  | 20 => ⟨S65536x1, .f32⟩
  | 21 => ⟨S_, .f32⟩
  | 22 => ⟨S8x1, .f32⟩
  | 23 => ⟨S65536x1, .i32⟩
  | 24 => ⟨S8x1, .f32⟩
  | 25 => ⟨S_, .f32⟩
  | 26 => ⟨S8x1, .f32⟩
  | 27 => ⟨S8x1, .f32⟩
  | 28 => ⟨S_, .f32⟩
  | 29 => ⟨S8x1, .f32⟩
  | 30 => ⟨S8x1, .f32⟩
  | 31 => ⟨S_, .f32⟩
  | 32 => ⟨S8x1, .f32⟩
  | 33 => ⟨S8x1, .f32⟩
  | 34 => ⟨S_, .f32⟩
  | 35 => ⟨S8x256, .f32⟩
  | 36 => ⟨S65536x1, .i32⟩
  | 37 => ⟨S8x256, .f32⟩
  | 38 => ⟨S8x256, .f32⟩
  | 39 => ⟨S8x256, .f32⟩
  | 40 => ⟨S8x32x8, .f32⟩
  | 41 => ⟨S_, .f32⟩
  | 42 => ⟨S8x32, .f32⟩
  | 43 => ⟨S8x32x1, .f32⟩
  | 44 => ⟨S8x32x8, .f32⟩
  | 45 => ⟨S8x256, .f32⟩
  | 46 => ⟨S_, .i32⟩
  | 47 => ⟨S65536, .i32⟩
  | 48 => ⟨S65536, .i1⟩
  | 49 => ⟨S_, .i32⟩
  | 50 => ⟨S65536, .i32⟩
  | 51 => ⟨S65536, .i32⟩
  | 52 => ⟨S65536, .i32⟩
  | 53 => ⟨S65536x1, .i32⟩
  | 54 => ⟨S65536x256, .f32⟩
  | 55 => ⟨S65536x256, .f32⟩
  | 56 => ⟨S65536x256, .f32⟩
  | 57 => ⟨S_, .f32⟩
  | 58 => ⟨S8x256, .f32⟩
  | 59 => ⟨S65536x1, .i32⟩
  | 60 => ⟨S8x256, .f32⟩
  | 61 => ⟨S8x256, .f32⟩
  | 62 => ⟨S8x256, .f32⟩
  | 63 => ⟨S8x32x8, .f32⟩
  | 64 => ⟨S_, .f32⟩
  | 65 => ⟨S8x32, .f32⟩
  | 66 => ⟨S8x32x1, .f32⟩
  | 67 => ⟨S8x32x8, .f32⟩
  | 68 => ⟨S8x256, .f32⟩
  | 69 => ⟨S_, .f32⟩
  | 70 => ⟨S8x256, .f32⟩
  | 71 => ⟨S8x256, .f32⟩
  | 72 => ⟨S8x256, .f32⟩
  | 73 => ⟨S_, .f32⟩
  | 74 => ⟨S8x256, .f32⟩
  | 75 => ⟨S8x256, .f32⟩
  | 76 => ⟨S_, .i32⟩
  | 77 => ⟨S65536, .i32⟩
  | 78 => ⟨S65536, .i1⟩
  | 79 => ⟨S_, .i32⟩
  | 80 => ⟨S65536, .i32⟩
  | 81 => ⟨S65536, .i32⟩
  | 82 => ⟨S65536, .i32⟩
  | 83 => ⟨S65536x1, .i32⟩
  | 84 => ⟨S65536x256, .f32⟩
  | 85 => ⟨S65536x256, .f32⟩
  | 86 => ⟨S65536x256, .f32⟩
  | 87 => ⟨S65536x256, .f32⟩
  | 88 => ⟨S65536x256, .f32⟩
  | 89 => ⟨S65536x256, .f32⟩
  | 90 => ⟨S65536x256, .f32⟩
  | 91 => ⟨S65536x256, .f32⟩
  | 92 => ⟨S_, .f32⟩
  | 93 => ⟨S65536x256, .f32⟩
  | 94 => ⟨S65536x256, .f32⟩
  | 95 => ⟨S_, .f32⟩
  | 96 => ⟨S65536x256, .f32⟩
  | 97 => ⟨S65536x256, .f32⟩
  | 98 => ⟨S65536x256, .f32⟩
  | 99 => ⟨S65536x1, .i32⟩
  | 100 => ⟨S1x7, .i32⟩
  | 101 => ⟨S65536x7, .i32⟩
  | 102 => ⟨S65536x7, .i32⟩
  | 103 => ⟨S65536x7, .i1⟩
  | 104 => ⟨S65536x7, .f32⟩
  | 105 => ⟨S65536x263, .f32⟩
  | 106 => ⟨S1x458752, .i32⟩
  | 107 => ⟨S458752, .i32⟩
  | 108 => ⟨S1x458752, .i32⟩
  | 109 => ⟨S458752, .i32⟩
  | 110 => ⟨S_, .i32⟩
  | 111 => ⟨S458752, .i32⟩
  | 112 => ⟨S458752, .i32⟩
  | 113 => ⟨S458752, .i32⟩
  | 114 => ⟨S_, .i32⟩
  | 115 => ⟨S458752, .i32⟩
  | 116 => ⟨S458752, .i1⟩
  | 117 => ⟨S_, .i32⟩
  | 118 => ⟨S458752, .i32⟩
  | 119 => ⟨S458752, .i32⟩
  | 120 => ⟨S458752, .i32⟩
  | 121 => ⟨S458752x1, .i32⟩
  | 122 => ⟨S458752x263, .f32⟩
  | 123 => ⟨S_, .f32⟩
  | 124 => ⟨S458752x263, .f32⟩
  | 125 => ⟨S458752x1, .i32⟩
  | 126 => ⟨S458752x263, .f32⟩
  | 127 => ⟨S65536x1841, .f32⟩
  | _ => ⟨S65536x256, .f32⟩

abbrev hbmTy0_2 (i : Nat) : BufTy := match i % 128 with
  | 0 => ⟨S65536x256, .f32⟩
  | 1 => ⟨S65536x256, .f32⟩
  | _ => ⟨S65536x256, .f32⟩

abbrev hbmTy (i : Nat) : BufTy := match i / 128 with
  | 0 => hbmTy0_0 i
  | 1 => hbmTy0_1 i
  | 2 => hbmTy0_2 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_cst_3 : Ref sig .tc := ⟨.hbm, 26, rfl⟩
abbrev main_v8 : Ref sig .tc := ⟨.hbm, 27, rfl⟩
abbrev main_v9 : Ref sig .tc := ⟨.hbm, 28, rfl⟩
abbrev main_cst_4 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c : Ref sig .tc := ⟨.hbm, 41, rfl⟩
abbrev main_v20 : Ref sig .tc := ⟨.hbm, 42, rfl⟩
abbrev main_v21 : Ref sig .tc := ⟨.hbm, 43, rfl⟩
abbrev main_c_6 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_7 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_v43 : Ref sig .tc := ⟨.hbm, 70, rfl⟩
abbrev main_c_11 : Ref sig .tc := ⟨.hbm, 71, rfl⟩
abbrev main_v44 : Ref sig .tc := ⟨.hbm, 72, rfl⟩
abbrev main_v45 : Ref sig .tc := ⟨.hbm, 73, rfl⟩
abbrev main_c_12 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_call0_v0 : Ref sig .tc := ⟨.hbm, 85, rfl⟩
abbrev main_call0_v1 : Ref sig .tc := ⟨.hbm, 86, rfl⟩
abbrev main_call0_cst : Ref sig .tc := ⟨.hbm, 87, rfl⟩
abbrev main_call0_v2 : Ref sig .tc := ⟨.hbm, 88, rfl⟩
abbrev main_call0_v3 : Ref sig .tc := ⟨.hbm, 89, rfl⟩
abbrev main_call0_cst_0 : Ref sig .tc := ⟨.hbm, 90, rfl⟩
abbrev main_call0_v4 : Ref sig .tc := ⟨.hbm, 91, rfl⟩
abbrev main_call0_v5 : Ref sig .tc := ⟨.hbm, 92, rfl⟩
abbrev main_v56 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_c_13 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_c_14 : Ref sig .tc := ⟨.hbm, 109, rfl⟩
abbrev main_v66 : Ref sig .tc := ⟨.hbm, 110, rfl⟩
abbrev main_v67 : Ref sig .tc := ⟨.hbm, 111, rfl⟩
abbrev main_c_15 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_cst_16 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_call2_v0 : Ref sig .tc := ⟨.hbm, 124, rfl⟩
abbrev main_call2_v1 : Ref sig .tc := ⟨.hbm, 125, rfl⟩
abbrev main_call2_cst : Ref sig .tc := ⟨.hbm, 126, rfl⟩
abbrev main_call2_v2 : Ref sig .tc := ⟨.hbm, 127, rfl⟩
abbrev main_call2_v3 : Ref sig .tc := ⟨.hbm, 128, rfl⟩
abbrev main_call2_cst_0 : Ref sig .tc := ⟨.hbm, 129, rfl⟩
abbrev main_call2_v4 : Ref sig .tc := ⟨.hbm, 130, rfl⟩
abbrev main_call2_v5 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_c_17 : Ref sig .tc := ⟨.hbm, 137, rfl⟩
abbrev main_v83 : Ref sig .tc := ⟨.hbm, 138, rfl⟩
abbrev main_v84 : Ref sig .tc := ⟨.hbm, 139, rfl⟩
abbrev main_c_18 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_cst_19 : Ref sig .tc := ⟨.hbm, 147, rfl⟩
abbrev main_v91 : Ref sig .tc := ⟨.hbm, 148, rfl⟩
abbrev main_cst_20 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_cst_21 : Ref sig .tc := ⟨.hbm, 153, rfl⟩
abbrev main_v95 : Ref sig .tc := ⟨.hbm, 154, rfl⟩
abbrev main_v96 : Ref sig .tc := ⟨.hbm, 155, rfl⟩
abbrev main_cst_22 : Ref sig .tc := ⟨.hbm, 156, rfl⟩
abbrev main_v97 : Ref sig .tc := ⟨.hbm, 157, rfl⟩
abbrev main_v98 : Ref sig .tc := ⟨.hbm, 158, rfl⟩
abbrev main_cst_23 : Ref sig .tc := ⟨.hbm, 159, rfl⟩
abbrev main_v99 : Ref sig .tc := ⟨.hbm, 160, rfl⟩
abbrev main_v100 : Ref sig .tc := ⟨.hbm, 161, rfl⟩
abbrev main_cst_24 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_cst_25 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_c_26 : Ref sig .tc := ⟨.hbm, 174, rfl⟩
abbrev main_v111 : Ref sig .tc := ⟨.hbm, 175, rfl⟩
abbrev main_v112 : Ref sig .tc := ⟨.hbm, 176, rfl⟩
abbrev main_c_27 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_cst_28 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_cst_29 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_cst_30 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_cst_31 : Ref sig .tc := ⟨.hbm, 201, rfl⟩
abbrev main_v133 : Ref sig .tc := ⟨.hbm, 202, rfl⟩
abbrev main_v134 : Ref sig .tc := ⟨.hbm, 203, rfl⟩
abbrev main_c_32 : Ref sig .tc := ⟨.hbm, 204, rfl⟩
abbrev main_v135 : Ref sig .tc := ⟨.hbm, 205, rfl⟩
abbrev main_v136 : Ref sig .tc := ⟨.hbm, 206, rfl⟩
abbrev main_c_33 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_call3_v0 : Ref sig .tc := ⟨.hbm, 218, rfl⟩
abbrev main_call3_v1 : Ref sig .tc := ⟨.hbm, 219, rfl⟩
abbrev main_call3_cst : Ref sig .tc := ⟨.hbm, 220, rfl⟩
abbrev main_call3_v2 : Ref sig .tc := ⟨.hbm, 221, rfl⟩
abbrev main_call3_v3 : Ref sig .tc := ⟨.hbm, 222, rfl⟩
abbrev main_call3_cst_0 : Ref sig .tc := ⟨.hbm, 223, rfl⟩
abbrev main_call3_v4 : Ref sig .tc := ⟨.hbm, 224, rfl⟩
abbrev main_call3_v5 : Ref sig .tc := ⟨.hbm, 225, rfl⟩
abbrev main_v147 : Ref sig .tc := ⟨.hbm, 226, rfl⟩
abbrev main_call4_v0 : Ref sig .tc := ⟨.hbm, 227, rfl⟩
abbrev main_call4_v1 : Ref sig .tc := ⟨.hbm, 228, rfl⟩
abbrev main_call4_v2 : Ref sig .tc := ⟨.hbm, 229, rfl⟩
abbrev main_call4_v3 : Ref sig .tc := ⟨.hbm, 230, rfl⟩
abbrev main_call4_v4 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_c_34 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_c_35 : Ref sig .tc := ⟨.hbm, 242, rfl⟩
abbrev main_v157 : Ref sig .tc := ⟨.hbm, 243, rfl⟩
abbrev main_v158 : Ref sig .tc := ⟨.hbm, 244, rfl⟩
abbrev main_c_36 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_cst_37 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩

abbrev nD : Nat := 1
abbrev τ : Topo := Topo.v7x

variable {F : FTy → Type} [FloatOps F]

class Facts₀ : Prop where
  bcast_S_S65536x1 : S_.BroadcastsInDim S65536x1 (![] : Fin 0 → Fin S65536x1.rank)
  bcast_S_S8x1 : S_.BroadcastsInDim S8x1 (![] : Fin 0 → Fin S8x1.rank)
  bcast_S65536_S65536x1_0 : S65536.BroadcastsInDim S65536x1 (![0] : Fin 1 → Fin S65536x1.rank)
  bcast_S_S8x256 : S_.BroadcastsInDim S8x256 (![] : Fin 0 → Fin S8x256.rank)
  bcast_S8x1_S8x256_0_1 : S8x1.BroadcastsInDim S8x256 (![0, 1] : Fin 2 → Fin S8x256.rank)
  shapeCasts_S8x256_S8x32x8 : S8x256.ShapeCasts S8x32x8
  reducesTo_S8x32x8_S8x32_d2 : S8x32x8.ReducesTo [2] S8x32
  h_S_ : 0 < S_.numel
  bcast_S8x32_S8x32x1_0_1 : S8x32.BroadcastsInDim S8x32x1 (![0, 1] : Fin 2 → Fin S8x32x1.rank)
  bcast_S8x32x1_S8x32x8_0_1_2 : S8x32x1.BroadcastsInDim S8x32x8 (![0, 1, 2] : Fin 3 → Fin S8x32x8.rank)
  shapeCasts_S8x32x8_S8x256 : S8x32x8.ShapeCasts S8x256
  bcast_S_S65536 : S_.BroadcastsInDim S65536 (![] : Fin 0 → Fin S65536.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S65536x1_S65536x7_0_1 : S65536x1.BroadcastsInDim S65536x7 (![0, 1] : Fin 2 → Fin S65536x7.rank)
  bcast_S1x7_S65536x7_0_1 : S1x7.BroadcastsInDim S65536x7 (![0, 1] : Fin 2 → Fin S65536x7.rank)
  concatenates_S65536x256_S65536x7_S65536x263_d1 : Shape.Concatenates [S65536x256, S65536x7] S65536x263 1
  slices_S2x458752_S1x458752_0_0 : S2x458752.Slices ![0, 0] S1x458752
  shapeCasts_S1x458752_S458752 : S1x458752.ShapeCasts S458752
  slices_S2x458752_S1x458752_1_0 : S2x458752.Slices ![1, 0] S1x458752
  bcast_S_S458752 : S_.BroadcastsInDim S458752 (![] : Fin 0 → Fin S458752.rank)
  bcast_S458752_S458752x1_0 : S458752.BroadcastsInDim S458752x1 (![0] : Fin 1 → Fin S458752x1.rank)
  bcast_S_S458752x263 : S_.BroadcastsInDim S458752x263 (![] : Fin 0 → Fin S458752x263.rank)
  shapeCasts_S458752x263_S65536x1841 : S458752x263.ShapeCasts S65536x1841
  bcast_S_S8x512 : S_.BroadcastsInDim S8x512 (![] : Fin 0 → Fin S8x512.rank)
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  scatter_S8x1_S65536x1_S65536x1_1_0_0_1_wf : ScatterDims.WF S8x1 S65536x1 S65536x1 [1] [0] [0] 1
  scatter_S8x256_S65536x1_S65536x256_1_0_0_1_wf : ScatterDims.WF S8x256 S65536x1 S65536x256 [1] [0] [0] 1
  gather_S8x256_S65536x1_S65536x256_1_0_n_n_0_1_1256_wf : GatherDims.WF S8x256 S65536x1 S65536x256 [1] [0] [] [0] [] 1 ![1, 256]
  gather_S65536x263_S458752x1_S458752x263_1_0_n_n_0_1_1263_wf : GatherDims.WF S65536x263 S458752x1 S458752x263 [1] [0] [] [0] [] 1 ![1, 263]
  scatter_S458752x263_S458752x1_S458752x263_1_0_0_1_wf : ScatterDims.WF S458752x263 S458752x1 S458752x263 [1] [0] [0] 1
  dot_S65536x1841_S1841x256_S65536x256_1_0_0_1_n_n_wf : DotDims.WF S65536x1841 S1841x256 S65536x256 [1] [0] [0] [1] [] []
  dot_S8x512_S512x256_S8x256_1_0_0_1_n_n_wf : DotDims.WF S8x512 S512x256 S8x256 [1] [0] [0] [1] [] []

variable [Facts₀]

def scatter_S8x1_S65536x1_S65536x1_1_0_0_1 : ScatterDims S8x1 S65536x1 S65536x1 where
  updateWindowDims := [1]
  insertedWindowDims := [0]
  scatterDimsToOperandDims := [0]
  indexVectorDim := 1
  wf := scatter_S8x1_S65536x1_S65536x1_1_0_0_1_wf
def scatter_S8x256_S65536x1_S65536x256_1_0_0_1 : ScatterDims S8x256 S65536x1 S65536x256 where
  updateWindowDims := [1]
  insertedWindowDims := [0]
  scatterDimsToOperandDims := [0]
  indexVectorDim := 1
  wf := scatter_S8x256_S65536x1_S65536x256_1_0_0_1_wf
def gather_S8x256_S65536x1_S65536x256_1_0_n_n_0_1_1256 : GatherDims S8x256 S65536x1 S65536x256 where
  offsetDims := [1]
  collapsedSliceDims := [0]
  operandBatchingDims := []
  startIndicesBatchingDims := []
  startIndexMap := [0]
  indexVectorDim := 1
  sliceSizes := ![1, 256]
  wf := gather_S8x256_S65536x1_S65536x256_1_0_n_n_0_1_1256_wf
def gather_S65536x263_S458752x1_S458752x263_1_0_n_n_0_1_1263 : GatherDims S65536x263 S458752x1 S458752x263 where
  offsetDims := [1]
  collapsedSliceDims := [0]
  operandBatchingDims := []
  startIndicesBatchingDims := []
  startIndexMap := [0]
  indexVectorDim := 1
  sliceSizes := ![1, 263]
  wf := gather_S65536x263_S458752x1_S458752x263_1_0_n_n_0_1_1263_wf
def scatter_S458752x263_S458752x1_S458752x263_1_0_0_1 : ScatterDims S458752x263 S458752x1 S458752x263 where
  updateWindowDims := [1]
  insertedWindowDims := [0]
  scatterDimsToOperandDims := [0]
  indexVectorDim := 1
  wf := scatter_S458752x263_S458752x1_S458752x263_1_0_0_1_wf
def dot_S65536x1841_S1841x256_S65536x256_1_0_0_1_n_n : DotDims S65536x1841 S1841x256 S65536x256 where
  lhsContracting := [1]
  rhsContracting := [0]
  lhsNonContracting := [0]
  rhsNonContracting := [1]
  lhsBatch := []
  rhsBatch := []
  wf := dot_S65536x1841_S1841x256_S65536x256_1_0_0_1_n_n_wf
def dot_S8x512_S512x256_S8x256_1_0_0_1_n_n : DotDims S8x512 S512x256 S8x256 where
  lhsContracting := [1]
  rhsContracting := [0]
  lhsNonContracting := [0]
  rhsNonContracting := [1]
  lhsBatch := []
  rhsBatch := []
  wf := dot_S8x512_S512x256_S8x256_1_0_0_1_n_n_wf

class Facts : Prop extends Facts₀ where

variable [Facts]
-- ==== Proof.KRun.lean ====
/-
  The kernel program's run with its result named.  @main is eleven segments: seven stretches of host operations and
  four pipelined regions.  The buffers' contents at each segment boundary form a fold from the launch memory (the
  frame's `W0 … W11`): a host stretch applies its operations, a region replaces each of its windows' arrays by what
  its write-backs leave and keeps every other buffer.  Every weakly fair execution terminates with every unscoped
  buffer at the last boundary's contents `W11`; read at the result buffer this names the result, and read at an
  argument it is the launch contents.
-/
import proofs.«124730_j2224793059399_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting; the result
    buffer ends at the last boundary's contents and every argument array as launched. -/
theorem run : θ_run defs (onTc (τ := τ) (main (F := F))) ⟨m, fun _ => 0, ρ⟩ (fun r => ∀ c : Dev nD,
      r.2.mem ((c.tc : Thread nD τ).loc main_v149) = W11 m ρ c (Proc.devRef .tc main_v149)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v149 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c)⟩)

end Cert.KernelIdeal.RunValue

end
-- ==== Proof.KStage0.lean ====
/-
  The buffers' contents when the first region is entered.  The first two stretches of host operations compute, from
  the arguments alone: the node types' one-hot rows, the edges' source columns and their scatter index, and the first
  group normalisation's statistics — the data centred by its per-graph, per-group mean, and the reciprocal standard
  deviation gathered back to the rows.  Each is the same composition of the same operations that the reference program
  applies to the same arguments, so each buffer holds the reference's stage of that name, read at the launch contents.
-/
import proofs.«124730_j2224793059399_1_alg».proof.Proof.Gen.KernelIdeal.Frame
import proofs.«124730_j2224793059399_1_alg».proof.Proof.RefRead

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo
open Cert.ReferenceIdeal.ReadP

variable {F : FTy → Type} [FloatOps F]
variable (m : (ℓ : Loc nD τ sig) → Buf (Elt F) ℓ) (ρ : Dev nD → PrngReg)

/-- The centred data: the first argument less its group mean gathered to the rows. -/
theorem entry0_centred (c : Dev nD) :
    W2 m ρ c (Proc.devRef .tc main_v35) = val_main_v27 (F := F) (m ((c : Thread nD τ).loc main_arg0)) (m ((c : Thread nD τ).loc main_arg2)) := by
  show StableHlo.after hostOps0_1 (StableHlo.after hostOps0 (W0 m ρ c)) (Proc.devRef .tc main_v35) = _
  after_results_simp <;> rfl

/-- The reciprocal standard deviation of each row's graph and group, gathered to the rows. -/
theorem entry0_scale (c : Dev nD) :
    W2 m ρ c (Proc.devRef .tc main_v58) = val_main_v50 (F := F) (m ((c : Thread nD τ).loc main_arg0)) (m ((c : Thread nD τ).loc main_arg2)) := by
  show StableHlo.after hostOps0_1 (StableHlo.after hostOps0 (W0 m ρ c)) (Proc.devRef .tc main_v58) = _
  after_results_simp <;> rfl

/-- The node types' one-hot rows. -/
theorem entry0_onehot (c : Dev nD) :
    W2 m ρ c (Proc.devRef .tc main_v0) = val_main_v57 (F := F) (m ((c : Thread nD τ).loc main_arg5)) := by
  show StableHlo.after hostOps0_1 (StableHlo.after hostOps0 (W0 m ρ c)) (Proc.devRef .tc main_v0) = _
  after_results_simp <;> rfl

/-- The edges' source nodes (the second row of the edge list). -/
theorem entry0_col (c : Dev nD) :
    W2 m ρ c (Proc.devRef .tc main_v4) = val_main_v62 (F := F) (m ((c : Thread nD τ).loc main_arg3)) := by
  show StableHlo.after hostOps0_1 (StableHlo.after hostOps0 (W0 m ρ c)) (Proc.devRef .tc main_v4) = _
  after_results_simp <;> rfl

/-- The scatter index of each edge: seven times its target node plus its type. -/
theorem entry0_index (c : Dev nD) :
    W2 m ρ c (Proc.devRef .tc main_v7) = val_main_v65 (F := F) (m ((c : Thread nD τ).loc main_arg3)) (m ((c : Thread nD τ).loc main_arg4)) := by
  show StableHlo.after hostOps0_1 (StableHlo.after hostOps0 (W0 m ρ c)) (Proc.devRef .tc main_v7) = _
  after_results_simp <;> rfl

/-- No host operation writes an argument. -/
theorem entry0_arg0 (c : Dev nD) : W2 m ρ c (Proc.devRef .tc main_arg0) = m ((c : Thread nD τ).loc main_arg0) := by
  show StableHlo.after hostOps0_1 (StableHlo.after hostOps0 (W0 m ρ c)) (Proc.devRef .tc main_arg0) = _
  after_results_simp <;> rfl

/-- No host operation writes an argument. -/
theorem entry0_arg1 (c : Dev nD) : W2 m ρ c (Proc.devRef .tc main_arg1) = m ((c : Thread nD τ).loc main_arg1) := by
  show StableHlo.after hostOps0_1 (StableHlo.after hostOps0 (W0 m ρ c)) (Proc.devRef .tc main_arg1) = _
  after_results_simp <;> rfl

/-- No host operation writes an argument. -/
theorem entry0_arg2 (c : Dev nD) : W2 m ρ c (Proc.devRef .tc main_arg2) = m ((c : Thread nD τ).loc main_arg2) := by
  show StableHlo.after hostOps0_1 (StableHlo.after hostOps0 (W0 m ρ c)) (Proc.devRef .tc main_arg2) = _
  after_results_simp <;> rfl

/-- No host operation writes an argument. -/
theorem entry0_arg3 (c : Dev nD) : W2 m ρ c (Proc.devRef .tc main_arg3) = m ((c : Thread nD τ).loc main_arg3) := by
  show StableHlo.after hostOps0_1 (StableHlo.after hostOps0 (W0 m ρ c)) (Proc.devRef .tc main_arg3) = _
  after_results_simp <;> rfl

/-- No host operation writes an argument. -/
theorem entry0_arg4 (c : Dev nD) : W2 m ρ c (Proc.devRef .tc main_arg4) = m ((c : Thread nD τ).loc main_arg4) := by
  show StableHlo.after hostOps0_1 (StableHlo.after hostOps0 (W0 m ρ c)) (Proc.devRef .tc main_arg4) = _
  after_results_simp <;> rfl

/-- No host operation writes an argument. -/
theorem entry0_arg5 (c : Dev nD) : W2 m ρ c (Proc.devRef .tc main_arg5) = m ((c : Thread nD τ).loc main_arg5) := by
  show StableHlo.after hostOps0_1 (StableHlo.after hostOps0 (W0 m ρ c)) (Proc.devRef .tc main_arg5) = _
  after_results_simp <;> rfl

/-- No host operation writes an argument. -/
theorem entry0_arg6 (c : Dev nD) : W2 m ρ c (Proc.devRef .tc main_arg6) = m ((c : Thread nD τ).loc main_arg6) := by
  show StableHlo.after hostOps0_1 (StableHlo.after hostOps0 (W0 m ρ c)) (Proc.devRef .tc main_arg6) = _
  after_results_simp <;> rfl

/-- No host operation writes an argument. -/
theorem entry0_arg7 (c : Dev nD) : W2 m ρ c (Proc.devRef .tc main_arg7) = m ((c : Thread nD τ).loc main_arg7) := by
  show StableHlo.after hostOps0_1 (StableHlo.after hostOps0 (W0 m ρ c)) (Proc.devRef .tc main_arg7) = _
  after_results_simp <;> rfl

/-- No host operation writes an argument. -/
theorem entry0_arg8 (c : Dev nD) : W2 m ρ c (Proc.devRef .tc main_arg8) = m ((c : Thread nD τ).loc main_arg8) := by
  show StableHlo.after hostOps0_1 (StableHlo.after hostOps0 (W0 m ρ c)) (Proc.devRef .tc main_arg8) = _
  after_results_simp <;> rfl

/-- No host operation writes an argument. -/
theorem entry0_arg9 (c : Dev nD) : W2 m ρ c (Proc.devRef .tc main_arg9) = m ((c : Thread nD τ).loc main_arg9) := by
  show StableHlo.after hostOps0_1 (StableHlo.after hostOps0 (W0 m ρ c)) (Proc.devRef .tc main_arg9) = _
  after_results_simp <;> rfl

/-- No host operation writes an argument. -/
theorem entry0_arg10 (c : Dev nD) : W2 m ρ c (Proc.devRef .tc main_arg10) = m ((c : Thread nD τ).loc main_arg10) := by
  show StableHlo.after hostOps0_1 (StableHlo.after hostOps0 (W0 m ρ c)) (Proc.devRef .tc main_arg10) = _
  after_results_simp <;> rfl

/-- No host operation writes an argument. -/
theorem entry0_arg11 (c : Dev nD) : W2 m ρ c (Proc.devRef .tc main_arg11) = m ((c : Thread nD τ).loc main_arg11) := by
  show StableHlo.after hostOps0_1 (StableHlo.after hostOps0 (W0 m ρ c)) (Proc.devRef .tc main_arg11) = _
  after_results_simp <;> rfl

/-- No host operation writes an argument. -/
theorem entry0_arg12 (c : Dev nD) : W2 m ρ c (Proc.devRef .tc main_arg12) = m ((c : Thread nD τ).loc main_arg12) := by
  show StableHlo.after hostOps0_1 (StableHlo.after hostOps0 (W0 m ρ c)) (Proc.devRef .tc main_arg12) = _
  after_results_simp <;> rfl

/-- No host operation writes an argument. -/
theorem entry0_arg13 (c : Dev nD) : W2 m ρ c (Proc.devRef .tc main_arg13) = m ((c : Thread nD τ).loc main_arg13) := by
  show StableHlo.after hostOps0_1 (StableHlo.after hostOps0 (W0 m ρ c)) (Proc.devRef .tc main_arg13) = _
  after_results_simp <;> rfl

end Cert.KernelIdeal.HostValue

end
-- ==== Proof.RegionAct.lean ====
import proofs.«124730_j2224793059399_1_alg».proof.Proof.Gen.KernelIdeal.Frame
import Idealize.ShloMosaic.Lib.Pipeline.Value
import Idealize.ShloMosaic.Lib.ValueIdx
import Idealize.ShloMosaic.Lib.ValueLayout

/-! # Regions 0 and 2: normalise, scale, shift, activate — from blocks to the whole array

Both regions run the same pointwise body over 16 row blocks of 4096 rows: each output entry depends only on the entries of the
two [65536, 256] operands at the same index and on the entries of the two [1, 256] rows at the same column. The output's blocks
tile the array, so the array ends as one function (`act`) of the four operand arrays, index by index. -/

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]

/-- normalise, scale, shift, then x·logistic(x), entry by entry -/
def act (x s : S65536x256.Idx → Elt F .f32) (w b : S1x256.Idx → Elt F .f32) : S65536x256.Idx → Elt F .f32 :=
  fun i => FloatOps.mulf (FloatOps.addf (FloatOps.mulf (FloatOps.mulf (x i) (s i)) (w (ValueIdx.ix2 0 (i 1)))) (b (ValueIdx.ix2 0 (i 1))))
             (FloatOps.logistic (FloatOps.addf (FloatOps.mulf (FloatOps.mulf (x i) (s i)) (w (ValueIdx.ix2 0 (i 1)))) (b (ValueIdx.ix2 0 (i 1)))))

/-- Zero offsets on both axes, however spelt. -/
theorem zero_offsets : (![0, 0] : Fin 2 → Nat) = fun _ => 0 := funext fun a => by fin_cases a <;> rfl

/-- The body's payload at row `p`, column `q` of a block: the two block operands at `(p, q)`, the two rows at column `q`. -/
theorem pay_apply (x0 x1 : Vec F S4096x256 .f32) (x2 x3 : Vec F S1x256 .f32) (p : Fin 4096) (q : Fin 256) :
    k0_pay1 x0 x1 x2 x3 (ix2 p q)
      = FloatOps.mulf (FloatOps.addf (FloatOps.mulf (FloatOps.mulf (x0 (ix2 p q)) (x1 (ix2 p q))) (x2 (ix2 (0 : Fin 1) q))) (x3 (ix2 (0 : Fin 1) q)))
          (FloatOps.logistic (FloatOps.addf (FloatOps.mulf (FloatOps.mulf (x0 (ix2 p q)) (x1 (ix2 p q))) (x2 (ix2 (0 : Fin 1) q))) (x3 (ix2 (0 : Fin 1) q)))) := by
  unfold k0_pay1
  simp only [shapeCast_self]
  show FloatOps.mulf (FloatOps.addf (FloatOps.mulf (FloatOps.mulf (x0 (ix2 p q)) (x1 (ix2 p q))) (broadcastTo S4096x256 x2 broadcasts_S1x256_S4096x256 (ix2 p q))) (broadcastTo S4096x256 x3 broadcasts_S1x256_S4096x256 (ix2 p q)))
      (FloatOps.logistic (FloatOps.addf (FloatOps.mulf (FloatOps.mulf (x0 (ix2 p q)) (x1 (ix2 p q))) (broadcastTo S4096x256 x2 broadcasts_S1x256_S4096x256 (ix2 p q))) (broadcastTo S4096x256 x3 broadcasts_S1x256_S4096x256 (ix2 p q)))) = _
  rw [broadcastTo_1b_ab_apply x2, broadcastTo_1b_ab_apply x3]

/-- `act` read at an index whose column is `q`. -/
theorem act_apply (X S : S65536x256.Idx → Elt F .f32) (W B : S1x256.Idx → Elt F .f32) (i : S65536x256.Idx) (q : Fin 256) (hq : (i 1).val = q.val) :
    act X S W B i
      = FloatOps.mulf (FloatOps.addf (FloatOps.mulf (FloatOps.mulf (X i) (S i)) (W (ix2 (0 : Fin 1) q))) (B (ix2 (0 : Fin 1) q)))
          (FloatOps.logistic (FloatOps.addf (FloatOps.mulf (FloatOps.mulf (X i) (S i)) (W (ix2 (0 : Fin 1) q))) (B (ix2 (0 : Fin 1) q)))) := by
  have e : (ix2 (0 : Fin 1) (i 1) : S1x256.Idx) = ix2 (0 : Fin 1) q := by
    funext a
    match a with
    | ⟨0, _⟩ => rfl
    | ⟨1, _⟩ => exact Fin.ext hq
  show FloatOps.mulf (FloatOps.addf (FloatOps.mulf (FloatOps.mulf (X i) (S i)) (W (ix2 (0 : Fin 1) (i 1)))) (B (ix2 (0 : Fin 1) (i 1))))
          (FloatOps.logistic (FloatOps.addf (FloatOps.mulf (FloatOps.mulf (X i) (S i)) (W (ix2 (0 : Fin 1) (i 1)))) (B (ix2 (0 : Fin 1) (i 1))))) = _
  rw [e]

/-- ONE BLOCK: when the two block operands are the arrays `X`, `S` read through an embedding `e` of the block's indices that
    keeps the column, and the two rows are the arrays `W`, `B`, the body's payload at `y` is `act X S W B` at `e y`. -/
theorem block_act (X S : S65536x256.Idx → Elt F .f32) (W B : S1x256.Idx → Elt F .f32)
    (x0 x1 : Vec F S4096x256 .f32) (x2 x3 : Vec F S1x256 .f32) (e : S4096x256.Idx → S65536x256.Idx)
    (h0 : ∀ y, x0 y = X (e y)) (h1 : ∀ y, x1 y = S (e y))
    (h2 : ∀ q : Fin 256, x2 (ix2 (0 : Fin 1) q) = W (ix2 (0 : Fin 1) q)) (h3 : ∀ q : Fin 256, x3 (ix2 (0 : Fin 1) q) = B (ix2 (0 : Fin 1) q))
    (he : ∀ y, ((e y) 1).val = (y 1).val) (y : S4096x256.Idx) :
    k0_pay1 x0 x1 x2 x3 y = act X S W B (e y) := by
  obtain ⟨p, q, rfl⟩ : ∃ (p : Fin 4096) (q : Fin 256), y = ix2 p q := ⟨y 0, y 1, eq_ix2 y⟩
  rw [pay_apply, act_apply X S W B (e (ix2 p q)) q (he (ix2 p q)), h0, h1, h2, h3]

/-- Region 2's body is region 0's. -/
theorem pay2_eq (x0 x1 : Vec F S4096x256 .f32) (x2 x3 : Vec F S1x256 .f32) : k2_pay1 x0 x1 x2 x3 = k0_pay1 x0 x1 x2 x3 := rfl

variable (V : (c : Dev nD) → (b : Ref sig .tc) → Buf (Elt F) ((c : Thread nD τ).loc b))

/-! ## Region 0 -/

/-- The index maps of region 0 over its 16 points: the two block operands move with the output's block, the two rows stay at
    block (0, 0), and the output's block at point `t` is block `(t, 0)`. -/
theorem idx_facts0 : ∀ t : Fin cfg0.N,
    win0_0.index t (0 : Fin 2) = win0_4.index t (0 : Fin 2) ∧ win0_0.index t (1 : Fin 2) = win0_4.index t (1 : Fin 2)
    ∧ win0_1.index t (0 : Fin 2) = win0_4.index t (0 : Fin 2) ∧ win0_1.index t (1 : Fin 2) = win0_4.index t (1 : Fin 2)
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT POINT `t` WRITES BACK is block `t` of `act` of the four operand arrays as the region finds them. -/
theorem flushed0_eq (c : Dev nD) (t : Fin cfg0.N) :
    (dat0 V c).flushed 4 t = ((cfg0.win 4).blk t).view.read (Elt F)
      (act (V c (Pipeline.arrRef spec0 0)) (V c (Pipeline.arrRef spec0 1)) (V c (Pipeline.arrRef spec0 2)) (V c (Pipeline.arrRef spec0 3))) := by
  show (cfg0.win 4).cut (grid0.coords t) ((dat0 V c).after 4 t) = _
  rw [after0_4]
  unfold out0_4
  rw [View.canon_unit_zero zero_offsets]
  simp only [View.ld_unit_zero (S := S4096x256) zero_offsets, View.ld_unit_zero (S := S1x256) zero_offsets]
  obtain ⟨e00, e01, e10, e11, e20, e21, e30, e31, e40, e41⟩ := idx_facts0 t
  funext j
  refine block_act (V c (Pipeline.arrRef spec0 0)) (V c (Pipeline.arrRef spec0 1)) (V c (Pipeline.arrRef spec0 2)) (V c (Pipeline.arrRef spec0 3))
    (iblk0 V c 0 t) (iblk0 V c 1 t) (iblk0 V c 2 t) (iblk0 V c 3 t) (((cfg0.win 4).blk t).view.emb) ?_ ?_ ?_ ?_ ?_ j
  · intro y
    show V c (Pipeline.arrRef spec0 0) (((cfg0.win 0).blk t).view.emb y) = V c (Pipeline.arrRef spec0 0) (((cfg0.win 4).blk t).view.emb y)
    refine congrArg _ (funext fun a => Fin.ext ?_)
    match a with
    | ⟨0, _⟩ => show win0_0.index t (0 : Fin 2) * 4096 + 1 * (y 0).val = win0_4.index t (0 : Fin 2) * 4096 + 1 * (y 0).val; omega
    | ⟨1, _⟩ => show win0_0.index t (1 : Fin 2) * 256 + 1 * (y 1).val = win0_4.index t (1 : Fin 2) * 256 + 1 * (y 1).val; omega
  · intro y
    show V c (Pipeline.arrRef spec0 1) (((cfg0.win 1).blk t).view.emb y) = V c (Pipeline.arrRef spec0 1) (((cfg0.win 4).blk t).view.emb y)
    refine congrArg _ (funext fun a => Fin.ext ?_)
    match a with
    | ⟨0, _⟩ => show win0_1.index t (0 : Fin 2) * 4096 + 1 * (y 0).val = win0_4.index t (0 : Fin 2) * 4096 + 1 * (y 0).val; omega
    | ⟨1, _⟩ => show win0_1.index t (1 : Fin 2) * 256 + 1 * (y 1).val = win0_4.index t (1 : Fin 2) * 256 + 1 * (y 1).val; omega
  · intro q
    show V c (Pipeline.arrRef spec0 2) (((cfg0.win 2).blk t).view.emb (ix2 (0 : Fin 1) q)) = V c (Pipeline.arrRef spec0 2) (ix2 (0 : Fin 1) q)
    refine congrArg _ (funext fun a => Fin.ext ?_)
    match a with
    | ⟨0, _⟩ => show win0_2.index t (0 : Fin 2) * 1 + 1 * 0 = 0; omega
    | ⟨1, _⟩ => show win0_2.index t (1 : Fin 2) * 256 + 1 * q.val = q.val; omega
  · intro q
    show V c (Pipeline.arrRef spec0 3) (((cfg0.win 3).blk t).view.emb (ix2 (0 : Fin 1) q)) = V c (Pipeline.arrRef spec0 3) (ix2 (0 : Fin 1) q)
    refine congrArg _ (funext fun a => Fin.ext ?_)
    match a with
    | ⟨0, _⟩ => show win0_3.index t (0 : Fin 2) * 1 + 1 * 0 = 0; omega
    | ⟨1, _⟩ => show win0_3.index t (1 : Fin 2) * 256 + 1 * q.val = q.val; omega
  · intro y
    show win0_4.index t (1 : Fin 2) * 256 + 1 * (y 1).val = (y 1).val
    omega

/-- An index of the array is in point `t`'s block iff each coordinate is in the block's range on its axis. -/
theorem mem_blk0 (t : Fin cfg0.N) (i : S65536x256.Idx) :
    i ∈ ((cfg0.win 4).blk t).view.set ↔ ∀ a : Fin 2, win0_4.index t a * S4096x256.size a ≤ (i a).val ∧ (i a).val < win0_4.index t a * S4096x256.size a + S4096x256.size a := by
  show i ∈ ((View.whole main_v59).slice (win0_4.rect t)).set ↔ _
  rw [View.set_slice_whole, Rect.mem_set_unit]
  exact Iff.rfl

/-- The 16 blocks of 4096 rows tile the 65536 rows: row `r` is in the block of point `r / 4096`. -/
theorem cover0 (i : S65536x256.Idx) : ∃ t : Fin cfg0.N, (cfg0.win 4).flush t = true ∧ i ∈ ((cfg0.win 4).blk t).view.set := by
  have hN : cfg0.N = 16 := N_0
  have hi0 : (i 0).val < 65536 := (i 0).isLt
  have hi1 : (i 1).val < 256 := (i 1).isLt
  refine ⟨⟨(i 0).val / 4096, by rw [hN]; omega⟩, flush0_4 _, ?_⟩
  rw [mem_blk0]
  obtain ⟨-, -, -, -, -, -, -, -, e40, e41⟩ := idx_facts0 ⟨(i 0).val / 4096, by rw [hN]; omega⟩
  intro a
  match a with
  | ⟨0, _⟩ => show win0_4.index _ (0 : Fin 2) * 4096 ≤ (i 0).val ∧ (i 0).val < win0_4.index _ (0 : Fin 2) * 4096 + 4096; rw [e40]; show (i 0).val / 4096 * 4096 ≤ (i 0).val ∧ (i 0).val < (i 0).val / 4096 * 4096 + 4096; omega
  | ⟨1, _⟩ => show win0_4.index _ (1 : Fin 2) * 256 ≤ (i 1).val ∧ (i 1).val < win0_4.index _ (1 : Fin 2) * 256 + 256; rw [e41]; omega

/-- THE ARRAY after region 0: `act` of the four operand arrays as the region finds them. -/
theorem final0 (c : Dev nD) : (dat0 (F := F) V c).arrAt 4 cfg0.N
    = act (V c (Pipeline.arrRef spec0 0)) (V c (Pipeline.arrRef spec0 1)) (V c (Pipeline.arrRef spec0 2)) (V c (Pipeline.arrRef spec0 3)) :=
  (dat0 V c).arrAt_eq_of_cover 4 _ (fun t _ => flushed0_eq V c t) cover0

/-! ## Region 2 -/

/-- The index maps of region 2 over its 16 points: the two block operands move with the output's block, the two rows stay at
    block (0, 0), and the output's block at point `t` is block `(t, 0)`. -/
theorem idx_facts2 : ∀ t : Fin cfg2.N,
    win2_0.index t (0 : Fin 2) = win2_4.index t (0 : Fin 2) ∧ win2_0.index t (1 : Fin 2) = win2_4.index t (1 : Fin 2)
    ∧ win2_1.index t (0 : Fin 2) = win2_4.index t (0 : Fin 2) ∧ win2_1.index t (1 : Fin 2) = win2_4.index t (1 : Fin 2)
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- WHAT POINT `t` WRITES BACK is block `t` of `act` of the four operand arrays as the region finds them. -/
theorem flushed2_eq (c : Dev nD) (t : Fin cfg2.N) :
    (dat2 V c).flushed 4 t = ((cfg2.win 4).blk t).view.read (Elt F)
      (act (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  unfold out2_4
  rw [View.canon_unit_zero zero_offsets]
  simp only [View.ld_unit_zero (S := S4096x256) zero_offsets, View.ld_unit_zero (S := S1x256) zero_offsets]
  rw [pay2_eq]
  obtain ⟨e00, e01, e10, e11, e20, e21, e30, e31, e40, e41⟩ := idx_facts2 t
  funext j
  refine block_act (V c (Pipeline.arrRef spec2 0)) (V c (Pipeline.arrRef spec2 1)) (V c (Pipeline.arrRef spec2 2)) (V c (Pipeline.arrRef spec2 3))
    (iblk2 V c 0 t) (iblk2 V c 1 t) (iblk2 V c 2 t) (iblk2 V c 3 t) (((cfg2.win 4).blk t).view.emb) ?_ ?_ ?_ ?_ ?_ j
  · intro y
    show V c (Pipeline.arrRef spec2 0) (((cfg2.win 0).blk t).view.emb y) = V c (Pipeline.arrRef spec2 0) (((cfg2.win 4).blk t).view.emb y)
    refine congrArg _ (funext fun a => Fin.ext ?_)
    match a with
    | ⟨0, _⟩ => show win2_0.index t (0 : Fin 2) * 4096 + 1 * (y 0).val = win2_4.index t (0 : Fin 2) * 4096 + 1 * (y 0).val; omega
    | ⟨1, _⟩ => show win2_0.index t (1 : Fin 2) * 256 + 1 * (y 1).val = win2_4.index t (1 : Fin 2) * 256 + 1 * (y 1).val; omega
  · intro y
    show V c (Pipeline.arrRef spec2 1) (((cfg2.win 1).blk t).view.emb y) = V c (Pipeline.arrRef spec2 1) (((cfg2.win 4).blk t).view.emb y)
    refine congrArg _ (funext fun a => Fin.ext ?_)
    match a with
    | ⟨0, _⟩ => show win2_1.index t (0 : Fin 2) * 4096 + 1 * (y 0).val = win2_4.index t (0 : Fin 2) * 4096 + 1 * (y 0).val; omega
    | ⟨1, _⟩ => show win2_1.index t (1 : Fin 2) * 256 + 1 * (y 1).val = win2_4.index t (1 : Fin 2) * 256 + 1 * (y 1).val; omega
  · intro q
    show V c (Pipeline.arrRef spec2 2) (((cfg2.win 2).blk t).view.emb (ix2 (0 : Fin 1) q)) = V c (Pipeline.arrRef spec2 2) (ix2 (0 : Fin 1) q)
    refine congrArg _ (funext fun a => Fin.ext ?_)
    match a with
    | ⟨0, _⟩ => show win2_2.index t (0 : Fin 2) * 1 + 1 * 0 = 0; omega
    | ⟨1, _⟩ => show win2_2.index t (1 : Fin 2) * 256 + 1 * q.val = q.val; omega
  · intro q
    show V c (Pipeline.arrRef spec2 3) (((cfg2.win 3).blk t).view.emb (ix2 (0 : Fin 1) q)) = V c (Pipeline.arrRef spec2 3) (ix2 (0 : Fin 1) q)
    refine congrArg _ (funext fun a => Fin.ext ?_)
    match a with
    | ⟨0, _⟩ => show win2_3.index t (0 : Fin 2) * 1 + 1 * 0 = 0; omega
    | ⟨1, _⟩ => show win2_3.index t (1 : Fin 2) * 256 + 1 * q.val = q.val; omega
  · intro y
    show win2_4.index t (1 : Fin 2) * 256 + 1 * (y 1).val = (y 1).val
    omega

/-- An index of the array is in point `t`'s block iff each coordinate is in the block's range on its axis. -/
theorem mem_blk2 (t : Fin cfg2.N) (i : S65536x256.Idx) :
    i ∈ ((cfg2.win 4).blk t).view.set ↔ ∀ a : Fin 2, win2_4.index t a * S4096x256.size a ≤ (i a).val ∧ (i a).val < win2_4.index t a * S4096x256.size a + S4096x256.size a := by
  show i ∈ ((View.whole main_v136).slice (win2_4.rect t)).set ↔ _
  rw [View.set_slice_whole, Rect.mem_set_unit]
  exact Iff.rfl

/-- The 16 blocks of 4096 rows tile the 65536 rows: row `r` is in the block of point `r / 4096`. -/
theorem cover2 (i : S65536x256.Idx) : ∃ t : Fin cfg2.N, (cfg2.win 4).flush t = true ∧ i ∈ ((cfg2.win 4).blk t).view.set := by
  have hN : cfg2.N = 16 := N_2
  have hi0 : (i 0).val < 65536 := (i 0).isLt
  have hi1 : (i 1).val < 256 := (i 1).isLt
  refine ⟨⟨(i 0).val / 4096, by rw [hN]; omega⟩, flush2_4 _, ?_⟩
  rw [mem_blk2]
  obtain ⟨-, -, -, -, -, -, -, -, e40, e41⟩ := idx_facts2 ⟨(i 0).val / 4096, by rw [hN]; omega⟩
  intro a
  match a with
  | ⟨0, _⟩ => show win2_4.index _ (0 : Fin 2) * 4096 ≤ (i 0).val ∧ (i 0).val < win2_4.index _ (0 : Fin 2) * 4096 + 4096; rw [e40]; show (i 0).val / 4096 * 4096 ≤ (i 0).val ∧ (i 0).val < (i 0).val / 4096 * 4096 + 4096; omega
  | ⟨1, _⟩ => show win2_4.index _ (1 : Fin 2) * 256 ≤ (i 1).val ∧ (i 1).val < win2_4.index _ (1 : Fin 2) * 256 + 256; rw [e41]; omega

/-- THE ARRAY after region 2: `act` of the four operand arrays as the region finds them. -/
theorem final2 (c : Dev nD) : (dat2 (F := F) V c).arrAt 4 cfg2.N
    = act (V c (Pipeline.arrRef spec2 0)) (V c (Pipeline.arrRef spec2 1)) (V c (Pipeline.arrRef spec2 2)) (V c (Pipeline.arrRef spec2 3)) :=
  (dat2 V c).arrAt_eq_of_cover 4 _ (fun t _ => flushed2_eq V c t) cover2

end Cert.KernelIdeal.RegionValue

end
-- ==== Proof.BridgeAct.lean ====
/-
  The activation stage on the two sides.  The kernel's regions compute, entry by entry, n · logistic(n) for
  n = x · s · w + b (w and b rows spread over the rows of x); the reference spells the same value with host
  operations: the two products, the sum, and jax's expansion of silu, n · (1 / (1 + exp(−n))).  On the extended reals
  logistic IS that quotient, and the word 0x3F800000 is the number one, so the two arrays are equal index by index,
  whatever x and s are.
-/
import proofs.«124730_j2224793059399_1_alg».proof.Proof.RegionAct
import proofs.«124730_j2224793059399_1_alg».proof.Proof.RefRead
import Idealize.ShloMosaic.Lib.IdealHost

set_option maxRecDepth 16384

noncomputable section

namespace Cert.KernelIdeal.Bridge

open Cert.KernelIdeal Idealize.ShloMosaic Idealize.ShloMosaic.ValueIdx
open Cert.ReferenceIdeal.ReadP Cert.KernelIdeal.RegionValue

/-- jax's expansion of silu on the host is n · logistic(n) on the extended reals. -/
theorem silu_host (n : Ideal .f32) :
    FloatOps.mulf n (FloatOps.hostDivf (FloatOps.ofBits (F := Ideal) .f32 0x3F800000#32)
        (FloatOps.addf (FloatOps.ofBits (F := Ideal) .f32 0x3F800000#32) (FloatOps.hostUnary .exp (FloatOps.hostNegf n))))
      = FloatOps.mulf n (FloatOps.logistic n) := by
  rw [Ideal.ofBits_def, Ideal.ofBits_one_f32]
  rfl

variable (x0 : (⟨Cert.ReferenceIdeal.S65536x256, .f32⟩ : BufTy).Contents (Elt Ideal)) (x1 : (⟨Cert.ReferenceIdeal.S8x512, .f32⟩ : BufTy).Contents (Elt Ideal)) (x2 : (⟨Cert.ReferenceIdeal.S65536, .i32⟩ : BufTy).Contents (Elt Ideal)) (x3 : (⟨Cert.ReferenceIdeal.S2x458752, .i32⟩ : BufTy).Contents (Elt Ideal)) (x4 : (⟨Cert.ReferenceIdeal.S458752, .i32⟩ : BufTy).Contents (Elt Ideal)) (x5 : (⟨Cert.ReferenceIdeal.S65536, .i32⟩ : BufTy).Contents (Elt Ideal)) (x6 : (⟨Cert.ReferenceIdeal.S1x256, .f32⟩ : BufTy).Contents (Elt Ideal)) (x7 : (⟨Cert.ReferenceIdeal.S1x256, .f32⟩ : BufTy).Contents (Elt Ideal)) (x8 : (⟨Cert.ReferenceIdeal.S1841x256, .f32⟩ : BufTy).Contents (Elt Ideal)) (x9 : (⟨Cert.ReferenceIdeal.S512x256, .f32⟩ : BufTy).Contents (Elt Ideal)) (x10 : (⟨Cert.ReferenceIdeal.S256, .f32⟩ : BufTy).Contents (Elt Ideal)) (x11 : (⟨Cert.ReferenceIdeal.S1x256, .f32⟩ : BufTy).Contents (Elt Ideal)) (x12 : (⟨Cert.ReferenceIdeal.S1x256, .f32⟩ : BufTy).Contents (Elt Ideal)) (x13 : (⟨Cert.ReferenceIdeal.S1841x256, .f32⟩ : BufTy).Contents (Elt Ideal))

/-- The first activation: the region's closed form of the first normalisation's two outputs is the reference's stage. -/
theorem act_stage1 :
    act (F := Ideal) (val_main_v27 (F := Ideal) x0 x2) (val_main_v50 (F := Ideal) x0 x2) x6 x7 = val_main_v56 (F := Ideal) x0 x2 x6 x7 := by
  funext i
  rw [val_main_v56_apply, val_main_call0_v5_apply, val_main_call0_v4_apply, val_main_call0_cst_0_apply, val_main_call0_v3_apply,
    val_main_call0_v2_apply, val_main_call0_cst_apply, val_main_call0_v1_apply, val_main_call0_v0_apply, silu_host,
    val_main_v55_apply, val_main_v53_apply, val_main_v51_apply, val_main_v52_apply, val_main_v54_apply]
  have e : (ValueIdx.ix2 0 (i 1) : S1x256.Idx) = idx_main_v52 i := funext fun a => match a with
    | ⟨0, _⟩ => rfl
    | ⟨1, _⟩ => rfl
  unfold act
  rw [e]

/-- The second activation, of the second normalisation's two outputs. -/
theorem act_stage2 :
    act (F := Ideal) (val_main_v118 (F := Ideal) x0 x1 x2 x3 x4 x5 x6 x7 x8 x9 x10) (val_main_v141 (F := Ideal) x0 x1 x2 x3 x4 x5 x6 x7 x8 x9 x10) x11 x12
      = val_main_v147 (F := Ideal) x0 x1 x2 x3 x4 x5 x6 x7 x8 x9 x10 x11 x12 := by
  funext i
  rw [val_main_v147_apply, val_main_call3_v5_apply, val_main_call3_v4_apply, val_main_call3_cst_0_apply, val_main_call3_v3_apply,
    val_main_call3_v2_apply, val_main_call3_cst_apply, val_main_call3_v1_apply, val_main_call3_v0_apply, silu_host,
    val_main_v146_apply, val_main_v144_apply, val_main_v142_apply, val_main_v143_apply, val_main_v145_apply]
  have e : (ValueIdx.ix2 0 (i 1) : S1x256.Idx) = idx_main_v143 i := funext fun a => match a with
    | ⟨0, _⟩ => rfl
    | ⟨1, _⟩ => rfl
  unfold act
  rw [e]

end Cert.KernelIdeal.Bridge

end
-- ==== Proof.KStage1.lean ====
/-
  From the first region to the second.  The first region leaves the activation of the first normalisation in its
  output array and touches nothing else.  The next three stretches of host operations join the one-hot rows to it,
  gather the rows of the edges' source nodes, add them into the rows of the scatter index and read the [458752, 263]
  sums as [65536, 1841]; and they compute the embedding's projection gathered to the rows.  Each buffer holds the
  reference's stage of that name.
-/
import proofs.«124730_j2224793059399_1_alg».proof.Proof.KStage0
import proofs.«124730_j2224793059399_1_alg».proof.Proof.RegionAct
import proofs.«124730_j2224793059399_1_alg».proof.Proof.BridgeAct

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg)

/-- The first region's output: the activation stage. -/
theorem exit0_act (c : Dev nD) :
    W3 m ρ c (Proc.devRef .tc main_v59) = val_main_v56 (F := Ideal) (m ((c : Thread nD τ).loc main_arg0)) (m ((c : Thread nD τ).loc main_arg2)) (m ((c : Thread nD τ).loc main_arg6)) (m ((c : Thread nD τ).loc main_arg7)) := by
  refine (show W3 m ρ c (Proc.devRef .tc main_v59) = (dat0 (V2 m ρ) c).arrAt 4 cfg0.N from W3_arr m ρ c 4).trans ?_
  rw [RegionValue.final0 (V2 m ρ) c]
  show RegionValue.act (W2 m ρ c (Proc.devRef .tc main_v35)) (W2 m ρ c (Proc.devRef .tc main_v58))
      (W2 m ρ c (Proc.devRef .tc main_arg6)) (W2 m ρ c (Proc.devRef .tc main_arg7)) = _
  rw [entry0_centred, entry0_scale, entry0_arg6, entry0_arg7]
  exact Bridge.act_stage1 _ _ _ _

/-! What the first region leaves alone. -/
theorem keep3_v0 (c : Dev nD) : W3 m ρ c (Proc.devRef .tc main_v0) = val_main_v57 (F := Ideal) (m ((c : Thread nD τ).loc main_arg5)) :=
  (W3_of_ne m ρ c main_v0 (by decide)).trans (entry0_onehot m ρ c)
theorem keep3_v4 (c : Dev nD) : W3 m ρ c (Proc.devRef .tc main_v4) = val_main_v62 (F := Ideal) (m ((c : Thread nD τ).loc main_arg3)) :=
  (W3_of_ne m ρ c main_v4 (by decide)).trans (entry0_col m ρ c)
theorem keep3_v7 (c : Dev nD) : W3 m ρ c (Proc.devRef .tc main_v7) = val_main_v65 (F := Ideal) (m ((c : Thread nD τ).loc main_arg3)) (m ((c : Thread nD τ).loc main_arg4)) :=
  (W3_of_ne m ρ c main_v7 (by decide)).trans (entry0_index m ρ c)
theorem keep3_arg0 (c : Dev nD) : W3 m ρ c (Proc.devRef .tc main_arg0) = m ((c : Thread nD τ).loc main_arg0) :=
  (W3_of_ne m ρ c main_arg0 (by decide)).trans (entry0_arg0 m ρ c)
theorem keep3_arg1 (c : Dev nD) : W3 m ρ c (Proc.devRef .tc main_arg1) = m ((c : Thread nD τ).loc main_arg1) :=
  (W3_of_ne m ρ c main_arg1 (by decide)).trans (entry0_arg1 m ρ c)
theorem keep3_arg2 (c : Dev nD) : W3 m ρ c (Proc.devRef .tc main_arg2) = m ((c : Thread nD τ).loc main_arg2) :=
  (W3_of_ne m ρ c main_arg2 (by decide)).trans (entry0_arg2 m ρ c)
theorem keep3_arg8 (c : Dev nD) : W3 m ρ c (Proc.devRef .tc main_arg8) = m ((c : Thread nD τ).loc main_arg8) :=
  (W3_of_ne m ρ c main_arg8 (by decide)).trans (entry0_arg8 m ρ c)
theorem keep3_arg9 (c : Dev nD) : W3 m ρ c (Proc.devRef .tc main_arg9) = m ((c : Thread nD τ).loc main_arg9) :=
  (W3_of_ne m ρ c main_arg9 (by decide)).trans (entry0_arg9 m ρ c)
theorem keep3_arg10 (c : Dev nD) : W3 m ρ c (Proc.devRef .tc main_arg10) = m ((c : Thread nD τ).loc main_arg10) :=
  (W3_of_ne m ρ c main_arg10 (by decide)).trans (entry0_arg10 m ρ c)
theorem keep3_arg11 (c : Dev nD) : W3 m ρ c (Proc.devRef .tc main_arg11) = m ((c : Thread nD τ).loc main_arg11) :=
  (W3_of_ne m ρ c main_arg11 (by decide)).trans (entry0_arg11 m ρ c)
theorem keep3_arg12 (c : Dev nD) : W3 m ρ c (Proc.devRef .tc main_arg12) = m ((c : Thread nD τ).loc main_arg12) :=
  (W3_of_ne m ρ c main_arg12 (by decide)).trans (entry0_arg12 m ρ c)
theorem keep3_arg13 (c : Dev nD) : W3 m ρ c (Proc.devRef .tc main_arg13) = m ((c : Thread nD τ).loc main_arg13) :=
  (W3_of_ne m ρ c main_arg13 (by decide)).trans (entry0_arg13 m ρ c)

/-- The summed neighbour rows, read as [65536, 1841]. -/
theorem entry1_rows (c : Dev nD) :
    W6 m ρ c (Proc.devRef .tc main_v71) = val_main_v76 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps1_2 (StableHlo.after hostOps1_1 (StableHlo.after hostOps1 (W3 m ρ c))) (Proc.devRef .tc main_v71) = _
  after_results_simp
  rw [exit0_act, keep3_v0, keep3_v4, keep3_v7]
  rfl

/-- The embedding's projection, gathered to the rows. -/
theorem entry1_emb (c : Dev nD) :
    W6 m ρ c (Proc.devRef .tc main_v83) = val_main_v89 (F := Ideal) (m ((c : Thread nD τ).loc main_arg1)) (m ((c : Thread nD τ).loc main_arg2)) (m ((c : Thread nD τ).loc main_arg9)) (m ((c : Thread nD τ).loc main_arg10)) := by
  show StableHlo.after hostOps1_2 (StableHlo.after hostOps1_1 (StableHlo.after hostOps1 (W3 m ρ c))) (Proc.devRef .tc main_v83) = _
  after_results_simp
  rw [keep3_arg1, keep3_arg2, keep3_arg9, keep3_arg10]
  rfl

/-! What these stretches leave alone. -/
theorem keep6_v0 (c : Dev nD) : W6 m ρ c (Proc.devRef .tc main_v0) = val_main_v57 (F := Ideal) (m ((c : Thread nD τ).loc main_arg5)) := by
  refine (show StableHlo.after hostOps1_2 (StableHlo.after hostOps1_1 (StableHlo.after hostOps1 (W3 m ρ c))) (Proc.devRef .tc main_v0) = W3 m ρ c (Proc.devRef .tc main_v0) from ?_).trans (keep3_v0 m ρ c)
  after_results_simp
theorem keep6_v4 (c : Dev nD) : W6 m ρ c (Proc.devRef .tc main_v4) = val_main_v62 (F := Ideal) (m ((c : Thread nD τ).loc main_arg3)) := by
  refine (show StableHlo.after hostOps1_2 (StableHlo.after hostOps1_1 (StableHlo.after hostOps1 (W3 m ρ c))) (Proc.devRef .tc main_v4) = W3 m ρ c (Proc.devRef .tc main_v4) from ?_).trans (keep3_v4 m ρ c)
  after_results_simp
theorem keep6_v7 (c : Dev nD) : W6 m ρ c (Proc.devRef .tc main_v7) = val_main_v65 (F := Ideal) (m ((c : Thread nD τ).loc main_arg3)) (m ((c : Thread nD τ).loc main_arg4)) := by
  refine (show StableHlo.after hostOps1_2 (StableHlo.after hostOps1_1 (StableHlo.after hostOps1 (W3 m ρ c))) (Proc.devRef .tc main_v7) = W3 m ρ c (Proc.devRef .tc main_v7) from ?_).trans (keep3_v7 m ρ c)
  after_results_simp
theorem keep6_arg0 (c : Dev nD) : W6 m ρ c (Proc.devRef .tc main_arg0) = m ((c : Thread nD τ).loc main_arg0) := by
  refine (show StableHlo.after hostOps1_2 (StableHlo.after hostOps1_1 (StableHlo.after hostOps1 (W3 m ρ c))) (Proc.devRef .tc main_arg0) = W3 m ρ c (Proc.devRef .tc main_arg0) from ?_).trans (keep3_arg0 m ρ c)
  after_results_simp
theorem keep6_arg2 (c : Dev nD) : W6 m ρ c (Proc.devRef .tc main_arg2) = m ((c : Thread nD τ).loc main_arg2) := by
  refine (show StableHlo.after hostOps1_2 (StableHlo.after hostOps1_1 (StableHlo.after hostOps1 (W3 m ρ c))) (Proc.devRef .tc main_arg2) = W3 m ρ c (Proc.devRef .tc main_arg2) from ?_).trans (keep3_arg2 m ρ c)
  after_results_simp
theorem keep6_arg8 (c : Dev nD) : W6 m ρ c (Proc.devRef .tc main_arg8) = m ((c : Thread nD τ).loc main_arg8) := by
  refine (show StableHlo.after hostOps1_2 (StableHlo.after hostOps1_1 (StableHlo.after hostOps1 (W3 m ρ c))) (Proc.devRef .tc main_arg8) = W3 m ρ c (Proc.devRef .tc main_arg8) from ?_).trans (keep3_arg8 m ρ c)
  after_results_simp
theorem keep6_arg11 (c : Dev nD) : W6 m ρ c (Proc.devRef .tc main_arg11) = m ((c : Thread nD τ).loc main_arg11) := by
  refine (show StableHlo.after hostOps1_2 (StableHlo.after hostOps1_1 (StableHlo.after hostOps1 (W3 m ρ c))) (Proc.devRef .tc main_arg11) = W3 m ρ c (Proc.devRef .tc main_arg11) from ?_).trans (keep3_arg11 m ρ c)
  after_results_simp
theorem keep6_arg12 (c : Dev nD) : W6 m ρ c (Proc.devRef .tc main_arg12) = m ((c : Thread nD τ).loc main_arg12) := by
  refine (show StableHlo.after hostOps1_2 (StableHlo.after hostOps1_1 (StableHlo.after hostOps1 (W3 m ρ c))) (Proc.devRef .tc main_arg12) = W3 m ρ c (Proc.devRef .tc main_arg12) from ?_).trans (keep3_arg12 m ρ c)
  after_results_simp
theorem keep6_arg13 (c : Dev nD) : W6 m ρ c (Proc.devRef .tc main_arg13) = m ((c : Thread nD τ).loc main_arg13) := by
  refine (show StableHlo.after hostOps1_2 (StableHlo.after hostOps1_1 (StableHlo.after hostOps1 (W3 m ρ c))) (Proc.devRef .tc main_arg13) = W3 m ρ c (Proc.devRef .tc main_arg13) from ?_).trans (keep3_arg13 m ρ c)
  after_results_simp

end Cert.KernelIdeal.HostValue

end
-- ==== Proof.LibPlainDot.lean ====
/-
  A plain matrix product read at an index, at the ideal instance.

  For the dimension numbers "rows × contraction times contraction × columns" (`DotDims.plain M K N`) both the
  vector unit's matmul into a zero accumulator and the host's dot_general are, at output index (a, b), the sum over
  k of l (a, k) · r (k, b) on the extended reals. The sum over the one-axis contraction index is re-indexed by its
  one coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

theorem lhs0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
theorem lhs1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
theorem rhs0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
theorem rhs1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of a plain product at (a, b), over the coordinate `k : Fin K`. -/
theorem sum_plain (M K N : Nat) {φ₁ φ₂ : FTy} (l : FVec Ideal ⟨2, ![M, K]⟩ φ₁) (r : FVec Ideal ⟨2, ![K, N]⟩ φ₂)
    (a : Fin M) (b : Fin N) :
    ∑ k : (DotDims.plain M K N).contr.Idx, l ((DotDims.plain M K N).lhsIdx (ix2 a b) k) * r ((DotDims.plain M K N).rhsIdx (ix2 a b) k)
      = ∑ k : Fin K, l (ix2 a k) * r (ix2 k b) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a b) ((contrEquiv1 (DotDims.plain M K N) K rfl rfl).symm k) = ix2 a k :=
    funext fun d => Fin.ext (by
      match d with
      | ⟨0, _⟩ => exact lhs0 M K N _ _
      | ⟨1, _⟩ => exact (lhs1 M K N _ _).trans hk)
  have er : (DotDims.plain M K N).rhsIdx (ix2 a b) ((contrEquiv1 (DotDims.plain M K N) K rfl rfl).symm k) = ix2 k b :=
    funext fun d => Fin.ext (by
      match d with
      | ⟨0, _⟩ => exact (rhs0 M K N _ _).trans hk
      | ⟨1, _⟩ => exact rhs1 M K N _ _)
  rw [el, er]

/-- The vector unit's matmul into the zero accumulator, at (a, b). -/
theorem matmul_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  subst hD
  exact (Ideal.matmul_constant_zero_apply _ prec l r (ix2 a b)).trans (sum_plain M K N l r a b)

/-- The host's dot_general, at (a, b). -/
theorem dotGeneral_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    Host.dotGeneral (F := Ideal) D prec l r (ix2 a b) = ∑ k : Fin K, l (ix2 a k) * r (ix2 k b) := by
  subst hD
  simp only [Host.dotGeneral]
  exact (Ideal.dotGeneral_apply _ prec _ l r (ix2 a b)).trans (sum_plain M K N l r a b)

end Idealize.ShloMosaic.PlainDot

end
-- ==== Proof.RegionDot.lean ====
import proofs.«124730_j2224793059399_1_alg».proof.Proof.Gen.KernelIdeal.Frame
import proofs.«124730_j2224793059399_1_alg».proof.Proof.LibPlainDot
import Idealize.ShloMosaic.Lib.Pipeline.Value
import Idealize.ShloMosaic.Lib.ValueIdx
import Idealize.ShloMosaic.PureOps.Ideal.Laws

/-! # Regions 1 and 3: a matrix product plus an added array — from blocks to the whole array, on the extended reals

Both regions run over 64 row blocks of 1024 rows. At a point the body multiplies the block's [1024, 1841] rows of the left
operand by the whole [1841, 256] right operand (the narrowing of both operands to bf16 is the identity on the extended reals, and
the product accumulates into zero, so it is the plain sum over the 1841 contraction coordinates) and adds the block's rows of a
third array. An output entry at row `r`, column `c` therefore depends on row `r` of the left operand, column `c` of the right
operand and the entry `(r, c)` of the added array. The output's blocks tile the array, so the array ends as one function
(`dotAdd`) of the three operand arrays, index by index. -/

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- a row of the product plus the added entry -/
def dotAdd (a : S65536x1841.Idx → EReal) (w : S1841x256.Idx → EReal) (d : S65536x256.Idx → EReal) : S65536x256.Idx → EReal :=
  fun i => (∑ k : Fin 1841, a (ValueIdx.ix2 ⟨(i 0).val, (i 0).isLt⟩ k) * w (ValueIdx.ix2 k ⟨(i 1).val, (i 1).isLt⟩)) + d i

/-- Zero offsets on both axes, however spelt. -/
theorem zero_offsets_dot : (![0, 0] : Fin 2 → Nat) = fun _ => 0 := funext fun a => by fin_cases a <;> rfl

/-- The dimension numbers of both regions' product are the plain ones: rows × contraction times contraction × columns. -/
theorem dims_plain : dot_S1024x1841_S1841x256_S1024x256_1_0_0_1_n_n = DotDims.plain 1024 1841 256 := rfl

/-- Region 1's payload at row `p`, column `q` of a block: row `p` of the left block against column `q` of the right operand,
    plus the third block's entry. -/
theorem pay1_apply (x0 : Vec Ideal S1024x1841 .f32) (x1 : Vec Ideal S1841x256 .f32) (x2 : Vec Ideal S1024x256 .f32) (p : Fin 1024) (q : Fin 256) :
    k1_pay1 (F := Ideal) x0 x1 x2 (ix2 p q) = (∑ k : Fin 1841, x0 (ix2 p k) * x1 (ix2 k q)) + x2 (ix2 p q) := by
  unfold k1_pay1
  simp only [shapeCast_self]
  refine congrArg (· + x2 (ix2 p q)) ?_
  exact PlainDot.matmul_plain (M := 1024) (K := 1841) (N := 256) dot_S1024x1841_S1841x256_S1024x256_1_0_0_1_n_n dims_plain none
    (truncf .bf16 x0 bitsLt_bf16_f32) (truncf .bf16 x1 bitsLt_bf16_f32) p q

/-- Region 3's payload is the same but for a cast of the third block to its own shape. -/
theorem pay3_eq (x0 : Vec Ideal S1024x1841 .f32) (x1 : Vec Ideal S1841x256 .f32) (x2 : Vec Ideal S1024x256 .f32) :
    k3_pay1 (F := Ideal) x0 x1 x2 = k1_pay1 (F := Ideal) x0 x1 x2 := by
  unfold k3_pay1 k1_pay1
  simp only [shapeCast_self]

/-- `dotAdd` read at an index whose row is `P` and whose column is `Q`. -/
theorem dotAdd_apply (A : S65536x1841.Idx → EReal) (Wt : S1841x256.Idx → EReal) (D : S65536x256.Idx → EReal) (i : S65536x256.Idx)
    (P : Fin 65536) (Q : Fin 256) (hP : (i 0).val = P.val) (hQ : (i 1).val = Q.val) :
    dotAdd A Wt D i = (∑ k : Fin 1841, A (ix2 P k) * Wt (ix2 k Q)) + D i := by
  have eP : (⟨(i 0).val, (i 0).isLt⟩ : Fin 65536) = P := Fin.ext hP
  have eQ : (⟨(i 1).val, (i 1).isLt⟩ : Fin 256) = Q := Fin.ext hQ
  show (∑ k : Fin 1841, A (ix2 (⟨(i 0).val, (i 0).isLt⟩ : Fin 65536) k) * Wt (ix2 k (⟨(i 1).val, (i 1).isLt⟩ : Fin 256))) + D i = _
  rw [eP, eQ]

/-- ONE BLOCK: when the left block is rows `off … off + 1023` of the array `A`, the right operand is the array `Wt`, and the third
    block is the array `D` read through an embedding `e` that sends row `p` to row `off + p` and keeps the column, the body's
    payload at `y` is `dotAdd A Wt D` at `e y`. -/
theorem block_dot (A : S65536x1841.Idx → EReal) (Wt : S1841x256.Idx → EReal) (D : S65536x256.Idx → EReal)
    (x0 : Vec Ideal S1024x1841 .f32) (x1 : Vec Ideal S1841x256 .f32) (x2 : Vec Ideal S1024x256 .f32)
    (e : S1024x256.Idx → S65536x256.Idx) (off : Nat) (hoff : off + 1024 ≤ 65536)
    (h0 : ∀ (p : Fin 1024) (k : Fin 1841), x0 (ix2 p k) = A (ix2 (⟨off + p.val, by omega⟩ : Fin 65536) k))
    (h1 : ∀ (k : Fin 1841) (q : Fin 256), x1 (ix2 k q) = Wt (ix2 k q))
    (h2 : ∀ y, x2 y = D (e y))
    (he0 : ∀ y, ((e y) 0).val = off + (y 0).val) (he1 : ∀ y, ((e y) 1).val = (y 1).val) (y : S1024x256.Idx) :
    k1_pay1 (F := Ideal) x0 x1 x2 y = dotAdd A Wt D (e y) := by
  obtain ⟨p, q, rfl⟩ : ∃ (p : Fin 1024) (q : Fin 256), y = ix2 p q := ⟨y 0, y 1, eq_ix2 y⟩
  rw [pay1_apply, dotAdd_apply A Wt D (e (ix2 p q)) (⟨off + p.val, by omega⟩ : Fin 65536) q (he0 (ix2 p q)) (he1 (ix2 p q)), h2]
  refine congrArg (· + D (e (ix2 p q))) (Finset.sum_congr rfl fun k _ => ?_)
  rw [h0 p k, h1 k q]

variable (V : (c : Dev nD) → (b : Ref sig .tc) → Buf (Elt Ideal) ((c : Thread nD τ).loc b))

/-! ## Region 1 -/

/-- The index maps of region 1 over its 64 points: the left operand's block and the added array's block move with the output's
    block, the right operand stays at block (0, 0), and the output's block at point `t` is block `(t, 0)`. -/
theorem idx_facts1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = win1_3.index t (0 : Fin 2) ∧ win1_2.index t (1 : Fin 2) = win1_3.index t (1 : Fin 2)
    ∧ win1_3.index t (0 : Fin 2) = t.val ∧ win1_3.index t (1 : Fin 2) = 0 :=
  (by decide +kernel : ∀ t : Fin grid1.N, _)

/-- WHAT POINT `t` WRITES BACK is block `t` of `dotAdd` of the three operand arrays as the region finds them. -/
theorem flushed1_eq (c : Dev nD) (t : Fin cfg1.N) :
    (dat1 (F := Ideal) V c).flushed 3 t = ((cfg1.win 3).blk t).view.read (Elt Ideal)
      (dotAdd (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero zero_offsets_dot]
  simp only [View.ld_unit_zero (S := S1024x1841) zero_offsets_dot, View.ld_unit_zero (S := S1841x256) zero_offsets_dot,
    View.ld_unit_zero (S := S1024x256) zero_offsets_dot]
  have hN : cfg1.N = 64 := N_1
  have ht : t.val < 64 := hN ▸ t.isLt
  obtain ⟨e00, e01, e10, e11, e20, e21, e30, e31⟩ := idx_facts1 t
  funext j
  refine block_dot (V c (Pipeline.arrRef spec1 0)) (V c (Pipeline.arrRef spec1 1)) (V c (Pipeline.arrRef spec1 2))
    (iblk1 V c 0 t) (iblk1 V c 1 t) (iblk1 V c 2 t) (((cfg1.win 3).blk t).view.emb) (t.val * 1024) (by omega) ?_ ?_ ?_ ?_ ?_ j
  · intro p k
    show V c (Pipeline.arrRef spec1 0) (((cfg1.win 0).blk t).view.emb (ix2 p k)) = V c (Pipeline.arrRef spec1 0) (ix2 (⟨t.val * 1024 + p.val, by omega⟩ : Fin 65536) k)
    refine congrArg _ (funext fun a => Fin.ext ?_)
    match a with
    | ⟨0, _⟩ => show win1_0.index t (0 : Fin 2) * 1024 + 1 * p.val = t.val * 1024 + p.val; omega
    | ⟨1, _⟩ => show win1_0.index t (1 : Fin 2) * 1841 + 1 * k.val = k.val; omega
  · intro k q
    show V c (Pipeline.arrRef spec1 1) (((cfg1.win 1).blk t).view.emb (ix2 k q)) = V c (Pipeline.arrRef spec1 1) (ix2 k q)
    refine congrArg _ (funext fun a => Fin.ext ?_)
    match a with
    | ⟨0, _⟩ => show win1_1.index t (0 : Fin 2) * 1841 + 1 * k.val = k.val; omega
    | ⟨1, _⟩ => show win1_1.index t (1 : Fin 2) * 256 + 1 * q.val = q.val; omega
  · intro y
    show V c (Pipeline.arrRef spec1 2) (((cfg1.win 2).blk t).view.emb y) = V c (Pipeline.arrRef spec1 2) (((cfg1.win 3).blk t).view.emb y)
    refine congrArg _ (funext fun a => Fin.ext ?_)
    match a with
    | ⟨0, _⟩ => show win1_2.index t (0 : Fin 2) * 1024 + 1 * (y 0).val = win1_3.index t (0 : Fin 2) * 1024 + 1 * (y 0).val; omega
    | ⟨1, _⟩ => show win1_2.index t (1 : Fin 2) * 256 + 1 * (y 1).val = win1_3.index t (1 : Fin 2) * 256 + 1 * (y 1).val; omega
  · intro y
    show win1_3.index t (0 : Fin 2) * 1024 + 1 * (y 0).val = t.val * 1024 + (y 0).val
    omega
  · intro y
    show win1_3.index t (1 : Fin 2) * 256 + 1 * (y 1).val = (y 1).val
    omega

/-- An index of the array is in point `t`'s block iff each coordinate is in the block's range on its axis. -/
theorem mem_blk1 (t : Fin cfg1.N) (i : S65536x256.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_v84).slice (win1_3.rect t)).set ↔ _
  rw [View.set_slice_whole, Rect.mem_set_unit]
  exact Iff.rfl

/-- The 64 blocks of 1024 rows tile the 65536 rows: row `r` is in the block of point `r / 1024`. -/
theorem cover1 (i : S65536x256.Idx) : ∃ t : Fin cfg1.N, (cfg1.win 3).flush t = true ∧ i ∈ ((cfg1.win 3).blk t).view.set := by
  have hN : cfg1.N = 64 := N_1
  have hi0 : (i 0).val < 65536 := (i 0).isLt
  have hi1 : (i 1).val < 256 := (i 1).isLt
  refine ⟨⟨(i 0).val / 1024, by rw [hN]; omega⟩, flush1_3 _, ?_⟩
  rw [mem_blk1]
  obtain ⟨-, -, -, -, -, -, e30, e31⟩ := idx_facts1 ⟨(i 0).val / 1024, by rw [hN]; omega⟩
  intro a
  match a with
  | ⟨0, _⟩ => show win1_3.index _ (0 : Fin 2) * 1024 ≤ (i 0).val ∧ (i 0).val < win1_3.index _ (0 : Fin 2) * 1024 + 1024; rw [e30]; show (i 0).val / 1024 * 1024 ≤ (i 0).val ∧ (i 0).val < (i 0).val / 1024 * 1024 + 1024; omega
  | ⟨1, _⟩ => show win1_3.index _ (1 : Fin 2) * 256 ≤ (i 1).val ∧ (i 1).val < win1_3.index _ (1 : Fin 2) * 256 + 256; rw [e31]; omega

/-- THE ARRAY after region 1: `dotAdd` of the three operand arrays as the region finds them. -/
theorem final1 (c : Dev nD) : (dat1 (F := Ideal) V c).arrAt 3 cfg1.N
    = dotAdd (V c (Pipeline.arrRef spec1 0)) (V c (Pipeline.arrRef spec1 1)) (V c (Pipeline.arrRef spec1 2)) :=
  (dat1 (F := Ideal) V c).arrAt_eq_of_cover 3 _ (fun t _ => flushed1_eq V c t) cover1

/-! ## Region 3 -/

/-- The index maps of region 3 over its 64 points: the left operand's block and the added array's block move with the output's
    block, the right operand stays at block (0, 0), and the output's block at point `t` is block `(t, 0)`. -/
theorem idx_facts3 : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = win3_3.index t (0 : Fin 2) ∧ win3_2.index t (1 : Fin 2) = win3_3.index t (1 : Fin 2)
    ∧ win3_3.index t (0 : Fin 2) = t.val ∧ win3_3.index t (1 : Fin 2) = 0 :=
  (by decide +kernel : ∀ t : Fin grid3.N, _)

/-- WHAT POINT `t` WRITES BACK is block `t` of `dotAdd` of the three operand arrays as the region finds them. -/
theorem flushed3_eq (c : Dev nD) (t : Fin cfg3.N) :
    (dat3 (F := Ideal) V c).flushed 3 t = ((cfg3.win 3).blk t).view.read (Elt Ideal)
      (dotAdd (V c (Pipeline.arrRef spec3 0)) (V c (Pipeline.arrRef spec3 1)) (V c (Pipeline.arrRef spec3 2))) := by
  show (cfg3.win 3).cut (grid3.coords t) ((dat3 (F := Ideal) V c).after 3 t) = _
  rw [after3_3]
  unfold out3_3
  rw [View.canon_unit_zero zero_offsets_dot]
  simp only [View.ld_unit_zero (S := S1024x1841) zero_offsets_dot, View.ld_unit_zero (S := S1841x256) zero_offsets_dot,
    View.ld_unit_zero (S := S1024x256) zero_offsets_dot]
  rw [pay3_eq]
  have hN : cfg3.N = 64 := N_3
  have ht : t.val < 64 := hN ▸ t.isLt
  obtain ⟨e00, e01, e10, e11, e20, e21, e30, e31⟩ := idx_facts3 t
  funext j
  refine block_dot (V c (Pipeline.arrRef spec3 0)) (V c (Pipeline.arrRef spec3 1)) (V c (Pipeline.arrRef spec3 2))
    (iblk3 V c 0 t) (iblk3 V c 1 t) (iblk3 V c 2 t) (((cfg3.win 3).blk t).view.emb) (t.val * 1024) (by omega) ?_ ?_ ?_ ?_ ?_ j
  · intro p k
    show V c (Pipeline.arrRef spec3 0) (((cfg3.win 0).blk t).view.emb (ix2 p k)) = V c (Pipeline.arrRef spec3 0) (ix2 (⟨t.val * 1024 + p.val, by omega⟩ : Fin 65536) k)
    refine congrArg _ (funext fun a => Fin.ext ?_)
    match a with
    | ⟨0, _⟩ => show win3_0.index t (0 : Fin 2) * 1024 + 1 * p.val = t.val * 1024 + p.val; omega
    | ⟨1, _⟩ => show win3_0.index t (1 : Fin 2) * 1841 + 1 * k.val = k.val; omega
  · intro k q
    show V c (Pipeline.arrRef spec3 1) (((cfg3.win 1).blk t).view.emb (ix2 k q)) = V c (Pipeline.arrRef spec3 1) (ix2 k q)
    refine congrArg _ (funext fun a => Fin.ext ?_)
    match a with
    | ⟨0, _⟩ => show win3_1.index t (0 : Fin 2) * 1841 + 1 * k.val = k.val; omega
    | ⟨1, _⟩ => show win3_1.index t (1 : Fin 2) * 256 + 1 * q.val = q.val; omega
  · intro y
    show V c (Pipeline.arrRef spec3 2) (((cfg3.win 2).blk t).view.emb y) = V c (Pipeline.arrRef spec3 2) (((cfg3.win 3).blk t).view.emb y)
    refine congrArg _ (funext fun a => Fin.ext ?_)
    match a with
    | ⟨0, _⟩ => show win3_2.index t (0 : Fin 2) * 1024 + 1 * (y 0).val = win3_3.index t (0 : Fin 2) * 1024 + 1 * (y 0).val; omega
    | ⟨1, _⟩ => show win3_2.index t (1 : Fin 2) * 256 + 1 * (y 1).val = win3_3.index t (1 : Fin 2) * 256 + 1 * (y 1).val; omega
  · intro y
    show win3_3.index t (0 : Fin 2) * 1024 + 1 * (y 0).val = t.val * 1024 + (y 0).val
    omega
  · intro y
    show win3_3.index t (1 : Fin 2) * 256 + 1 * (y 1).val = (y 1).val
    omega

/-- An index of the array is in point `t`'s block iff each coordinate is in the block's range on its axis. -/
theorem mem_blk3 (t : Fin cfg3.N) (i : S65536x256.Idx) :
    i ∈ ((cfg3.win 3).blk t).view.set ↔ ∀ a : Fin 2, win3_3.index t a * S1024x256.size a ≤ (i a).val ∧ (i a).val < win3_3.index t a * S1024x256.size a + S1024x256.size a := by
  show i ∈ ((View.whole main_v149).slice (win3_3.rect t)).set ↔ _
  rw [View.set_slice_whole, Rect.mem_set_unit]
  exact Iff.rfl

/-- The 64 blocks of 1024 rows tile the 65536 rows: row `r` is in the block of point `r / 1024`. -/
theorem cover3 (i : S65536x256.Idx) : ∃ t : Fin cfg3.N, (cfg3.win 3).flush t = true ∧ i ∈ ((cfg3.win 3).blk t).view.set := by
  have hN : cfg3.N = 64 := N_3
  have hi0 : (i 0).val < 65536 := (i 0).isLt
  have hi1 : (i 1).val < 256 := (i 1).isLt
  refine ⟨⟨(i 0).val / 1024, by rw [hN]; omega⟩, flush3_3 _, ?_⟩
  rw [mem_blk3]
  obtain ⟨-, -, -, -, -, -, e30, e31⟩ := idx_facts3 ⟨(i 0).val / 1024, by rw [hN]; omega⟩
  intro a
  match a with
  | ⟨0, _⟩ => show win3_3.index _ (0 : Fin 2) * 1024 ≤ (i 0).val ∧ (i 0).val < win3_3.index _ (0 : Fin 2) * 1024 + 1024; rw [e30]; show (i 0).val / 1024 * 1024 ≤ (i 0).val ∧ (i 0).val < (i 0).val / 1024 * 1024 + 1024; omega
  | ⟨1, _⟩ => show win3_3.index _ (1 : Fin 2) * 256 ≤ (i 1).val ∧ (i 1).val < win3_3.index _ (1 : Fin 2) * 256 + 256; rw [e31]; omega

/-- THE ARRAY after region 3: `dotAdd` of the three operand arrays as the region finds them. -/
theorem final3 (c : Dev nD) : (dat3 (F := Ideal) V c).arrAt 3 cfg3.N
    = dotAdd (V c (Pipeline.arrRef spec3 0)) (V c (Pipeline.arrRef spec3 1)) (V c (Pipeline.arrRef spec3 2)) :=
  (dat3 (F := Ideal) V c).arrAt_eq_of_cover 3 _ (fun t _ => flushed3_eq V c t) cover3

end Cert.KernelIdeal.RegionValue

end
-- ==== Proof.BridgeDot.lean ====
/-
  The product stage on the two sides.  The kernel's regions leave, entry by entry, the sum over k of a row of the left
  operand times a column of the right operand, plus the added array's entry; the reference applies a dot_general and an
  add.  On the extended reals the dot_general IS that sum, so the arrays are equal index by index — in the second
  layer after exchanging the two summands, the reference adding the product to the skip input and the kernel the skip
  input to the product.
-/
import proofs.«124730_j2224793059399_1_alg».proof.Proof.RegionDot
import proofs.«124730_j2224793059399_1_alg».proof.Proof.RefRead

set_option maxRecDepth 16384

noncomputable section

namespace Cert.KernelIdeal.Bridge

open Cert.KernelIdeal Idealize.ShloMosaic Idealize.ShloMosaic.ValueIdx
open Cert.ReferenceIdeal.ReadP Cert.KernelIdeal.RegionValue

variable (x0 : (⟨Cert.ReferenceIdeal.S65536x256, .f32⟩ : BufTy).Contents (Elt Ideal)) (x1 : (⟨Cert.ReferenceIdeal.S8x512, .f32⟩ : BufTy).Contents (Elt Ideal)) (x2 : (⟨Cert.ReferenceIdeal.S65536, .i32⟩ : BufTy).Contents (Elt Ideal)) (x3 : (⟨Cert.ReferenceIdeal.S2x458752, .i32⟩ : BufTy).Contents (Elt Ideal)) (x4 : (⟨Cert.ReferenceIdeal.S458752, .i32⟩ : BufTy).Contents (Elt Ideal)) (x5 : (⟨Cert.ReferenceIdeal.S65536, .i32⟩ : BufTy).Contents (Elt Ideal)) (x6 : (⟨Cert.ReferenceIdeal.S1x256, .f32⟩ : BufTy).Contents (Elt Ideal)) (x7 : (⟨Cert.ReferenceIdeal.S1x256, .f32⟩ : BufTy).Contents (Elt Ideal)) (x8 : (⟨Cert.ReferenceIdeal.S1841x256, .f32⟩ : BufTy).Contents (Elt Ideal)) (x9 : (⟨Cert.ReferenceIdeal.S512x256, .f32⟩ : BufTy).Contents (Elt Ideal)) (x10 : (⟨Cert.ReferenceIdeal.S256, .f32⟩ : BufTy).Contents (Elt Ideal)) (x11 : (⟨Cert.ReferenceIdeal.S1x256, .f32⟩ : BufTy).Contents (Elt Ideal)) (x12 : (⟨Cert.ReferenceIdeal.S1x256, .f32⟩ : BufTy).Contents (Elt Ideal)) (x13 : (⟨Cert.ReferenceIdeal.S1841x256, .f32⟩ : BufTy).Contents (Elt Ideal))

/-- The first layer's product plus the embedding rows. -/
theorem dot_stage1 :
    dotAdd (val_main_v76 (F := Ideal) x0 x2 x3 x4 x5 x6 x7) x8 (val_main_v89 (F := Ideal) x1 x2 x9 x10)
      = val_main_v90 (F := Ideal) x0 x1 x2 x3 x4 x5 x6 x7 x8 x9 x10 := by
  funext i
  rw [val_main_v90_apply, val_main_v77_apply]
  have el : ∀ k : Fin 1841, (ValueIdx.ix2 ⟨(i 0).val, (i 0).isLt⟩ k : S65536x1841.Idx) = lidx_main_v77 i k := fun k => funext fun a => match a with
    | ⟨0, _⟩ => rfl
    | ⟨1, _⟩ => rfl
  have er : ∀ k : Fin 1841, (ValueIdx.ix2 k ⟨(i 1).val, (i 1).isLt⟩ : S1841x256.Idx) = ridx_main_v77 i k := fun k => funext fun a => match a with
    | ⟨0, _⟩ => rfl
    | ⟨1, _⟩ => rfl
  exact congrArg₂ (· + ·) (Finset.sum_congr rfl fun k _ => by rw [el k, er k]) rfl

/-- The second layer's product plus the skip input. -/
theorem dot_stage2 :
    dotAdd (val_main_v167 (F := Ideal) x0 x1 x2 x3 x4 x5 x6 x7 x8 x9 x10 x11 x12) x13 x0 = val_main_v169 (F := Ideal) x0 x1 x2 x3 x4 x5 x6 x7 x8 x9 x10 x11 x12 x13 := by
  funext i
  rw [val_main_v169_apply, val_main_v168_apply]
  have el : ∀ k : Fin 1841, (ValueIdx.ix2 ⟨(i 0).val, (i 0).isLt⟩ k : S65536x1841.Idx) = lidx_main_v168 i k := fun k => funext fun a => match a with
    | ⟨0, _⟩ => rfl
    | ⟨1, _⟩ => rfl
  have er : ∀ k : Fin 1841, (ValueIdx.ix2 k ⟨(i 1).val, (i 1).isLt⟩ : S1841x256.Idx) = ridx_main_v168 i k := fun k => funext fun a => match a with
    | ⟨0, _⟩ => rfl
    | ⟨1, _⟩ => rfl
  exact (congrArg₂ (· + ·) (Finset.sum_congr rfl fun k _ => by rw [el k, er k]) rfl).trans (add_comm _ _)

end Cert.KernelIdeal.Bridge

end
-- ==== Proof.KStage2.lean ====
/-
  From the second region to the third.  The second region leaves the first layer's output — the neighbour rows times
  the first weight matrix plus the embedding rows — in its output array.  The next stretch of host operations computes
  the second group normalisation's statistics of that array: the centred data and the reciprocal standard deviation
  gathered to the rows.  The third region leaves their activation.  Each buffer holds the reference's stage of that name.
-/
import proofs.«124730_j2224793059399_1_alg».proof.Proof.KStage1
import proofs.«124730_j2224793059399_1_alg».proof.Proof.RegionDot
import proofs.«124730_j2224793059399_1_alg».proof.Proof.BridgeDot

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg)

/-- The second region's output: the first layer's output. -/
theorem exit1_layer (c : Dev nD) :
    W7 m ρ c (Proc.devRef .tc main_v84) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (show W7 m ρ c (Proc.devRef .tc main_v84) = (dat1 (V6 m ρ) c).arrAt 3 cfg1.N from W7_arr m ρ c 3).trans ?_
  rw [RegionValue.final1 (V6 m ρ) c]
  show RegionValue.dotAdd (W6 m ρ c (Proc.devRef .tc main_v71)) (W6 m ρ c (Proc.devRef .tc main_arg8))
      (W6 m ρ c (Proc.devRef .tc main_v83)) = _
  rw [entry1_rows, keep6_arg8, entry1_emb]
  exact Bridge.dot_stage1 ..

/-! What the second region leaves alone. -/
theorem keep7_v0 (c : Dev nD) : W7 m ρ c (Proc.devRef .tc main_v0) = val_main_v57 (F := Ideal) (m ((c : Thread nD τ).loc main_arg5)) :=
  (W7_of_ne m ρ c main_v0 (by decide)).trans (keep6_v0 m ρ c)
theorem keep7_v4 (c : Dev nD) : W7 m ρ c (Proc.devRef .tc main_v4) = val_main_v62 (F := Ideal) (m ((c : Thread nD τ).loc main_arg3)) :=
  (W7_of_ne m ρ c main_v4 (by decide)).trans (keep6_v4 m ρ c)
theorem keep7_v7 (c : Dev nD) : W7 m ρ c (Proc.devRef .tc main_v7) = val_main_v65 (F := Ideal) (m ((c : Thread nD τ).loc main_arg3)) (m ((c : Thread nD τ).loc main_arg4)) :=
  (W7_of_ne m ρ c main_v7 (by decide)).trans (keep6_v7 m ρ c)
theorem keep7_arg0 (c : Dev nD) : W7 m ρ c (Proc.devRef .tc main_arg0) = m ((c : Thread nD τ).loc main_arg0) :=
  (W7_of_ne m ρ c main_arg0 (by decide)).trans (keep6_arg0 m ρ c)
theorem keep7_arg2 (c : Dev nD) : W7 m ρ c (Proc.devRef .tc main_arg2) = m ((c : Thread nD τ).loc main_arg2) :=
  (W7_of_ne m ρ c main_arg2 (by decide)).trans (keep6_arg2 m ρ c)
theorem keep7_arg11 (c : Dev nD) : W7 m ρ c (Proc.devRef .tc main_arg11) = m ((c : Thread nD τ).loc main_arg11) :=
  (W7_of_ne m ρ c main_arg11 (by decide)).trans (keep6_arg11 m ρ c)
theorem keep7_arg12 (c : Dev nD) : W7 m ρ c (Proc.devRef .tc main_arg12) = m ((c : Thread nD τ).loc main_arg12) :=
  (W7_of_ne m ρ c main_arg12 (by decide)).trans (keep6_arg12 m ρ c)
theorem keep7_arg13 (c : Dev nD) : W7 m ρ c (Proc.devRef .tc main_arg13) = m ((c : Thread nD τ).loc main_arg13) :=
  (W7_of_ne m ρ c main_arg13 (by decide)).trans (keep6_arg13 m ρ c)

/-- The first layer's output centred by its group means. -/
theorem entry2_centred (c : Dev nD) :
    W8 m ρ c (Proc.devRef .tc main_v112) = val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps2 (W7 m ρ c) (Proc.devRef .tc main_v112) = _
  after_results_simp
  rw [exit1_layer, keep7_arg2]
  rfl

/-- The reciprocal standard deviations of the first layer's output, gathered to the rows. -/
theorem entry2_scale (c : Dev nD) :
    W8 m ρ c (Proc.devRef .tc main_v135) = val_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps2 (W7 m ρ c) (Proc.devRef .tc main_v135) = _
  after_results_simp
  rw [exit1_layer, keep7_arg2]
  rfl

/-! What this stretch leaves alone. -/
theorem keep8_v0 (c : Dev nD) : W8 m ρ c (Proc.devRef .tc main_v0) = val_main_v57 (F := Ideal) (m ((c : Thread nD τ).loc main_arg5)) := by
  refine (show StableHlo.after hostOps2 (W7 m ρ c) (Proc.devRef .tc main_v0) = W7 m ρ c (Proc.devRef .tc main_v0) from ?_).trans (keep7_v0 m ρ c)
  after_results_simp
theorem keep8_v4 (c : Dev nD) : W8 m ρ c (Proc.devRef .tc main_v4) = val_main_v62 (F := Ideal) (m ((c : Thread nD τ).loc main_arg3)) := by
  refine (show StableHlo.after hostOps2 (W7 m ρ c) (Proc.devRef .tc main_v4) = W7 m ρ c (Proc.devRef .tc main_v4) from ?_).trans (keep7_v4 m ρ c)
  after_results_simp
theorem keep8_v7 (c : Dev nD) : W8 m ρ c (Proc.devRef .tc main_v7) = val_main_v65 (F := Ideal) (m ((c : Thread nD τ).loc main_arg3)) (m ((c : Thread nD τ).loc main_arg4)) := by
  refine (show StableHlo.after hostOps2 (W7 m ρ c) (Proc.devRef .tc main_v7) = W7 m ρ c (Proc.devRef .tc main_v7) from ?_).trans (keep7_v7 m ρ c)
  after_results_simp
theorem keep8_arg0 (c : Dev nD) : W8 m ρ c (Proc.devRef .tc main_arg0) = m ((c : Thread nD τ).loc main_arg0) := by
  refine (show StableHlo.after hostOps2 (W7 m ρ c) (Proc.devRef .tc main_arg0) = W7 m ρ c (Proc.devRef .tc main_arg0) from ?_).trans (keep7_arg0 m ρ c)
  after_results_simp
theorem keep8_arg11 (c : Dev nD) : W8 m ρ c (Proc.devRef .tc main_arg11) = m ((c : Thread nD τ).loc main_arg11) := by
  refine (show StableHlo.after hostOps2 (W7 m ρ c) (Proc.devRef .tc main_arg11) = W7 m ρ c (Proc.devRef .tc main_arg11) from ?_).trans (keep7_arg11 m ρ c)
  after_results_simp
theorem keep8_arg12 (c : Dev nD) : W8 m ρ c (Proc.devRef .tc main_arg12) = m ((c : Thread nD τ).loc main_arg12) := by
  refine (show StableHlo.after hostOps2 (W7 m ρ c) (Proc.devRef .tc main_arg12) = W7 m ρ c (Proc.devRef .tc main_arg12) from ?_).trans (keep7_arg12 m ρ c)
  after_results_simp
theorem keep8_arg13 (c : Dev nD) : W8 m ρ c (Proc.devRef .tc main_arg13) = m ((c : Thread nD τ).loc main_arg13) := by
  refine (show StableHlo.after hostOps2 (W7 m ρ c) (Proc.devRef .tc main_arg13) = W7 m ρ c (Proc.devRef .tc main_arg13) from ?_).trans (keep7_arg13 m ρ c)
  after_results_simp

/-- The third region's output: the second activation. -/
theorem exit2_act (c : Dev nD) :
    W9 m ρ c (Proc.devRef .tc main_v136) = val_main_v147 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (show W9 m ρ c (Proc.devRef .tc main_v136) = (dat2 (V8 m ρ) c).arrAt 4 cfg2.N from W9_arr m ρ c 4).trans ?_
  rw [RegionValue.final2 (V8 m ρ) c]
  show RegionValue.act (W8 m ρ c (Proc.devRef .tc main_v112)) (W8 m ρ c (Proc.devRef .tc main_v135))
      (W8 m ρ c (Proc.devRef .tc main_arg11)) (W8 m ρ c (Proc.devRef .tc main_arg12)) = _
  rw [entry2_centred, entry2_scale, keep8_arg11, keep8_arg12]
  exact Bridge.act_stage2 ..

/-! What the third region leaves alone. -/
theorem keep9_v0 (c : Dev nD) : W9 m ρ c (Proc.devRef .tc main_v0) = val_main_v57 (F := Ideal) (m ((c : Thread nD τ).loc main_arg5)) :=
  (W9_of_ne m ρ c main_v0 (by decide)).trans (keep8_v0 m ρ c)
theorem keep9_v4 (c : Dev nD) : W9 m ρ c (Proc.devRef .tc main_v4) = val_main_v62 (F := Ideal) (m ((c : Thread nD τ).loc main_arg3)) :=
  (W9_of_ne m ρ c main_v4 (by decide)).trans (keep8_v4 m ρ c)
theorem keep9_v7 (c : Dev nD) : W9 m ρ c (Proc.devRef .tc main_v7) = val_main_v65 (F := Ideal) (m ((c : Thread nD τ).loc main_arg3)) (m ((c : Thread nD τ).loc main_arg4)) :=
  (W9_of_ne m ρ c main_v7 (by decide)).trans (keep8_v7 m ρ c)
theorem keep9_arg0 (c : Dev nD) : W9 m ρ c (Proc.devRef .tc main_arg0) = m ((c : Thread nD τ).loc main_arg0) :=
  (W9_of_ne m ρ c main_arg0 (by decide)).trans (keep8_arg0 m ρ c)
theorem keep9_arg13 (c : Dev nD) : W9 m ρ c (Proc.devRef .tc main_arg13) = m ((c : Thread nD τ).loc main_arg13) :=
  (W9_of_ne m ρ c main_arg13 (by decide)).trans (keep8_arg13 m ρ c)

end Cert.KernelIdeal.HostValue

end
-- ==== Proof.KStage3.lean ====
/-
  The last stretch and the last region.  The host operations join the one-hot rows to the second activation, gather
  and add the neighbour rows as in the first layer, and the fourth region leaves their product with the second weight
  matrix plus the skip input in the result buffer: the reference's result, read at the launch contents.
-/
import proofs.«124730_j2224793059399_1_alg».proof.Proof.KStage2

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg)

/-- The second layer's summed neighbour rows, read as [65536, 1841]. -/
theorem entry3_rows (c : Dev nD) :
    W10 m ρ c (Proc.devRef .tc main_v148) = val_main_v167 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps3 (W9 m ρ c) (Proc.devRef .tc main_v148) = _
  after_results_simp
  rw [exit2_act, keep9_v0, keep9_v4, keep9_v7]
  rfl

/-! What this stretch leaves alone. -/
theorem keep10_arg0 (c : Dev nD) : W10 m ρ c (Proc.devRef .tc main_arg0) = m ((c : Thread nD τ).loc main_arg0) := by
  refine (show StableHlo.after hostOps3 (W9 m ρ c) (Proc.devRef .tc main_arg0) = W9 m ρ c (Proc.devRef .tc main_arg0) from ?_).trans (keep9_arg0 m ρ c)
  after_results_simp
theorem keep10_arg13 (c : Dev nD) : W10 m ρ c (Proc.devRef .tc main_arg13) = m ((c : Thread nD τ).loc main_arg13) := by
  refine (show StableHlo.after hostOps3 (W9 m ρ c) (Proc.devRef .tc main_arg13) = W9 m ρ c (Proc.devRef .tc main_arg13) from ?_).trans (keep9_arg13 m ρ c)
  after_results_simp

/-- THE RESULT BUFFER at the end of @main holds the reference's result stage of the launch contents. -/
theorem result (c : Dev nD) :
    W11 m ρ c (Proc.devRef .tc main_v149) = val_main_v169 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (show W11 m ρ c (Proc.devRef .tc main_v149) = (dat3 (V10 m ρ) c).arrAt 3 cfg3.N from W11_arr m ρ c 3).trans ?_
  rw [RegionValue.final3 (V10 m ρ) c]
  show RegionValue.dotAdd (W10 m ρ c (Proc.devRef .tc main_v148)) (W10 m ρ c (Proc.devRef .tc main_arg13))
      (W10 m ρ c (Proc.devRef .tc main_arg0)) = _
  rw [entry3_rows, keep10_arg13, keep10_arg0]
  exact Bridge.dot_stage2 ..

end Cert.KernelIdeal.HostValue

end
-- ==== Proof.RefRun.lean ====
import proofs.«124730_j2224793059399_1_alg».proof.Proof.RefOps
import proofs.«124730_j2224793059399_1_alg».proof.Proof.RefRead

/-! The reference program's run, read back stage by stage.

The program is a straight line of 244 operations; several of its values are used more than once (the inverse
counts, the centred data, the normalised values, the first layer's output). The line is cut after each such
value into sixteen consecutive pieces. `V K` is the contents of the device's buffers after the first `K` pieces.
For every argument of the program, and for every computed buffer that a later piece still reads, `VK_<buffer>`
says what `V K` holds there: the launch contents for an argument (no operation writes one), and for a computed
buffer the value that the read module names `val_<buffer>`, at the arguments' launch contents. Each such fact follows from the facts of the
piece before by computing the piece's operations at that buffer. The last piece's fact is the result. -/

noncomputable section

namespace Cert.ReferenceIdeal.RefRun

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The pieces -/

/-- Operations 1 to 15 (the last one writes `main_v9`). -/
abbrev s1 : List (HloOp τ sig (Elt F)) :=
  [ nullary main_cst (constant S_ .f32 0x3F800000#32),
    unary main_cst main_v0 (broadcastInDim S65536x1 ![] bcast_S_S65536x1 : (⟨S_, .f32⟩ : BufTy).Contents (Elt F) → (⟨S65536x1, .f32⟩ : BufTy).Contents (Elt F)),
    nullary main_cst_0 (constant S_ .f32 0x00000000#32),
    unary main_cst_0 main_v1 (broadcastInDim S8x1 ![] bcast_S_S8x1 : (⟨S_, .f32⟩ : BufTy).Contents (Elt F) → (⟨S8x1, .f32⟩ : BufTy).Contents (Elt F)),
    unary main_arg2 main_v2 (broadcastInDim S65536x1 ![0] bcast_S65536_S65536x1_0 : (⟨S65536, .i32⟩ : BufTy).Contents (Elt F) → (⟨S65536x1, .i32⟩ : BufTy).Contents (Elt F)),
    ternary main_v1 main_v2 main_v0 main_v3 ((fun x i u => Host.scatterAdd scatter_S8x1_S65536x1_S65536x1_1_0_0_1 x i u) : (⟨S8x1, .f32⟩ : BufTy).Contents (Elt F) → (⟨S65536x1, .i32⟩ : BufTy).Contents (Elt F) → (⟨S65536x1, .f32⟩ : BufTy).Contents (Elt F) → (⟨S8x1, .f32⟩ : BufTy).Contents (Elt F)),
    nullary main_cst_1 (constant S_ .f32 0x41000000#32),
    unary main_cst_1 main_v4 (broadcastInDim S8x1 ![] bcast_S_S8x1 : (⟨S_, .f32⟩ : BufTy).Contents (Elt F) → (⟨S8x1, .f32⟩ : BufTy).Contents (Elt F)),
    binary main_v3 main_v4 main_v5 (mulf : (⟨S8x1, .f32⟩ : BufTy).Contents (Elt F) → (⟨S8x1, .f32⟩ : BufTy).Contents (Elt F) → (⟨S8x1, .f32⟩ : BufTy).Contents (Elt F)),
    nullary main_cst_2 (constant S_ .f32 0x3727C5AC#32),
    unary main_cst_2 main_v6 (broadcastInDim S8x1 ![] bcast_S_S8x1 : (⟨S_, .f32⟩ : BufTy).Contents (Elt F) → (⟨S8x1, .f32⟩ : BufTy).Contents (Elt F)),
    binary main_v5 main_v6 main_v7 (addf : (⟨S8x1, .f32⟩ : BufTy).Contents (Elt F) → (⟨S8x1, .f32⟩ : BufTy).Contents (Elt F) → (⟨S8x1, .f32⟩ : BufTy).Contents (Elt F)),
    nullary main_cst_3 (constant S_ .f32 0x3F800000#32),
    unary main_cst_3 main_v8 (broadcastInDim S8x1 ![] bcast_S_S8x1 : (⟨S_, .f32⟩ : BufTy).Contents (Elt F) → (⟨S8x1, .f32⟩ : BufTy).Contents (Elt F)),
    binary main_v8 main_v7 main_v9 (Host.divf : (⟨S8x1, .f32⟩ : BufTy).Contents (Elt F) → (⟨S8x1, .f32⟩ : BufTy).Contents (Elt F) → (⟨S8x1, .f32⟩ : BufTy).Contents (Elt F)) ]

/-- Operations 16 to 37 (the last one writes `main_v27`). -/
abbrev s2 : List (HloOp τ sig (Elt F)) :=
  [ nullary main_cst_4 (constant S_ .f32 0x00000000#32),
    unary main_cst_4 main_v10 (broadcastInDim S8x256 ![] bcast_S_S8x256 : (⟨S_, .f32⟩ : BufTy).Contents (Elt F) → (⟨S8x256, .f32⟩ : BufTy).Contents (Elt F)),
    unary main_arg2 main_v11 (broadcastInDim S65536x1 ![0] bcast_S65536_S65536x1_0 : (⟨S65536, .i32⟩ : BufTy).Contents (Elt F) → (⟨S65536x1, .i32⟩ : BufTy).Contents (Elt F)),
    ternary main_v10 main_v11 main_arg0 main_v12 ((fun x i u => Host.scatterAdd scatter_S8x256_S65536x1_S65536x256_1_0_0_1 x i u) : (⟨S8x256, .f32⟩ : BufTy).Contents (Elt F) → (⟨S65536x1, .i32⟩ : BufTy).Contents (Elt F) → (⟨S65536x256, .f32⟩ : BufTy).Contents (Elt F) → (⟨S8x256, .f32⟩ : BufTy).Contents (Elt F)),
    unary main_v9 main_v13 (broadcastInDim S8x256 ![0, 1] bcast_S8x1_S8x256_0_1 : (⟨S8x1, .f32⟩ : BufTy).Contents (Elt F) → (⟨S8x256, .f32⟩ : BufTy).Contents (Elt F)),
    binary main_v12 main_v13 main_v14 (mulf : (⟨S8x256, .f32⟩ : BufTy).Contents (Elt F) → (⟨S8x256, .f32⟩ : BufTy).Contents (Elt F) → (⟨S8x256, .f32⟩ : BufTy).Contents (Elt F)),
    reshape main_v14 main_v15 rfl shapeCasts_S8x256_S8x32x8,
    nullary main_cst_5 (constant S_ .f32 0x00000000#32),
    binary main_v15 main_cst_5 main_v16 ((fun x v => Host.reduceAdd x v reducesTo_S8x32x8_S8x32_d2 h_S_) : (⟨S8x32x8, .f32⟩ : BufTy).Contents (Elt F) → (⟨S_, .f32⟩ : BufTy).Contents (Elt F) → (⟨S8x32, .f32⟩ : BufTy).Contents (Elt F)),
    unary main_v16 main_v17 (broadcastInDim S8x32x1 ![0, 1] bcast_S8x32_S8x32x1_0_1 : (⟨S8x32, .f32⟩ : BufTy).Contents (Elt F) → (⟨S8x32x1, .f32⟩ : BufTy).Contents (Elt F)),
    unary main_v17 main_v18 (broadcastInDim S8x32x8 ![0, 1, 2] bcast_S8x32x1_S8x32x8_0_1_2 : (⟨S8x32x1, .f32⟩ : BufTy).Contents (Elt F) → (⟨S8x32x8, .f32⟩ : BufTy).Contents (Elt F)),
    reshape main_v18 main_v19 rfl shapeCasts_S8x32x8_S8x256,
    nullary main_c (constantI S_ 32 0#32),
    unary main_c main_v20 (broadcastInDim S65536 ![] bcast_S_S65536 : (⟨S_, .i32⟩ : BufTy).Contents (Elt F) → (⟨S65536, .i32⟩ : BufTy).Contents (Elt F)),
    binary main_arg2 main_v20 main_v21 (cmpi .slt : (⟨S65536, .i32⟩ : BufTy).Contents (Elt F) → (⟨S65536, .i32⟩ : BufTy).Contents (Elt F) → (⟨S65536, .i1⟩ : BufTy).Contents (Elt F)),
    nullary main_c_6 (constantI S_ 32 8#32),
    unary main_c_6 main_v22 (broadcastInDim S65536 ![] bcast_S_S65536 : (⟨S_, .i32⟩ : BufTy).Contents (Elt F) → (⟨S65536, .i32⟩ : BufTy).Contents (Elt F)),
    binary main_arg2 main_v22 main_v23 (addi : (⟨S65536, .i32⟩ : BufTy).Contents (Elt F) → (⟨S65536, .i32⟩ : BufTy).Contents (Elt F) → (⟨S65536, .i32⟩ : BufTy).Contents (Elt F)),
    ternary main_v21 main_v23 main_arg2 main_v24 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v24 main_v25 (broadcastInDim S65536x1 ![0] bcast_S65536_S65536x1_0 : (⟨S65536, .i32⟩ : BufTy).Contents (Elt F) → (⟨S65536x1, .i32⟩ : BufTy).Contents (Elt F)),
    binary main_v19 main_v25 main_v26 ((fun x i => Host.gather gather_S8x256_S65536x1_S65536x256_1_0_n_n_0_1_1256 x i) : (⟨S8x256, .f32⟩ : BufTy).Contents (Elt F) → (⟨S65536x1, .i32⟩ : BufTy).Contents (Elt F) → (⟨S65536x256, .f32⟩ : BufTy).Contents (Elt F)),
    binary main_arg0 main_v26 main_v27 (subf : (⟨S65536x256, .f32⟩ : BufTy).Contents (Elt F) → (⟨S65536x256, .f32⟩ : BufTy).Contents (Elt F) → (⟨S65536x256, .f32⟩ : BufTy).Contents (Elt F)) ]

/-- Operations 38 to 66 (the last one writes `main_v50`). -/
abbrev s3 : List (HloOp τ sig (Elt F)) :=
  [ binary main_v27 main_v27 main_v28 (mulf : (⟨S65536x256, .f32⟩ : BufTy).Contents (Elt F) → (⟨S65536x256, .f32⟩ : BufTy).Contents (Elt F) → (⟨S65536x256, .f32⟩ : BufTy).Contents (Elt F)),
    nullary main_cst_7 (constant S_ .f32 0x00000000#32),
    unary main_cst_7 main_v29 (broadcastInDim S8x256 ![] bcast_S_S8x256 : (⟨S_, .f32⟩ : BufTy).Contents (Elt F) → (⟨S8x256, .f32⟩ : BufTy).Contents (Elt F)),
    unary main_arg2 main_v30 (broadcastInDim S65536x1 ![0] bcast_S65536_S65536x1_0 : (⟨S65536, .i32⟩ : BufTy).Contents (Elt F) → (⟨S65536x1, .i32⟩ : BufTy).Contents (Elt F)),
    ternary main_v29 main_v30 main_v28 main_v31 ((fun x i u => Host.scatterAdd scatter_S8x256_S65536x1_S65536x256_1_0_0_1 x i u) : (⟨S8x256, .f32⟩ : BufTy).Contents (Elt F) → (⟨S65536x1, .i32⟩ : BufTy).Contents (Elt F) → (⟨S65536x256, .f32⟩ : BufTy).Contents (Elt F) → (⟨S8x256, .f32⟩ : BufTy).Contents (Elt F)),
    unary main_v9 main_v32 (broadcastInDim S8x256 ![0, 1] bcast_S8x1_S8x256_0_1 : (⟨S8x1, .f32⟩ : BufTy).Contents (Elt F) → (⟨S8x256, .f32⟩ : BufTy).Contents (Elt F)),
    binary main_v31 main_v32 main_v33 (mulf : (⟨S8x256, .f32⟩ : BufTy).Contents (Elt F) → (⟨S8x256, .f32⟩ : BufTy).Contents (Elt F) → (⟨S8x256, .f32⟩ : BufTy).Contents (Elt F)),
    reshape main_v33 main_v34 rfl shapeCasts_S8x256_S8x32x8,
    nullary main_cst_8 (constant S_ .f32 0x00000000#32),
    binary main_v34 main_cst_8 main_v35 ((fun x v => Host.reduceAdd x v reducesTo_S8x32x8_S8x32_d2 h_S_) : (⟨S8x32x8, .f32⟩ : BufTy).Contents (Elt F) → (⟨S_, .f32⟩ : BufTy).Contents (Elt F) → (⟨S8x32, .f32⟩ : BufTy).Contents (Elt F)),
    unary main_v35 main_v36 (broadcastInDim S8x32x1 ![0, 1] bcast_S8x32_S8x32x1_0_1 : (⟨S8x32, .f32⟩ : BufTy).Contents (Elt F) → (⟨S8x32x1, .f32⟩ : BufTy).Contents (Elt F)),
    unary main_v36 main_v37 (broadcastInDim S8x32x8 ![0, 1, 2] bcast_S8x32x1_S8x32x8_0_1_2 : (⟨S8x32x1, .f32⟩ : BufTy).Contents (Elt F) → (⟨S8x32x8, .f32⟩ : BufTy).Contents (Elt F)),
    reshape main_v37 main_v38 rfl shapeCasts_S8x32x8_S8x256,
    nullary main_cst_9 (constant S_ .f32 0x3727C5AC#32),
    unary main_cst_9 main_v39 (broadcastInDim S8x256 ![] bcast_S_S8x256 : (⟨S_, .f32⟩ : BufTy).Contents (Elt F) → (⟨S8x256, .f32⟩ : BufTy).Contents (Elt F)),
    binary main_v38 main_v39 main_v40 (addf : (⟨S8x256, .f32⟩ : BufTy).Contents (Elt F) → (⟨S8x256, .f32⟩ : BufTy).Contents (Elt F) → (⟨S8x256, .f32⟩ : BufTy).Contents (Elt F)),
    unary main_v40 main_v41 (Host.sqrt : (⟨S8x256, .f32⟩ : BufTy).Contents (Elt F) → (⟨S8x256, .f32⟩ : BufTy).Contents (Elt F)),
    nullary main_cst_10 (constant S_ .f32 0x3F800000#32),
    unary main_cst_10 main_v42 (broadcastInDim S8x256 ![] bcast_S_S8x256 : (⟨S_, .f32⟩ : BufTy).Contents (Elt F) → (⟨S8x256, .f32⟩ : BufTy).Contents (Elt F)),
    binary main_v42 main_v41 main_v43 (Host.divf : (⟨S8x256, .f32⟩ : BufTy).Contents (Elt F) → (⟨S8x256, .f32⟩ : BufTy).Contents (Elt F) → (⟨S8x256, .f32⟩ : BufTy).Contents (Elt F)),
    nullary main_c_11 (constantI S_ 32 0#32),
    unary main_c_11 main_v44 (broadcastInDim S65536 ![] bcast_S_S65536 : (⟨S_, .i32⟩ : BufTy).Contents (Elt F) → (⟨S65536, .i32⟩ : BufTy).Contents (Elt F)),
    binary main_arg2 main_v44 main_v45 (cmpi .slt : (⟨S65536, .i32⟩ : BufTy).Contents (Elt F) → (⟨S65536, .i32⟩ : BufTy).Contents (Elt F) → (⟨S65536, .i1⟩ : BufTy).Contents (Elt F)),
    nullary main_c_12 (constantI S_ 32 8#32),
    unary main_c_12 main_v46 (broadcastInDim S65536 ![] bcast_S_S65536 : (⟨S_, .i32⟩ : BufTy).Contents (Elt F) → (⟨S65536, .i32⟩ : BufTy).Contents (Elt F)),
    binary main_arg2 main_v46 main_v47 (addi : (⟨S65536, .i32⟩ : BufTy).Contents (Elt F) → (⟨S65536, .i32⟩ : BufTy).Contents (Elt F) → (⟨S65536, .i32⟩ : BufTy).Contents (Elt F)),
    ternary main_v45 main_v47 main_arg2 main_v48 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v48 main_v49 (broadcastInDim S65536x1 ![0] bcast_S65536_S65536x1_0 : (⟨S65536, .i32⟩ : BufTy).Contents (Elt F) → (⟨S65536x1, .i32⟩ : BufTy).Contents (Elt F)),
    binary main_v43 main_v49 main_v50 ((fun x i => Host.gather gather_S8x256_S65536x1_S65536x256_1_0_n_n_0_1_1256 x i) : (⟨S8x256, .f32⟩ : BufTy).Contents (Elt F) → (⟨S65536x1, .i32⟩ : BufTy).Contents (Elt F) → (⟨S65536x256, .f32⟩ : BufTy).Contents (Elt F)) ]

/-- Operations 67 to 71 (the last one writes `main_v55`). -/
abbrev s4 : List (HloOp τ sig (Elt F)) :=
  [ binary main_v27 main_v50 main_v51 (mulf : (⟨S65536x256, .f32⟩ : BufTy).Contents (Elt F) → (⟨S65536x256, .f32⟩ : BufTy).Contents (Elt F) → (⟨S65536x256, .f32⟩ : BufTy).Contents (Elt F)),
    unary main_arg6 main_v52 (broadcastInDim S65536x256 ![0, 1] bcast_S1x256_S65536x256_0_1 : (⟨S1x256, .f32⟩ : BufTy).Contents (Elt F) → (⟨S65536x256, .f32⟩ : BufTy).Contents (Elt F)),
    binary main_v51 main_v52 main_v53 (mulf : (⟨S65536x256, .f32⟩ : BufTy).Contents (Elt F) → (⟨S65536x256, .f32⟩ : BufTy).Contents (Elt F) → (⟨S65536x256, .f32⟩ : BufTy).Contents (Elt F)),
    unary main_arg7 main_v54 (broadcastInDim S65536x256 ![0, 1] bcast_S1x256_S65536x256_0_1 : (⟨S1x256, .f32⟩ : BufTy).Contents (Elt F) → (⟨S65536x256, .f32⟩ : BufTy).Contents (Elt F)),
    binary main_v53 main_v54 main_v55 (addf : (⟨S65536x256, .f32⟩ : BufTy).Contents (Elt F) → (⟨S65536x256, .f32⟩ : BufTy).Contents (Elt F) → (⟨S65536x256, .f32⟩ : BufTy).Contents (Elt F)) ]

/-- Operations 72 to 80 (the last one writes `main_v56`). -/
abbrev s5 : List (HloOp τ sig (Elt F)) :=
  [ TRef.unary (TRef.of (T := ⟨S65536x256, .f32⟩) main_v55) (TRef.of (T := ⟨S65536x256, .f32⟩) main_call0_v0) Host.negf,
    TRef.unary (TRef.of (T := ⟨S65536x256, .f32⟩) main_call0_v0) (TRef.of (T := ⟨S65536x256, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S65536x256, .f32⟩) main_call0_v2) (broadcastInDim S65536x256 ![] bcast_S_S65536x256),
    TRef.binary (TRef.of (T := ⟨S65536x256, .f32⟩) main_call0_v2) (TRef.of (T := ⟨S65536x256, .f32⟩) main_call0_v1) (TRef.of (T := ⟨S65536x256, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S65536x256, .f32⟩) main_call0_v4) (broadcastInDim S65536x256 ![] bcast_S_S65536x256),
    TRef.binary (TRef.of (T := ⟨S65536x256, .f32⟩) main_call0_v4) (TRef.of (T := ⟨S65536x256, .f32⟩) main_call0_v3) (TRef.of (T := ⟨S65536x256, .f32⟩) main_call0_v5) Host.divf,
    TRef.binary (TRef.of (T := ⟨S65536x256, .f32⟩) main_v55) (TRef.of (T := ⟨S65536x256, .f32⟩) main_call0_v5) (TRef.of (T := ⟨S65536x256, .f32⟩) main_v56) mulf ]

/-- Operations 81 to 86 (the last one writes `main_v57`). -/
abbrev s6 : List (HloOp τ sig (Elt F)) :=
  [ TRef.unary (TRef.of (T := ⟨S65536, .i32⟩) main_arg5) (TRef.of (T := ⟨S65536x1, .i32⟩) main_call1_v0) (broadcastInDim S65536x1 ![0] bcast_S65536_S65536x1_0),
    TRef.nullary (TRef.of (T := ⟨S1x7, .i32⟩) main_call1_v1) (iotaInDim S1x7 32 1),
    TRef.unary (TRef.of (T := ⟨S65536x1, .i32⟩) main_call1_v0) (TRef.of (T := ⟨S65536x7, .i32⟩) main_call1_v2) (broadcastInDim S65536x7 ![0, 1] bcast_S65536x1_S65536x7_0_1),
    TRef.unary (TRef.of (T := ⟨S1x7, .i32⟩) main_call1_v1) (TRef.of (T := ⟨S65536x7, .i32⟩) main_call1_v3) (broadcastInDim S65536x7 ![0, 1] bcast_S1x7_S65536x7_0_1),
    TRef.binary (TRef.of (T := ⟨S65536x7, .i32⟩) main_call1_v2) (TRef.of (T := ⟨S65536x7, .i32⟩) main_call1_v3) (TRef.of (T := ⟨S65536x7, .i1⟩) main_call1_v4) (cmpi .eq),
    TRef.unary (TRef.of (T := ⟨S65536x7, .i1⟩) main_call1_v4) (TRef.of (T := ⟨S65536x7, .f32⟩) main_v57) (uitofp .f32) ]

/-- Operations 87 to 109 (the last one writes `main_v76`). -/
abbrev s7 : List (HloOp τ sig (Elt F)) :=
  [ binary main_v56 main_v57 main_v58 ((fun a b => concatenate S65536x263 1 [⟨S65536x256, a⟩, ⟨S65536x7, b⟩] concatenates_S65536x256_S65536x7_S65536x263_d1) : (⟨S65536x256, .f32⟩ : BufTy).Contents (Elt F) → (⟨S65536x7, .f32⟩ : BufTy).Contents (Elt F) → (⟨S65536x263, .f32⟩ : BufTy).Contents (Elt F)),
    unary main_arg3 main_v59 ((extractStridedSlice S1x458752 ![0, 0] · slices_S2x458752_S1x458752_0_0) : (⟨S2x458752, .i32⟩ : BufTy).Contents (Elt F) → (⟨S1x458752, .i32⟩ : BufTy).Contents (Elt F)),
    reshape main_v59 main_v60 rfl shapeCasts_S1x458752_S458752,
    unary main_arg3 main_v61 ((extractStridedSlice S1x458752 ![1, 0] · slices_S2x458752_S1x458752_1_0) : (⟨S2x458752, .i32⟩ : BufTy).Contents (Elt F) → (⟨S1x458752, .i32⟩ : BufTy).Contents (Elt F)),
    reshape main_v61 main_v62 rfl shapeCasts_S1x458752_S458752,
    nullary main_c_13 (constantI S_ 32 7#32),
    unary main_c_13 main_v63 (broadcastInDim S458752 ![] bcast_S_S458752 : (⟨S_, .i32⟩ : BufTy).Contents (Elt F) → (⟨S458752, .i32⟩ : BufTy).Contents (Elt F)),
    binary main_v60 main_v63 main_v64 (muli : (⟨S458752, .i32⟩ : BufTy).Contents (Elt F) → (⟨S458752, .i32⟩ : BufTy).Contents (Elt F) → (⟨S458752, .i32⟩ : BufTy).Contents (Elt F)),
    binary main_v64 main_arg4 main_v65 (addi : (⟨S458752, .i32⟩ : BufTy).Contents (Elt F) → (⟨S458752, .i32⟩ : BufTy).Contents (Elt F) → (⟨S458752, .i32⟩ : BufTy).Contents (Elt F)),
    nullary main_c_14 (constantI S_ 32 0#32),
    unary main_c_14 main_v66 (broadcastInDim S458752 ![] bcast_S_S458752 : (⟨S_, .i32⟩ : BufTy).Contents (Elt F) → (⟨S458752, .i32⟩ : BufTy).Contents (Elt F)),
    binary main_v62 main_v66 main_v67 (cmpi .slt : (⟨S458752, .i32⟩ : BufTy).Contents (Elt F) → (⟨S458752, .i32⟩ : BufTy).Contents (Elt F) → (⟨S458752, .i1⟩ : BufTy).Contents (Elt F)),
    nullary main_c_15 (constantI S_ 32 65536#32),
    unary main_c_15 main_v68 (broadcastInDim S458752 ![] bcast_S_S458752 : (⟨S_, .i32⟩ : BufTy).Contents (Elt F) → (⟨S458752, .i32⟩ : BufTy).Contents (Elt F)),
    binary main_v62 main_v68 main_v69 (addi : (⟨S458752, .i32⟩ : BufTy).Contents (Elt F) → (⟨S458752, .i32⟩ : BufTy).Contents (Elt F) → (⟨S458752, .i32⟩ : BufTy).Contents (Elt F)),
    ternary main_v67 main_v69 main_v62 main_v70 (select : (⟨S458752, .i1⟩ : BufTy).Contents (Elt F) → (⟨S458752, .i32⟩ : BufTy).Contents (Elt F) → (⟨S458752, .i32⟩ : BufTy).Contents (Elt F) → (⟨S458752, .i32⟩ : BufTy).Contents (Elt F)),
    unary main_v70 main_v71 (broadcastInDim S458752x1 ![0] bcast_S458752_S458752x1_0 : (⟨S458752, .i32⟩ : BufTy).Contents (Elt F) → (⟨S458752x1, .i32⟩ : BufTy).Contents (Elt F)),
    binary main_v58 main_v71 main_v72 ((fun x i => Host.gather gather_S65536x263_S458752x1_S458752x263_1_0_n_n_0_1_1263 x i) : (⟨S65536x263, .f32⟩ : BufTy).Contents (Elt F) → (⟨S458752x1, .i32⟩ : BufTy).Contents (Elt F) → (⟨S458752x263, .f32⟩ : BufTy).Contents (Elt F)),
    nullary main_cst_16 (constant S_ .f32 0x00000000#32),
    unary main_cst_16 main_v73 (broadcastInDim S458752x263 ![] bcast_S_S458752x263 : (⟨S_, .f32⟩ : BufTy).Contents (Elt F) → (⟨S458752x263, .f32⟩ : BufTy).Contents (Elt F)),
    unary main_v65 main_v74 (broadcastInDim S458752x1 ![0] bcast_S458752_S458752x1_0 : (⟨S458752, .i32⟩ : BufTy).Contents (Elt F) → (⟨S458752x1, .i32⟩ : BufTy).Contents (Elt F)),
    ternary main_v73 main_v74 main_v72 main_v75 ((fun x i u => Host.scatterAdd scatter_S458752x263_S458752x1_S458752x263_1_0_0_1 x i u) : (⟨S458752x263, .f32⟩ : BufTy).Contents (Elt F) → (⟨S458752x1, .i32⟩ : BufTy).Contents (Elt F) → (⟨S458752x263, .f32⟩ : BufTy).Contents (Elt F) → (⟨S458752x263, .f32⟩ : BufTy).Contents (Elt F)),
    reshape main_v75 main_v76 rfl shapeCasts_S458752x263_S65536x1841 ]

/-- Operations 110 to 133 (the last one writes `main_v90`). -/
abbrev s8 : List (HloOp τ sig (Elt F)) :=
  [ binary main_v76 main_arg8 main_v77 ((fun l r => Host.dotGeneral dot_S65536x1841_S1841x256_S65536x256_1_0_0_1_n_n none l r) : (⟨S65536x1841, .f32⟩ : BufTy).Contents (Elt F) → (⟨S1841x256, .f32⟩ : BufTy).Contents (Elt F) → (⟨S65536x256, .f32⟩ : BufTy).Contents (Elt F)),
    TRef.unary (TRef.of (T := ⟨S8x512, .f32⟩) main_arg1) (TRef.of (T := ⟨S8x512, .f32⟩) main_call2_v0) Host.negf,
    TRef.unary (TRef.of (T := ⟨S8x512, .f32⟩) main_call2_v0) (TRef.of (T := ⟨S8x512, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S8x512, .f32⟩) main_call2_v2) (broadcastInDim S8x512 ![] bcast_S_S8x512),
    TRef.binary (TRef.of (T := ⟨S8x512, .f32⟩) main_call2_v2) (TRef.of (T := ⟨S8x512, .f32⟩) main_call2_v1) (TRef.of (T := ⟨S8x512, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S8x512, .f32⟩) main_call2_v4) (broadcastInDim S8x512 ![] bcast_S_S8x512),
    TRef.binary (TRef.of (T := ⟨S8x512, .f32⟩) main_call2_v4) (TRef.of (T := ⟨S8x512, .f32⟩) main_call2_v3) (TRef.of (T := ⟨S8x512, .f32⟩) main_call2_v5) Host.divf,
    TRef.binary (TRef.of (T := ⟨S8x512, .f32⟩) main_arg1) (TRef.of (T := ⟨S8x512, .f32⟩) main_call2_v5) (TRef.of (T := ⟨S8x512, .f32⟩) main_v78) mulf,
    binary main_v78 main_arg9 main_v79 ((fun l r => Host.dotGeneral dot_S8x512_S512x256_S8x256_1_0_0_1_n_n none l r) : (⟨S8x512, .f32⟩ : BufTy).Contents (Elt F) → (⟨S512x256, .f32⟩ : BufTy).Contents (Elt F) → (⟨S8x256, .f32⟩ : BufTy).Contents (Elt F)),
    unary main_arg10 main_v80 (broadcastInDim S1x256 ![1] bcast_S256_S1x256_1 : (⟨S256, .f32⟩ : BufTy).Contents (Elt F) → (⟨S1x256, .f32⟩ : BufTy).Contents (Elt F)),
    unary main_v80 main_v81 (broadcastInDim S8x256 ![0, 1] bcast_S1x256_S8x256_0_1 : (⟨S1x256, .f32⟩ : BufTy).Contents (Elt F) → (⟨S8x256, .f32⟩ : BufTy).Contents (Elt F)),
    binary main_v79 main_v81 main_v82 (addf : (⟨S8x256, .f32⟩ : BufTy).Contents (Elt F) → (⟨S8x256, .f32⟩ : BufTy).Contents (Elt F) → (⟨S8x256, .f32⟩ : BufTy).Contents (Elt F)),
    nullary main_c_17 (constantI S_ 32 0#32),
    unary main_c_17 main_v83 (broadcastInDim S65536 ![] bcast_S_S65536 : (⟨S_, .i32⟩ : BufTy).Contents (Elt F) → (⟨S65536, .i32⟩ : BufTy).Contents (Elt F)),
    binary main_arg2 main_v83 main_v84 (cmpi .slt : (⟨S65536, .i32⟩ : BufTy).Contents (Elt F) → (⟨S65536, .i32⟩ : BufTy).Contents (Elt F) → (⟨S65536, .i1⟩ : BufTy).Contents (Elt F)),
    nullary main_c_18 (constantI S_ 32 8#32),
    unary main_c_18 main_v85 (broadcastInDim S65536 ![] bcast_S_S65536 : (⟨S_, .i32⟩ : BufTy).Contents (Elt F) → (⟨S65536, .i32⟩ : BufTy).Contents (Elt F)),
    binary main_arg2 main_v85 main_v86 (addi : (⟨S65536, .i32⟩ : BufTy).Contents (Elt F) → (⟨S65536, .i32⟩ : BufTy).Contents (Elt F) → (⟨S65536, .i32⟩ : BufTy).Contents (Elt F)),
    ternary main_v84 main_v86 main_arg2 main_v87 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v87 main_v88 (broadcastInDim S65536x1 ![0] bcast_S65536_S65536x1_0 : (⟨S65536, .i32⟩ : BufTy).Contents (Elt F) → (⟨S65536x1, .i32⟩ : BufTy).Contents (Elt F)),
    binary main_v82 main_v88 main_v89 ((fun x i => Host.gather gather_S8x256_S65536x1_S65536x256_1_0_n_n_0_1_1256 x i) : (⟨S8x256, .f32⟩ : BufTy).Contents (Elt F) → (⟨S65536x1, .i32⟩ : BufTy).Contents (Elt F) → (⟨S65536x256, .f32⟩ : BufTy).Contents (Elt F)),
    binary main_v77 main_v89 main_v90 (addf : (⟨S65536x256, .f32⟩ : BufTy).Contents (Elt F) → (⟨S65536x256, .f32⟩ : BufTy).Contents (Elt F) → (⟨S65536x256, .f32⟩ : BufTy).Contents (Elt F)) ]

/-- Operations 134 to 148 (the last one writes `main_v100`). -/
abbrev s9 : List (HloOp τ sig (Elt F)) :=
  [ nullary main_cst_19 (constant S_ .f32 0x3F800000#32),
    unary main_cst_19 main_v91 (broadcastInDim S65536x1 ![] bcast_S_S65536x1 : (⟨S_, .f32⟩ : BufTy).Contents (Elt F) → (⟨S65536x1, .f32⟩ : BufTy).Contents (Elt F)),
    nullary main_cst_20 (constant S_ .f32 0x00000000#32),
    unary main_cst_20 main_v92 (broadcastInDim S8x1 ![] bcast_S_S8x1 : (⟨S_, .f32⟩ : BufTy).Contents (Elt F) → (⟨S8x1, .f32⟩ : BufTy).Contents (Elt F)),
    unary main_arg2 main_v93 (broadcastInDim S65536x1 ![0] bcast_S65536_S65536x1_0 : (⟨S65536, .i32⟩ : BufTy).Contents (Elt F) → (⟨S65536x1, .i32⟩ : BufTy).Contents (Elt F)),
    ternary main_v92 main_v93 main_v91 main_v94 ((fun x i u => Host.scatterAdd scatter_S8x1_S65536x1_S65536x1_1_0_0_1 x i u) : (⟨S8x1, .f32⟩ : BufTy).Contents (Elt F) → (⟨S65536x1, .i32⟩ : BufTy).Contents (Elt F) → (⟨S65536x1, .f32⟩ : BufTy).Contents (Elt F) → (⟨S8x1, .f32⟩ : BufTy).Contents (Elt F)),
    nullary main_cst_21 (constant S_ .f32 0x41000000#32),
    unary main_cst_21 main_v95 (broadcastInDim S8x1 ![] bcast_S_S8x1 : (⟨S_, .f32⟩ : BufTy).Contents (Elt F) → (⟨S8x1, .f32⟩ : BufTy).Contents (Elt F)),
    binary main_v94 main_v95 main_v96 (mulf : (⟨S8x1, .f32⟩ : BufTy).Contents (Elt F) → (⟨S8x1, .f32⟩ : BufTy).Contents (Elt F) → (⟨S8x1, .f32⟩ : BufTy).Contents (Elt F)),
    nullary main_cst_22 (constant S_ .f32 0x3727C5AC#32),
    unary main_cst_22 main_v97 (broadcastInDim S8x1 ![] bcast_S_S8x1 : (⟨S_, .f32⟩ : BufTy).Contents (Elt F) → (⟨S8x1, .f32⟩ : BufTy).Contents (Elt F)),
    binary main_v96 main_v97 main_v98 (addf : (⟨S8x1, .f32⟩ : BufTy).Contents (Elt F) → (⟨S8x1, .f32⟩ : BufTy).Contents (Elt F) → (⟨S8x1, .f32⟩ : BufTy).Contents (Elt F)),
    nullary main_cst_23 (constant S_ .f32 0x3F800000#32),
    unary main_cst_23 main_v99 (broadcastInDim S8x1 ![] bcast_S_S8x1 : (⟨S_, .f32⟩ : BufTy).Contents (Elt F) → (⟨S8x1, .f32⟩ : BufTy).Contents (Elt F)),
    binary main_v99 main_v98 main_v100 (Host.divf : (⟨S8x1, .f32⟩ : BufTy).Contents (Elt F) → (⟨S8x1, .f32⟩ : BufTy).Contents (Elt F) → (⟨S8x1, .f32⟩ : BufTy).Contents (Elt F)) ]

/-- Operations 149 to 170 (the last one writes `main_v118`). -/
abbrev s10 : List (HloOp τ sig (Elt F)) :=
  [ nullary main_cst_24 (constant S_ .f32 0x00000000#32),
    unary main_cst_24 main_v101 (broadcastInDim S8x256 ![] bcast_S_S8x256 : (⟨S_, .f32⟩ : BufTy).Contents (Elt F) → (⟨S8x256, .f32⟩ : BufTy).Contents (Elt F)),
    unary main_arg2 main_v102 (broadcastInDim S65536x1 ![0] bcast_S65536_S65536x1_0 : (⟨S65536, .i32⟩ : BufTy).Contents (Elt F) → (⟨S65536x1, .i32⟩ : BufTy).Contents (Elt F)),
    ternary main_v101 main_v102 main_v90 main_v103 ((fun x i u => Host.scatterAdd scatter_S8x256_S65536x1_S65536x256_1_0_0_1 x i u) : (⟨S8x256, .f32⟩ : BufTy).Contents (Elt F) → (⟨S65536x1, .i32⟩ : BufTy).Contents (Elt F) → (⟨S65536x256, .f32⟩ : BufTy).Contents (Elt F) → (⟨S8x256, .f32⟩ : BufTy).Contents (Elt F)),
    unary main_v100 main_v104 (broadcastInDim S8x256 ![0, 1] bcast_S8x1_S8x256_0_1 : (⟨S8x1, .f32⟩ : BufTy).Contents (Elt F) → (⟨S8x256, .f32⟩ : BufTy).Contents (Elt F)),
    binary main_v103 main_v104 main_v105 (mulf : (⟨S8x256, .f32⟩ : BufTy).Contents (Elt F) → (⟨S8x256, .f32⟩ : BufTy).Contents (Elt F) → (⟨S8x256, .f32⟩ : BufTy).Contents (Elt F)),
    reshape main_v105 main_v106 rfl shapeCasts_S8x256_S8x32x8,
    nullary main_cst_25 (constant S_ .f32 0x00000000#32),
    binary main_v106 main_cst_25 main_v107 ((fun x v => Host.reduceAdd x v reducesTo_S8x32x8_S8x32_d2 h_S_) : (⟨S8x32x8, .f32⟩ : BufTy).Contents (Elt F) → (⟨S_, .f32⟩ : BufTy).Contents (Elt F) → (⟨S8x32, .f32⟩ : BufTy).Contents (Elt F)),
    unary main_v107 main_v108 (broadcastInDim S8x32x1 ![0, 1] bcast_S8x32_S8x32x1_0_1 : (⟨S8x32, .f32⟩ : BufTy).Contents (Elt F) → (⟨S8x32x1, .f32⟩ : BufTy).Contents (Elt F)),
    unary main_v108 main_v109 (broadcastInDim S8x32x8 ![0, 1, 2] bcast_S8x32x1_S8x32x8_0_1_2 : (⟨S8x32x1, .f32⟩ : BufTy).Contents (Elt F) → (⟨S8x32x8, .f32⟩ : BufTy).Contents (Elt F)),
    reshape main_v109 main_v110 rfl shapeCasts_S8x32x8_S8x256,
    nullary main_c_26 (constantI S_ 32 0#32),
    unary main_c_26 main_v111 (broadcastInDim S65536 ![] bcast_S_S65536 : (⟨S_, .i32⟩ : BufTy).Contents (Elt F) → (⟨S65536, .i32⟩ : BufTy).Contents (Elt F)),
    binary main_arg2 main_v111 main_v112 (cmpi .slt : (⟨S65536, .i32⟩ : BufTy).Contents (Elt F) → (⟨S65536, .i32⟩ : BufTy).Contents (Elt F) → (⟨S65536, .i1⟩ : BufTy).Contents (Elt F)),
    nullary main_c_27 (constantI S_ 32 8#32),
    unary main_c_27 main_v113 (broadcastInDim S65536 ![] bcast_S_S65536 : (⟨S_, .i32⟩ : BufTy).Contents (Elt F) → (⟨S65536, .i32⟩ : BufTy).Contents (Elt F)),
    binary main_arg2 main_v113 main_v114 (addi : (⟨S65536, .i32⟩ : BufTy).Contents (Elt F) → (⟨S65536, .i32⟩ : BufTy).Contents (Elt F) → (⟨S65536, .i32⟩ : BufTy).Contents (Elt F)),
    ternary main_v112 main_v114 main_arg2 main_v115 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v115 main_v116 (broadcastInDim S65536x1 ![0] bcast_S65536_S65536x1_0 : (⟨S65536, .i32⟩ : BufTy).Contents (Elt F) → (⟨S65536x1, .i32⟩ : BufTy).Contents (Elt F)),
    binary main_v110 main_v116 main_v117 ((fun x i => Host.gather gather_S8x256_S65536x1_S65536x256_1_0_n_n_0_1_1256 x i) : (⟨S8x256, .f32⟩ : BufTy).Contents (Elt F) → (⟨S65536x1, .i32⟩ : BufTy).Contents (Elt F) → (⟨S65536x256, .f32⟩ : BufTy).Contents (Elt F)),
    binary main_v90 main_v117 main_v118 (subf : (⟨S65536x256, .f32⟩ : BufTy).Contents (Elt F) → (⟨S65536x256, .f32⟩ : BufTy).Contents (Elt F) → (⟨S65536x256, .f32⟩ : BufTy).Contents (Elt F)) ]

/-- Operations 171 to 199 (the last one writes `main_v141`). -/
abbrev s11 : List (HloOp τ sig (Elt F)) :=
  [ binary main_v118 main_v118 main_v119 (mulf : (⟨S65536x256, .f32⟩ : BufTy).Contents (Elt F) → (⟨S65536x256, .f32⟩ : BufTy).Contents (Elt F) → (⟨S65536x256, .f32⟩ : BufTy).Contents (Elt F)),
    nullary main_cst_28 (constant S_ .f32 0x00000000#32),
    unary main_cst_28 main_v120 (broadcastInDim S8x256 ![] bcast_S_S8x256 : (⟨S_, .f32⟩ : BufTy).Contents (Elt F) → (⟨S8x256, .f32⟩ : BufTy).Contents (Elt F)),
    unary main_arg2 main_v121 (broadcastInDim S65536x1 ![0] bcast_S65536_S65536x1_0 : (⟨S65536, .i32⟩ : BufTy).Contents (Elt F) → (⟨S65536x1, .i32⟩ : BufTy).Contents (Elt F)),
    ternary main_v120 main_v121 main_v119 main_v122 ((fun x i u => Host.scatterAdd scatter_S8x256_S65536x1_S65536x256_1_0_0_1 x i u) : (⟨S8x256, .f32⟩ : BufTy).Contents (Elt F) → (⟨S65536x1, .i32⟩ : BufTy).Contents (Elt F) → (⟨S65536x256, .f32⟩ : BufTy).Contents (Elt F) → (⟨S8x256, .f32⟩ : BufTy).Contents (Elt F)),
    unary main_v100 main_v123 (broadcastInDim S8x256 ![0, 1] bcast_S8x1_S8x256_0_1 : (⟨S8x1, .f32⟩ : BufTy).Contents (Elt F) → (⟨S8x256, .f32⟩ : BufTy).Contents (Elt F)),
    binary main_v122 main_v123 main_v124 (mulf : (⟨S8x256, .f32⟩ : BufTy).Contents (Elt F) → (⟨S8x256, .f32⟩ : BufTy).Contents (Elt F) → (⟨S8x256, .f32⟩ : BufTy).Contents (Elt F)),
    reshape main_v124 main_v125 rfl shapeCasts_S8x256_S8x32x8,
    nullary main_cst_29 (constant S_ .f32 0x00000000#32),
    binary main_v125 main_cst_29 main_v126 ((fun x v => Host.reduceAdd x v reducesTo_S8x32x8_S8x32_d2 h_S_) : (⟨S8x32x8, .f32⟩ : BufTy).Contents (Elt F) → (⟨S_, .f32⟩ : BufTy).Contents (Elt F) → (⟨S8x32, .f32⟩ : BufTy).Contents (Elt F)),
    unary main_v126 main_v127 (broadcastInDim S8x32x1 ![0, 1] bcast_S8x32_S8x32x1_0_1 : (⟨S8x32, .f32⟩ : BufTy).Contents (Elt F) → (⟨S8x32x1, .f32⟩ : BufTy).Contents (Elt F)),
    unary main_v127 main_v128 (broadcastInDim S8x32x8 ![0, 1, 2] bcast_S8x32x1_S8x32x8_0_1_2 : (⟨S8x32x1, .f32⟩ : BufTy).Contents (Elt F) → (⟨S8x32x8, .f32⟩ : BufTy).Contents (Elt F)),
    reshape main_v128 main_v129 rfl shapeCasts_S8x32x8_S8x256,
    nullary main_cst_30 (constant S_ .f32 0x3727C5AC#32),
    unary main_cst_30 main_v130 (broadcastInDim S8x256 ![] bcast_S_S8x256 : (⟨S_, .f32⟩ : BufTy).Contents (Elt F) → (⟨S8x256, .f32⟩ : BufTy).Contents (Elt F)),
    binary main_v129 main_v130 main_v131 (addf : (⟨S8x256, .f32⟩ : BufTy).Contents (Elt F) → (⟨S8x256, .f32⟩ : BufTy).Contents (Elt F) → (⟨S8x256, .f32⟩ : BufTy).Contents (Elt F)),
    unary main_v131 main_v132 (Host.sqrt : (⟨S8x256, .f32⟩ : BufTy).Contents (Elt F) → (⟨S8x256, .f32⟩ : BufTy).Contents (Elt F)),
    nullary main_cst_31 (constant S_ .f32 0x3F800000#32),
    unary main_cst_31 main_v133 (broadcastInDim S8x256 ![] bcast_S_S8x256 : (⟨S_, .f32⟩ : BufTy).Contents (Elt F) → (⟨S8x256, .f32⟩ : BufTy).Contents (Elt F)),
    binary main_v133 main_v132 main_v134 (Host.divf : (⟨S8x256, .f32⟩ : BufTy).Contents (Elt F) → (⟨S8x256, .f32⟩ : BufTy).Contents (Elt F) → (⟨S8x256, .f32⟩ : BufTy).Contents (Elt F)),
    nullary main_c_32 (constantI S_ 32 0#32),
    unary main_c_32 main_v135 (broadcastInDim S65536 ![] bcast_S_S65536 : (⟨S_, .i32⟩ : BufTy).Contents (Elt F) → (⟨S65536, .i32⟩ : BufTy).Contents (Elt F)),
    binary main_arg2 main_v135 main_v136 (cmpi .slt : (⟨S65536, .i32⟩ : BufTy).Contents (Elt F) → (⟨S65536, .i32⟩ : BufTy).Contents (Elt F) → (⟨S65536, .i1⟩ : BufTy).Contents (Elt F)),
    nullary main_c_33 (constantI S_ 32 8#32),
    unary main_c_33 main_v137 (broadcastInDim S65536 ![] bcast_S_S65536 : (⟨S_, .i32⟩ : BufTy).Contents (Elt F) → (⟨S65536, .i32⟩ : BufTy).Contents (Elt F)),
    binary main_arg2 main_v137 main_v138 (addi : (⟨S65536, .i32⟩ : BufTy).Contents (Elt F) → (⟨S65536, .i32⟩ : BufTy).Contents (Elt F) → (⟨S65536, .i32⟩ : BufTy).Contents (Elt F)),
    ternary main_v136 main_v138 main_arg2 main_v139 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v139 main_v140 (broadcastInDim S65536x1 ![0] bcast_S65536_S65536x1_0 : (⟨S65536, .i32⟩ : BufTy).Contents (Elt F) → (⟨S65536x1, .i32⟩ : BufTy).Contents (Elt F)),
    binary main_v134 main_v140 main_v141 ((fun x i => Host.gather gather_S8x256_S65536x1_S65536x256_1_0_n_n_0_1_1256 x i) : (⟨S8x256, .f32⟩ : BufTy).Contents (Elt F) → (⟨S65536x1, .i32⟩ : BufTy).Contents (Elt F) → (⟨S65536x256, .f32⟩ : BufTy).Contents (Elt F)) ]

/-- Operations 200 to 204 (the last one writes `main_v146`). -/
abbrev s12 : List (HloOp τ sig (Elt F)) :=
  [ binary main_v118 main_v141 main_v142 (mulf : (⟨S65536x256, .f32⟩ : BufTy).Contents (Elt F) → (⟨S65536x256, .f32⟩ : BufTy).Contents (Elt F) → (⟨S65536x256, .f32⟩ : BufTy).Contents (Elt F)),
    unary main_arg11 main_v143 (broadcastInDim S65536x256 ![0, 1] bcast_S1x256_S65536x256_0_1 : (⟨S1x256, .f32⟩ : BufTy).Contents (Elt F) → (⟨S65536x256, .f32⟩ : BufTy).Contents (Elt F)),
    binary main_v142 main_v143 main_v144 (mulf : (⟨S65536x256, .f32⟩ : BufTy).Contents (Elt F) → (⟨S65536x256, .f32⟩ : BufTy).Contents (Elt F) → (⟨S65536x256, .f32⟩ : BufTy).Contents (Elt F)),
    unary main_arg12 main_v145 (broadcastInDim S65536x256 ![0, 1] bcast_S1x256_S65536x256_0_1 : (⟨S1x256, .f32⟩ : BufTy).Contents (Elt F) → (⟨S65536x256, .f32⟩ : BufTy).Contents (Elt F)),
    binary main_v144 main_v145 main_v146 (addf : (⟨S65536x256, .f32⟩ : BufTy).Contents (Elt F) → (⟨S65536x256, .f32⟩ : BufTy).Contents (Elt F) → (⟨S65536x256, .f32⟩ : BufTy).Contents (Elt F)) ]

/-- Operations 205 to 213 (the last one writes `main_v147`). -/
abbrev s13 : List (HloOp τ sig (Elt F)) :=
  [ TRef.unary (TRef.of (T := ⟨S65536x256, .f32⟩) main_v146) (TRef.of (T := ⟨S65536x256, .f32⟩) main_call3_v0) Host.negf,
    TRef.unary (TRef.of (T := ⟨S65536x256, .f32⟩) main_call3_v0) (TRef.of (T := ⟨S65536x256, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S65536x256, .f32⟩) main_call3_v2) (broadcastInDim S65536x256 ![] bcast_S_S65536x256),
    TRef.binary (TRef.of (T := ⟨S65536x256, .f32⟩) main_call3_v2) (TRef.of (T := ⟨S65536x256, .f32⟩) main_call3_v1) (TRef.of (T := ⟨S65536x256, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S65536x256, .f32⟩) main_call3_v4) (broadcastInDim S65536x256 ![] bcast_S_S65536x256),
    TRef.binary (TRef.of (T := ⟨S65536x256, .f32⟩) main_call3_v4) (TRef.of (T := ⟨S65536x256, .f32⟩) main_call3_v3) (TRef.of (T := ⟨S65536x256, .f32⟩) main_call3_v5) Host.divf,
    TRef.binary (TRef.of (T := ⟨S65536x256, .f32⟩) main_v146) (TRef.of (T := ⟨S65536x256, .f32⟩) main_call3_v5) (TRef.of (T := ⟨S65536x256, .f32⟩) main_v147) mulf ]

/-- Operations 214 to 219 (the last one writes `main_v148`). -/
abbrev s14 : List (HloOp τ sig (Elt F)) :=
  [ TRef.unary (TRef.of (T := ⟨S65536, .i32⟩) main_arg5) (TRef.of (T := ⟨S65536x1, .i32⟩) main_call4_v0) (broadcastInDim S65536x1 ![0] bcast_S65536_S65536x1_0),
    TRef.nullary (TRef.of (T := ⟨S1x7, .i32⟩) main_call4_v1) (iotaInDim S1x7 32 1),
    TRef.unary (TRef.of (T := ⟨S65536x1, .i32⟩) main_call4_v0) (TRef.of (T := ⟨S65536x7, .i32⟩) main_call4_v2) (broadcastInDim S65536x7 ![0, 1] bcast_S65536x1_S65536x7_0_1),
    TRef.unary (TRef.of (T := ⟨S1x7, .i32⟩) main_call4_v1) (TRef.of (T := ⟨S65536x7, .i32⟩) main_call4_v3) (broadcastInDim S65536x7 ![0, 1] bcast_S1x7_S65536x7_0_1),
    TRef.binary (TRef.of (T := ⟨S65536x7, .i32⟩) main_call4_v2) (TRef.of (T := ⟨S65536x7, .i32⟩) main_call4_v3) (TRef.of (T := ⟨S65536x7, .i1⟩) main_call4_v4) (cmpi .eq),
    TRef.unary (TRef.of (T := ⟨S65536x7, .i1⟩) main_call4_v4) (TRef.of (T := ⟨S65536x7, .f32⟩) main_v148) (uitofp .f32) ]

/-- Operations 220 to 242 (the last one writes `main_v167`). -/
abbrev s15 : List (HloOp τ sig (Elt F)) :=
  [ binary main_v147 main_v148 main_v149 ((fun a b => concatenate S65536x263 1 [⟨S65536x256, a⟩, ⟨S65536x7, b⟩] concatenates_S65536x256_S65536x7_S65536x263_d1) : (⟨S65536x256, .f32⟩ : BufTy).Contents (Elt F) → (⟨S65536x7, .f32⟩ : BufTy).Contents (Elt F) → (⟨S65536x263, .f32⟩ : BufTy).Contents (Elt F)),
    unary main_arg3 main_v150 ((extractStridedSlice S1x458752 ![0, 0] · slices_S2x458752_S1x458752_0_0) : (⟨S2x458752, .i32⟩ : BufTy).Contents (Elt F) → (⟨S1x458752, .i32⟩ : BufTy).Contents (Elt F)),
    reshape main_v150 main_v151 rfl shapeCasts_S1x458752_S458752,
    unary main_arg3 main_v152 ((extractStridedSlice S1x458752 ![1, 0] · slices_S2x458752_S1x458752_1_0) : (⟨S2x458752, .i32⟩ : BufTy).Contents (Elt F) → (⟨S1x458752, .i32⟩ : BufTy).Contents (Elt F)),
    reshape main_v152 main_v153 rfl shapeCasts_S1x458752_S458752,
    nullary main_c_34 (constantI S_ 32 7#32),
    unary main_c_34 main_v154 (broadcastInDim S458752 ![] bcast_S_S458752 : (⟨S_, .i32⟩ : BufTy).Contents (Elt F) → (⟨S458752, .i32⟩ : BufTy).Contents (Elt F)),
    binary main_v151 main_v154 main_v155 (muli : (⟨S458752, .i32⟩ : BufTy).Contents (Elt F) → (⟨S458752, .i32⟩ : BufTy).Contents (Elt F) → (⟨S458752, .i32⟩ : BufTy).Contents (Elt F)),
    binary main_v155 main_arg4 main_v156 (addi : (⟨S458752, .i32⟩ : BufTy).Contents (Elt F) → (⟨S458752, .i32⟩ : BufTy).Contents (Elt F) → (⟨S458752, .i32⟩ : BufTy).Contents (Elt F)),
    nullary main_c_35 (constantI S_ 32 0#32),
    unary main_c_35 main_v157 (broadcastInDim S458752 ![] bcast_S_S458752 : (⟨S_, .i32⟩ : BufTy).Contents (Elt F) → (⟨S458752, .i32⟩ : BufTy).Contents (Elt F)),
    binary main_v153 main_v157 main_v158 (cmpi .slt : (⟨S458752, .i32⟩ : BufTy).Contents (Elt F) → (⟨S458752, .i32⟩ : BufTy).Contents (Elt F) → (⟨S458752, .i1⟩ : BufTy).Contents (Elt F)),
    nullary main_c_36 (constantI S_ 32 65536#32),
    unary main_c_36 main_v159 (broadcastInDim S458752 ![] bcast_S_S458752 : (⟨S_, .i32⟩ : BufTy).Contents (Elt F) → (⟨S458752, .i32⟩ : BufTy).Contents (Elt F)),
    binary main_v153 main_v159 main_v160 (addi : (⟨S458752, .i32⟩ : BufTy).Contents (Elt F) → (⟨S458752, .i32⟩ : BufTy).Contents (Elt F) → (⟨S458752, .i32⟩ : BufTy).Contents (Elt F)),
    ternary main_v158 main_v160 main_v153 main_v161 (select : (⟨S458752, .i1⟩ : BufTy).Contents (Elt F) → (⟨S458752, .i32⟩ : BufTy).Contents (Elt F) → (⟨S458752, .i32⟩ : BufTy).Contents (Elt F) → (⟨S458752, .i32⟩ : BufTy).Contents (Elt F)),
    unary main_v161 main_v162 (broadcastInDim S458752x1 ![0] bcast_S458752_S458752x1_0 : (⟨S458752, .i32⟩ : BufTy).Contents (Elt F) → (⟨S458752x1, .i32⟩ : BufTy).Contents (Elt F)),
    binary main_v149 main_v162 main_v163 ((fun x i => Host.gather gather_S65536x263_S458752x1_S458752x263_1_0_n_n_0_1_1263 x i) : (⟨S65536x263, .f32⟩ : BufTy).Contents (Elt F) → (⟨S458752x1, .i32⟩ : BufTy).Contents (Elt F) → (⟨S458752x263, .f32⟩ : BufTy).Contents (Elt F)),
    nullary main_cst_37 (constant S_ .f32 0x00000000#32),
    unary main_cst_37 main_v164 (broadcastInDim S458752x263 ![] bcast_S_S458752x263 : (⟨S_, .f32⟩ : BufTy).Contents (Elt F) → (⟨S458752x263, .f32⟩ : BufTy).Contents (Elt F)),
    unary main_v156 main_v165 (broadcastInDim S458752x1 ![0] bcast_S458752_S458752x1_0 : (⟨S458752, .i32⟩ : BufTy).Contents (Elt F) → (⟨S458752x1, .i32⟩ : BufTy).Contents (Elt F)),
    ternary main_v164 main_v165 main_v163 main_v166 ((fun x i u => Host.scatterAdd scatter_S458752x263_S458752x1_S458752x263_1_0_0_1 x i u) : (⟨S458752x263, .f32⟩ : BufTy).Contents (Elt F) → (⟨S458752x1, .i32⟩ : BufTy).Contents (Elt F) → (⟨S458752x263, .f32⟩ : BufTy).Contents (Elt F) → (⟨S458752x263, .f32⟩ : BufTy).Contents (Elt F)),
    reshape main_v166 main_v167 rfl shapeCasts_S458752x263_S65536x1841 ]

/-- Operations 243 to 244 (the last one writes `main_v169`). -/
abbrev s16 : List (HloOp τ sig (Elt F)) :=
  [ binary main_v167 main_arg13 main_v168 ((fun l r => Host.dotGeneral dot_S65536x1841_S1841x256_S65536x256_1_0_0_1_n_n none l r) : (⟨S65536x1841, .f32⟩ : BufTy).Contents (Elt F) → (⟨S1841x256, .f32⟩ : BufTy).Contents (Elt F) → (⟨S65536x256, .f32⟩ : BufTy).Contents (Elt F)),
    binary main_arg0 main_v168 main_v169 (addf : (⟨S65536x256, .f32⟩ : BufTy).Contents (Elt F) → (⟨S65536x256, .f32⟩ : BufTy).Contents (Elt F) → (⟨S65536x256, .f32⟩ : BufTy).Contents (Elt F)) ]

set_option maxRecDepth 8192 in
/-- The pieces, in order, are the whole line. -/
theorem ops_cut : (ops : List (HloOp τ sig (Elt F))) = s1 ++ (s2 ++ (s3 ++ (s4 ++ (s5 ++ (s6 ++ (s7 ++ (s8 ++ (s9 ++ (s10 ++ (s11 ++ (s12 ++ (s13 ++ (s14 ++ (s15 ++ (s16))))))))))))))) := rfl

/-! ## The contents after each piece -/

/-- The launch contents of device `c`. -/
def V0 (m : (ℓ : Loc nD τ sig) → Buf (Elt F) ℓ) (c : Dev nD) : Valuation τ sig (Elt F) := launchContents m c
/-- The contents after the first 1 piece. -/
def V1 (m : (ℓ : Loc nD τ sig) → Buf (Elt F) ℓ) (c : Dev nD) : Valuation τ sig (Elt F) := after s1 (V0 m c)
/-- The contents after the first 2 pieces. -/
def V2 (m : (ℓ : Loc nD τ sig) → Buf (Elt F) ℓ) (c : Dev nD) : Valuation τ sig (Elt F) := after s2 (V1 m c)
/-- The contents after the first 3 pieces. -/
def V3 (m : (ℓ : Loc nD τ sig) → Buf (Elt F) ℓ) (c : Dev nD) : Valuation τ sig (Elt F) := after s3 (V2 m c)
/-- The contents after the first 4 pieces. -/
def V4 (m : (ℓ : Loc nD τ sig) → Buf (Elt F) ℓ) (c : Dev nD) : Valuation τ sig (Elt F) := after s4 (V3 m c)
/-- The contents after the first 5 pieces. -/
def V5 (m : (ℓ : Loc nD τ sig) → Buf (Elt F) ℓ) (c : Dev nD) : Valuation τ sig (Elt F) := after s5 (V4 m c)
/-- The contents after the first 6 pieces. -/
def V6 (m : (ℓ : Loc nD τ sig) → Buf (Elt F) ℓ) (c : Dev nD) : Valuation τ sig (Elt F) := after s6 (V5 m c)
/-- The contents after the first 7 pieces. -/
def V7 (m : (ℓ : Loc nD τ sig) → Buf (Elt F) ℓ) (c : Dev nD) : Valuation τ sig (Elt F) := after s7 (V6 m c)
/-- The contents after the first 8 pieces. -/
def V8 (m : (ℓ : Loc nD τ sig) → Buf (Elt F) ℓ) (c : Dev nD) : Valuation τ sig (Elt F) := after s8 (V7 m c)
/-- The contents after the first 9 pieces. -/
def V9 (m : (ℓ : Loc nD τ sig) → Buf (Elt F) ℓ) (c : Dev nD) : Valuation τ sig (Elt F) := after s9 (V8 m c)
/-- The contents after the first 10 pieces. -/
def V10 (m : (ℓ : Loc nD τ sig) → Buf (Elt F) ℓ) (c : Dev nD) : Valuation τ sig (Elt F) := after s10 (V9 m c)
/-- The contents after the first 11 pieces. -/
def V11 (m : (ℓ : Loc nD τ sig) → Buf (Elt F) ℓ) (c : Dev nD) : Valuation τ sig (Elt F) := after s11 (V10 m c)
/-- The contents after the first 12 pieces. -/
def V12 (m : (ℓ : Loc nD τ sig) → Buf (Elt F) ℓ) (c : Dev nD) : Valuation τ sig (Elt F) := after s12 (V11 m c)
/-- The contents after the first 13 pieces. -/
def V13 (m : (ℓ : Loc nD τ sig) → Buf (Elt F) ℓ) (c : Dev nD) : Valuation τ sig (Elt F) := after s13 (V12 m c)
/-- The contents after the first 14 pieces. -/
def V14 (m : (ℓ : Loc nD τ sig) → Buf (Elt F) ℓ) (c : Dev nD) : Valuation τ sig (Elt F) := after s14 (V13 m c)
/-- The contents after the first 15 pieces. -/
def V15 (m : (ℓ : Loc nD τ sig) → Buf (Elt F) ℓ) (c : Dev nD) : Valuation τ sig (Elt F) := after s15 (V14 m c)
/-- The contents after the first 16 pieces. -/
def V16 (m : (ℓ : Loc nD τ sig) → Buf (Elt F) ℓ) (c : Dev nD) : Valuation τ sig (Elt F) := after s16 (V15 m c)

/-! ## What each piece leaves in the buffers that are read later -/

theorem V0_main_arg0 (m : (ℓ : Loc nD τ sig) → Buf (Elt F) ℓ) (c : Dev nD) : V0 m c (Proc.devRef .tc main_arg0) = m ((c.tc : Thread nD τ).loc main_arg0) := rfl
theorem V0_main_arg1 (m : (ℓ : Loc nD τ sig) → Buf (Elt F) ℓ) (c : Dev nD) : V0 m c (Proc.devRef .tc main_arg1) = m ((c.tc : Thread nD τ).loc main_arg1) := rfl
theorem V0_main_arg2 (m : (ℓ : Loc nD τ sig) → Buf (Elt F) ℓ) (c : Dev nD) : V0 m c (Proc.devRef .tc main_arg2) = m ((c.tc : Thread nD τ).loc main_arg2) := rfl
theorem V0_main_arg3 (m : (ℓ : Loc nD τ sig) → Buf (Elt F) ℓ) (c : Dev nD) : V0 m c (Proc.devRef .tc main_arg3) = m ((c.tc : Thread nD τ).loc main_arg3) := rfl
theorem V0_main_arg4 (m : (ℓ : Loc nD τ sig) → Buf (Elt F) ℓ) (c : Dev nD) : V0 m c (Proc.devRef .tc main_arg4) = m ((c.tc : Thread nD τ).loc main_arg4) := rfl
theorem V0_main_arg5 (m : (ℓ : Loc nD τ sig) → Buf (Elt F) ℓ) (c : Dev nD) : V0 m c (Proc.devRef .tc main_arg5) = m ((c.tc : Thread nD τ).loc main_arg5) := rfl
theorem V0_main_arg6 (m : (ℓ : Loc nD τ sig) → Buf (Elt F) ℓ) (c : Dev nD) : V0 m c (Proc.devRef .tc main_arg6) = m ((c.tc : Thread nD τ).loc main_arg6) := rfl
theorem V0_main_arg7 (m : (ℓ : Loc nD τ sig) → Buf (Elt F) ℓ) (c : Dev nD) : V0 m c (Proc.devRef .tc main_arg7) = m ((c.tc : Thread nD τ).loc main_arg7) := rfl
theorem V0_main_arg8 (m : (ℓ : Loc nD τ sig) → Buf (Elt F) ℓ) (c : Dev nD) : V0 m c (Proc.devRef .tc main_arg8) = m ((c.tc : Thread nD τ).loc main_arg8) := rfl
theorem V0_main_arg9 (m : (ℓ : Loc nD τ sig) → Buf (Elt F) ℓ) (c : Dev nD) : V0 m c (Proc.devRef .tc main_arg9) = m ((c.tc : Thread nD τ).loc main_arg9) := rfl
theorem V0_main_arg10 (m : (ℓ : Loc nD τ sig) → Buf (Elt F) ℓ) (c : Dev nD) : V0 m c (Proc.devRef .tc main_arg10) = m ((c.tc : Thread nD τ).loc main_arg10) := rfl
theorem V0_main_arg11 (m : (ℓ : Loc nD τ sig) → Buf (Elt F) ℓ) (c : Dev nD) : V0 m c (Proc.devRef .tc main_arg11) = m ((c.tc : Thread nD τ).loc main_arg11) := rfl
theorem V0_main_arg12 (m : (ℓ : Loc nD τ sig) → Buf (Elt F) ℓ) (c : Dev nD) : V0 m c (Proc.devRef .tc main_arg12) = m ((c.tc : Thread nD τ).loc main_arg12) := rfl
theorem V0_main_arg13 (m : (ℓ : Loc nD τ sig) → Buf (Elt F) ℓ) (c : Dev nD) : V0 m c (Proc.devRef .tc main_arg13) = m ((c.tc : Thread nD τ).loc main_arg13) := rfl

theorem V1_main_arg0 (m : (ℓ : Loc nD τ sig) → Buf (Elt F) ℓ) (c : Dev nD) :
    V1 m c (Proc.devRef .tc main_arg0) = m ((c.tc : Thread nD τ).loc main_arg0) := by
  unfold V1
  after_results_simp
  exact V0_main_arg0 m c
theorem V1_main_arg1 (m : (ℓ : Loc nD τ sig) → Buf (Elt F) ℓ) (c : Dev nD) :
    V1 m c (Proc.devRef .tc main_arg1) = m ((c.tc : Thread nD τ).loc main_arg1) := by
  unfold V1
  after_results_simp
  exact V0_main_arg1 m c
theorem V1_main_arg2 (m : (ℓ : Loc nD τ sig) → Buf (Elt F) ℓ) (c : Dev nD) :
    V1 m c (Proc.devRef .tc main_arg2) = m ((c.tc : Thread nD τ).loc main_arg2) := by
  unfold V1
  after_results_simp
  exact V0_main_arg2 m c
theorem V1_main_arg3 (m : (ℓ : Loc nD τ sig) → Buf (Elt F) ℓ) (c : Dev nD) :
    V1 m c (Proc.devRef .tc main_arg3) = m ((c.tc : Thread nD τ).loc main_arg3) := by
  unfold V1
  after_results_simp
  exact V0_main_arg3 m c
theorem V1_main_arg4 (m : (ℓ : Loc nD τ sig) → Buf (Elt F) ℓ) (c : Dev nD) :
    V1 m c (Proc.devRef .tc main_arg4) = m ((c.tc : Thread nD τ).loc main_arg4) := by
  unfold V1
  after_results_simp
  exact V0_main_arg4 m c
theorem V1_main_arg5 (m : (ℓ : Loc nD τ sig) → Buf (Elt F) ℓ) (c : Dev nD) :
    V1 m c (Proc.devRef .tc main_arg5) = m ((c.tc : Thread nD τ).loc main_arg5) := by
  unfold V1
  after_results_simp
  exact V0_main_arg5 m c
theorem V1_main_arg6 (m : (ℓ : Loc nD τ sig) → Buf (Elt F) ℓ) (c : Dev nD) :
    V1 m c (Proc.devRef .tc main_arg6) = m ((c.tc : Thread nD τ).loc main_arg6) := by
  unfold V1
  after_results_simp
  exact V0_main_arg6 m c
theorem V1_main_arg7 (m : (ℓ : Loc nD τ sig) → Buf (Elt F) ℓ) (c : Dev nD) :
    V1 m c (Proc.devRef .tc main_arg7) = m ((c.tc : Thread nD τ).loc main_arg7) := by
  unfold V1
  after_results_simp
  exact V0_main_arg7 m c
theorem V1_main_arg8 (m : (ℓ : Loc nD τ sig) → Buf (Elt F) ℓ) (c : Dev nD) :
    V1 m c (Proc.devRef .tc main_arg8) = m ((c.tc : Thread nD τ).loc main_arg8) := by
  unfold V1
  after_results_simp
  exact V0_main_arg8 m c
theorem V1_main_arg9 (m : (ℓ : Loc nD τ sig) → Buf (Elt F) ℓ) (c : Dev nD) :
    V1 m c (Proc.devRef .tc main_arg9) = m ((c.tc : Thread nD τ).loc main_arg9) := by
  unfold V1
  after_results_simp
  exact V0_main_arg9 m c
theorem V1_main_arg10 (m : (ℓ : Loc nD τ sig) → Buf (Elt F) ℓ) (c : Dev nD) :
    V1 m c (Proc.devRef .tc main_arg10) = m ((c.tc : Thread nD τ).loc main_arg10) := by
  unfold V1
  after_results_simp
  exact V0_main_arg10 m c
theorem V1_main_arg11 (m : (ℓ : Loc nD τ sig) → Buf (Elt F) ℓ) (c : Dev nD) :
    V1 m c (Proc.devRef .tc main_arg11) = m ((c.tc : Thread nD τ).loc main_arg11) := by
  unfold V1
  after_results_simp
  exact V0_main_arg11 m c
theorem V1_main_arg12 (m : (ℓ : Loc nD τ sig) → Buf (Elt F) ℓ) (c : Dev nD) :
    V1 m c (Proc.devRef .tc main_arg12) = m ((c.tc : Thread nD τ).loc main_arg12) := by
  unfold V1
  after_results_simp
  exact V0_main_arg12 m c
theorem V1_main_arg13 (m : (ℓ : Loc nD τ sig) → Buf (Elt F) ℓ) (c : Dev nD) :
    V1 m c (Proc.devRef .tc main_arg13) = m ((c.tc : Thread nD τ).loc main_arg13) := by
  unfold V1
  after_results_simp
  exact V0_main_arg13 m c
theorem V1_main_v9 (m : (ℓ : Loc nD τ sig) → Buf (Elt F) ℓ) (c : Dev nD) :
    V1 m c (Proc.devRef .tc main_v9) = ReadP.val_main_v9 (F := F) (m ((c.tc : Thread nD τ).loc main_arg2)) := by
  unfold V1
  after_results_simp
  rw [V0_main_arg2 m c]
  rfl

theorem V2_main_arg0 (m : (ℓ : Loc nD τ sig) → Buf (Elt F) ℓ) (c : Dev nD) :
    V2 m c (Proc.devRef .tc main_arg0) = m ((c.tc : Thread nD τ).loc main_arg0) := by
  unfold V2
  after_results_simp
  exact V1_main_arg0 m c
theorem V2_main_arg1 (m : (ℓ : Loc nD τ sig) → Buf (Elt F) ℓ) (c : Dev nD) :
    V2 m c (Proc.devRef .tc main_arg1) = m ((c.tc : Thread nD τ).loc main_arg1) := by
  unfold V2
  after_results_simp
  exact V1_main_arg1 m c
theorem V2_main_arg2 (m : (ℓ : Loc nD τ sig) → Buf (Elt F) ℓ) (c : Dev nD) :
    V2 m c (Proc.devRef .tc main_arg2) = m ((c.tc : Thread nD τ).loc main_arg2) := by
  unfold V2
  after_results_simp
  exact V1_main_arg2 m c
theorem V2_main_arg3 (m : (ℓ : Loc nD τ sig) → Buf (Elt F) ℓ) (c : Dev nD) :
    V2 m c (Proc.devRef .tc main_arg3) = m ((c.tc : Thread nD τ).loc main_arg3) := by
  unfold V2
  after_results_simp
  exact V1_main_arg3 m c
theorem V2_main_arg4 (m : (ℓ : Loc nD τ sig) → Buf (Elt F) ℓ) (c : Dev nD) :
    V2 m c (Proc.devRef .tc main_arg4) = m ((c.tc : Thread nD τ).loc main_arg4) := by
  unfold V2
  after_results_simp
  exact V1_main_arg4 m c
theorem V2_main_arg5 (m : (ℓ : Loc nD τ sig) → Buf (Elt F) ℓ) (c : Dev nD) :
    V2 m c (Proc.devRef .tc main_arg5) = m ((c.tc : Thread nD τ).loc main_arg5) := by
  unfold V2
  after_results_simp
  exact V1_main_arg5 m c
theorem V2_main_arg6 (m : (ℓ : Loc nD τ sig) → Buf (Elt F) ℓ) (c : Dev nD) :
    V2 m c (Proc.devRef .tc main_arg6) = m ((c.tc : Thread nD τ).loc main_arg6) := by
  unfold V2
  after_results_simp
  exact V1_main_arg6 m c
theorem V2_main_arg7 (m : (ℓ : Loc nD τ sig) → Buf (Elt F) ℓ) (c : Dev nD) :
    V2 m c (Proc.devRef .tc main_arg7) = m ((c.tc : Thread nD τ).loc main_arg7) := by
  unfold V2
  after_results_simp
  exact V1_main_arg7 m c
theorem V2_main_arg8 (m : (ℓ : Loc nD τ sig) → Buf (Elt F) ℓ) (c : Dev nD) :
    V2 m c (Proc.devRef .tc main_arg8) = m ((c.tc : Thread nD τ).loc main_arg8) := by
  unfold V2
  after_results_simp
  exact V1_main_arg8 m c
theorem V2_main_arg9 (m : (ℓ : Loc nD τ sig) → Buf (Elt F) ℓ) (c : Dev nD) :
    V2 m c (Proc.devRef .tc main_arg9) = m ((c.tc : Thread nD τ).loc main_arg9) := by
  unfold V2
  after_results_simp
  exact V1_main_arg9 m c
theorem V2_main_arg10 (m : (ℓ : Loc nD τ sig) → Buf (Elt F) ℓ) (c : Dev nD) :
    V2 m c (Proc.devRef .tc main_arg10) = m ((c.tc : Thread nD τ).loc main_arg10) := by
  unfold V2
  after_results_simp
  exact V1_main_arg10 m c
theorem V2_main_arg11 (m : (ℓ : Loc nD τ sig) → Buf (Elt F) ℓ) (c : Dev nD) :
    V2 m c (Proc.devRef .tc main_arg11) = m ((c.tc : Thread nD τ).loc main_arg11) := by
  unfold V2
  after_results_simp
  exact V1_main_arg11 m c
theorem V2_main_arg12 (m : (ℓ : Loc nD τ sig) → Buf (Elt F) ℓ) (c : Dev nD) :
    V2 m c (Proc.devRef .tc main_arg12) = m ((c.tc : Thread nD τ).loc main_arg12) := by
  unfold V2
  after_results_simp
  exact V1_main_arg12 m c
theorem V2_main_arg13 (m : (ℓ : Loc nD τ sig) → Buf (Elt F) ℓ) (c : Dev nD) :
    V2 m c (Proc.devRef .tc main_arg13) = m ((c.tc : Thread nD τ).loc main_arg13) := by
  unfold V2
  after_results_simp
  exact V1_main_arg13 m c
theorem V2_main_v9 (m : (ℓ : Loc nD τ sig) → Buf (Elt F) ℓ) (c : Dev nD) :
    V2 m c (Proc.devRef .tc main_v9) = ReadP.val_main_v9 (F := F) (m ((c.tc : Thread nD τ).loc main_arg2)) := by
  unfold V2
  after_results_simp
  exact V1_main_v9 m c
theorem V2_main_v27 (m : (ℓ : Loc nD τ sig) → Buf (Elt F) ℓ) (c : Dev nD) :
    V2 m c (Proc.devRef .tc main_v27) = ReadP.val_main_v27 (F := F) (m ((c.tc : Thread nD τ).loc main_arg0)) (m ((c.tc : Thread nD τ).loc main_arg2)) := by
  unfold V2
  after_results_simp
  rw [V1_main_arg0 m c, V1_main_arg2 m c, V1_main_v9 m c]
  rfl

theorem V3_main_arg0 (m : (ℓ : Loc nD τ sig) → Buf (Elt F) ℓ) (c : Dev nD) :
    V3 m c (Proc.devRef .tc main_arg0) = m ((c.tc : Thread nD τ).loc main_arg0) := by
  unfold V3
  after_results_simp
  exact V2_main_arg0 m c
theorem V3_main_arg1 (m : (ℓ : Loc nD τ sig) → Buf (Elt F) ℓ) (c : Dev nD) :
    V3 m c (Proc.devRef .tc main_arg1) = m ((c.tc : Thread nD τ).loc main_arg1) := by
  unfold V3
  after_results_simp
  exact V2_main_arg1 m c
theorem V3_main_arg2 (m : (ℓ : Loc nD τ sig) → Buf (Elt F) ℓ) (c : Dev nD) :
    V3 m c (Proc.devRef .tc main_arg2) = m ((c.tc : Thread nD τ).loc main_arg2) := by
  unfold V3
  after_results_simp
  exact V2_main_arg2 m c
theorem V3_main_arg3 (m : (ℓ : Loc nD τ sig) → Buf (Elt F) ℓ) (c : Dev nD) :
    V3 m c (Proc.devRef .tc main_arg3) = m ((c.tc : Thread nD τ).loc main_arg3) := by
  unfold V3
  after_results_simp
  exact V2_main_arg3 m c
theorem V3_main_arg4 (m : (ℓ : Loc nD τ sig) → Buf (Elt F) ℓ) (c : Dev nD) :
    V3 m c (Proc.devRef .tc main_arg4) = m ((c.tc : Thread nD τ).loc main_arg4) := by
  unfold V3
  after_results_simp
  exact V2_main_arg4 m c
theorem V3_main_arg5 (m : (ℓ : Loc nD τ sig) → Buf (Elt F) ℓ) (c : Dev nD) :
    V3 m c (Proc.devRef .tc main_arg5) = m ((c.tc : Thread nD τ).loc main_arg5) := by
  unfold V3
  after_results_simp
  exact V2_main_arg5 m c
theorem V3_main_arg6 (m : (ℓ : Loc nD τ sig) → Buf (Elt F) ℓ) (c : Dev nD) :
    V3 m c (Proc.devRef .tc main_arg6) = m ((c.tc : Thread nD τ).loc main_arg6) := by
  unfold V3
  after_results_simp
  exact V2_main_arg6 m c
theorem V3_main_arg7 (m : (ℓ : Loc nD τ sig) → Buf (Elt F) ℓ) (c : Dev nD) :
    V3 m c (Proc.devRef .tc main_arg7) = m ((c.tc : Thread nD τ).loc main_arg7) := by
  unfold V3
  after_results_simp
  exact V2_main_arg7 m c
theorem V3_main_arg8 (m : (ℓ : Loc nD τ sig) → Buf (Elt F) ℓ) (c : Dev nD) :
    V3 m c (Proc.devRef .tc main_arg8) = m ((c.tc : Thread nD τ).loc main_arg8) := by
  unfold V3
  after_results_simp
  exact V2_main_arg8 m c
theorem V3_main_arg9 (m : (ℓ : Loc nD τ sig) → Buf (Elt F) ℓ) (c : Dev nD) :
    V3 m c (Proc.devRef .tc main_arg9) = m ((c.tc : Thread nD τ).loc main_arg9) := by
  unfold V3
  after_results_simp
  exact V2_main_arg9 m c
theorem V3_main_arg10 (m : (ℓ : Loc nD τ sig) → Buf (Elt F) ℓ) (c : Dev nD) :
    V3 m c (Proc.devRef .tc main_arg10) = m ((c.tc : Thread nD τ).loc main_arg10) := by
  unfold V3
  after_results_simp
  exact V2_main_arg10 m c
theorem V3_main_arg11 (m : (ℓ : Loc nD τ sig) → Buf (Elt F) ℓ) (c : Dev nD) :
    V3 m c (Proc.devRef .tc main_arg11) = m ((c.tc : Thread nD τ).loc main_arg11) := by
  unfold V3
  after_results_simp
  exact V2_main_arg11 m c
theorem V3_main_arg12 (m : (ℓ : Loc nD τ sig) → Buf (Elt F) ℓ) (c : Dev nD) :
    V3 m c (Proc.devRef .tc main_arg12) = m ((c.tc : Thread nD τ).loc main_arg12) := by
  unfold V3
  after_results_simp
  exact V2_main_arg12 m c
theorem V3_main_arg13 (m : (ℓ : Loc nD τ sig) → Buf (Elt F) ℓ) (c : Dev nD) :
    V3 m c (Proc.devRef .tc main_arg13) = m ((c.tc : Thread nD τ).loc main_arg13) := by
  unfold V3
  after_results_simp
  exact V2_main_arg13 m c
theorem V3_main_v27 (m : (ℓ : Loc nD τ sig) → Buf (Elt F) ℓ) (c : Dev nD) :
    V3 m c (Proc.devRef .tc main_v27) = ReadP.val_main_v27 (F := F) (m ((c.tc : Thread nD τ).loc main_arg0)) (m ((c.tc : Thread nD τ).loc main_arg2)) := by
  unfold V3
  after_results_simp
  exact V2_main_v27 m c
theorem V3_main_v50 (m : (ℓ : Loc nD τ sig) → Buf (Elt F) ℓ) (c : Dev nD) :
    V3 m c (Proc.devRef .tc main_v50) = ReadP.val_main_v50 (F := F) (m ((c.tc : Thread nD τ).loc main_arg0)) (m ((c.tc : Thread nD τ).loc main_arg2)) := by
  unfold V3
  after_results_simp
  rw [V2_main_arg2 m c, V2_main_v27 m c, V2_main_v9 m c]
  rfl

theorem V4_main_arg0 (m : (ℓ : Loc nD τ sig) → Buf (Elt F) ℓ) (c : Dev nD) :
    V4 m c (Proc.devRef .tc main_arg0) = m ((c.tc : Thread nD τ).loc main_arg0) := by
  unfold V4
  after_results_simp
  exact V3_main_arg0 m c
theorem V4_main_arg1 (m : (ℓ : Loc nD τ sig) → Buf (Elt F) ℓ) (c : Dev nD) :
    V4 m c (Proc.devRef .tc main_arg1) = m ((c.tc : Thread nD τ).loc main_arg1) := by
  unfold V4
  after_results_simp
  exact V3_main_arg1 m c
theorem V4_main_arg2 (m : (ℓ : Loc nD τ sig) → Buf (Elt F) ℓ) (c : Dev nD) :
    V4 m c (Proc.devRef .tc main_arg2) = m ((c.tc : Thread nD τ).loc main_arg2) := by
  unfold V4
  after_results_simp
  exact V3_main_arg2 m c
theorem V4_main_arg3 (m : (ℓ : Loc nD τ sig) → Buf (Elt F) ℓ) (c : Dev nD) :
    V4 m c (Proc.devRef .tc main_arg3) = m ((c.tc : Thread nD τ).loc main_arg3) := by
  unfold V4
  after_results_simp
  exact V3_main_arg3 m c
theorem V4_main_arg4 (m : (ℓ : Loc nD τ sig) → Buf (Elt F) ℓ) (c : Dev nD) :
    V4 m c (Proc.devRef .tc main_arg4) = m ((c.tc : Thread nD τ).loc main_arg4) := by
  unfold V4
  after_results_simp
  exact V3_main_arg4 m c
theorem V4_main_arg5 (m : (ℓ : Loc nD τ sig) → Buf (Elt F) ℓ) (c : Dev nD) :
    V4 m c (Proc.devRef .tc main_arg5) = m ((c.tc : Thread nD τ).loc main_arg5) := by
  unfold V4
  after_results_simp
  exact V3_main_arg5 m c
theorem V4_main_arg6 (m : (ℓ : Loc nD τ sig) → Buf (Elt F) ℓ) (c : Dev nD) :
    V4 m c (Proc.devRef .tc main_arg6) = m ((c.tc : Thread nD τ).loc main_arg6) := by
  unfold V4
  after_results_simp
  exact V3_main_arg6 m c
theorem V4_main_arg7 (m : (ℓ : Loc nD τ sig) → Buf (Elt F) ℓ) (c : Dev nD) :
    V4 m c (Proc.devRef .tc main_arg7) = m ((c.tc : Thread nD τ).loc main_arg7) := by
  unfold V4
  after_results_simp
  exact V3_main_arg7 m c
theorem V4_main_arg8 (m : (ℓ : Loc nD τ sig) → Buf (Elt F) ℓ) (c : Dev nD) :
    V4 m c (Proc.devRef .tc main_arg8) = m ((c.tc : Thread nD τ).loc main_arg8) := by
  unfold V4
  after_results_simp
  exact V3_main_arg8 m c
theorem V4_main_arg9 (m : (ℓ : Loc nD τ sig) → Buf (Elt F) ℓ) (c : Dev nD) :
    V4 m c (Proc.devRef .tc main_arg9) = m ((c.tc : Thread nD τ).loc main_arg9) := by
  unfold V4
  after_results_simp
  exact V3_main_arg9 m c
theorem V4_main_arg10 (m : (ℓ : Loc nD τ sig) → Buf (Elt F) ℓ) (c : Dev nD) :
    V4 m c (Proc.devRef .tc main_arg10) = m ((c.tc : Thread nD τ).loc main_arg10) := by
  unfold V4
  after_results_simp
  exact V3_main_arg10 m c
theorem V4_main_arg11 (m : (ℓ : Loc nD τ sig) → Buf (Elt F) ℓ) (c : Dev nD) :
    V4 m c (Proc.devRef .tc main_arg11) = m ((c.tc : Thread nD τ).loc main_arg11) := by
  unfold V4
  after_results_simp
  exact V3_main_arg11 m c
theorem V4_main_arg12 (m : (ℓ : Loc nD τ sig) → Buf (Elt F) ℓ) (c : Dev nD) :
    V4 m c (Proc.devRef .tc main_arg12) = m ((c.tc : Thread nD τ).loc main_arg12) := by
  unfold V4
  after_results_simp
  exact V3_main_arg12 m c
theorem V4_main_arg13 (m : (ℓ : Loc nD τ sig) → Buf (Elt F) ℓ) (c : Dev nD) :
    V4 m c (Proc.devRef .tc main_arg13) = m ((c.tc : Thread nD τ).loc main_arg13) := by
  unfold V4
  after_results_simp
  exact V3_main_arg13 m c
theorem V4_main_v55 (m : (ℓ : Loc nD τ sig) → Buf (Elt F) ℓ) (c : Dev nD) :
    V4 m c (Proc.devRef .tc main_v55) = ReadP.val_main_v55 (F := F) (m ((c.tc : Thread nD τ).loc main_arg0)) (m ((c.tc : Thread nD τ).loc main_arg2)) (m ((c.tc : Thread nD τ).loc main_arg6)) (m ((c.tc : Thread nD τ).loc main_arg7)) := by
  unfold V4
  after_results_simp
  rw [V3_main_v27 m c, V3_main_v50 m c, V3_main_arg6 m c, V3_main_arg7 m c]
  rfl

theorem V5_main_arg0 (m : (ℓ : Loc nD τ sig) → Buf (Elt F) ℓ) (c : Dev nD) :
    V5 m c (Proc.devRef .tc main_arg0) = m ((c.tc : Thread nD τ).loc main_arg0) := by
  unfold V5
  after_results_simp
  exact V4_main_arg0 m c
theorem V5_main_arg1 (m : (ℓ : Loc nD τ sig) → Buf (Elt F) ℓ) (c : Dev nD) :
    V5 m c (Proc.devRef .tc main_arg1) = m ((c.tc : Thread nD τ).loc main_arg1) := by
  unfold V5
  after_results_simp
  exact V4_main_arg1 m c
theorem V5_main_arg2 (m : (ℓ : Loc nD τ sig) → Buf (Elt F) ℓ) (c : Dev nD) :
    V5 m c (Proc.devRef .tc main_arg2) = m ((c.tc : Thread nD τ).loc main_arg2) := by
  unfold V5
  after_results_simp
  exact V4_main_arg2 m c
theorem V5_main_arg3 (m : (ℓ : Loc nD τ sig) → Buf (Elt F) ℓ) (c : Dev nD) :
    V5 m c (Proc.devRef .tc main_arg3) = m ((c.tc : Thread nD τ).loc main_arg3) := by
  unfold V5
  after_results_simp
  exact V4_main_arg3 m c
theorem V5_main_arg4 (m : (ℓ : Loc nD τ sig) → Buf (Elt F) ℓ) (c : Dev nD) :
    V5 m c (Proc.devRef .tc main_arg4) = m ((c.tc : Thread nD τ).loc main_arg4) := by
  unfold V5
  after_results_simp
  exact V4_main_arg4 m c
theorem V5_main_arg5 (m : (ℓ : Loc nD τ sig) → Buf (Elt F) ℓ) (c : Dev nD) :
    V5 m c (Proc.devRef .tc main_arg5) = m ((c.tc : Thread nD τ).loc main_arg5) := by
  unfold V5
  after_results_simp
  exact V4_main_arg5 m c
theorem V5_main_arg6 (m : (ℓ : Loc nD τ sig) → Buf (Elt F) ℓ) (c : Dev nD) :
    V5 m c (Proc.devRef .tc main_arg6) = m ((c.tc : Thread nD τ).loc main_arg6) := by
  unfold V5
  after_results_simp
  exact V4_main_arg6 m c
theorem V5_main_arg7 (m : (ℓ : Loc nD τ sig) → Buf (Elt F) ℓ) (c : Dev nD) :
    V5 m c (Proc.devRef .tc main_arg7) = m ((c.tc : Thread nD τ).loc main_arg7) := by
  unfold V5
  after_results_simp
  exact V4_main_arg7 m c
theorem V5_main_arg8 (m : (ℓ : Loc nD τ sig) → Buf (Elt F) ℓ) (c : Dev nD) :
    V5 m c (Proc.devRef .tc main_arg8) = m ((c.tc : Thread nD τ).loc main_arg8) := by
  unfold V5
  after_results_simp
  exact V4_main_arg8 m c
theorem V5_main_arg9 (m : (ℓ : Loc nD τ sig) → Buf (Elt F) ℓ) (c : Dev nD) :
    V5 m c (Proc.devRef .tc main_arg9) = m ((c.tc : Thread nD τ).loc main_arg9) := by
  unfold V5
  after_results_simp
  exact V4_main_arg9 m c
theorem V5_main_arg10 (m : (ℓ : Loc nD τ sig) → Buf (Elt F) ℓ) (c : Dev nD) :
    V5 m c (Proc.devRef .tc main_arg10) = m ((c.tc : Thread nD τ).loc main_arg10) := by
  unfold V5
  after_results_simp
  exact V4_main_arg10 m c
theorem V5_main_arg11 (m : (ℓ : Loc nD τ sig) → Buf (Elt F) ℓ) (c : Dev nD) :
    V5 m c (Proc.devRef .tc main_arg11) = m ((c.tc : Thread nD τ).loc main_arg11) := by
  unfold V5
  after_results_simp
  exact V4_main_arg11 m c
theorem V5_main_arg12 (m : (ℓ : Loc nD τ sig) → Buf (Elt F) ℓ) (c : Dev nD) :
    V5 m c (Proc.devRef .tc main_arg12) = m ((c.tc : Thread nD τ).loc main_arg12) := by
  unfold V5
  after_results_simp
  exact V4_main_arg12 m c
theorem V5_main_arg13 (m : (ℓ : Loc nD τ sig) → Buf (Elt F) ℓ) (c : Dev nD) :
    V5 m c (Proc.devRef .tc main_arg13) = m ((c.tc : Thread nD τ).loc main_arg13) := by
  unfold V5
  after_results_simp
  exact V4_main_arg13 m c
theorem V5_main_v56 (m : (ℓ : Loc nD τ sig) → Buf (Elt F) ℓ) (c : Dev nD) :
    V5 m c (Proc.devRef .tc main_v56) = ReadP.val_main_v56 (F := F) (m ((c.tc : Thread nD τ).loc main_arg0)) (m ((c.tc : Thread nD τ).loc main_arg2)) (m ((c.tc : Thread nD τ).loc main_arg6)) (m ((c.tc : Thread nD τ).loc main_arg7)) := by
  unfold V5
  after_results_simp
  rw [V4_main_v55 m c]
  rfl

theorem V6_main_arg0 (m : (ℓ : Loc nD τ sig) → Buf (Elt F) ℓ) (c : Dev nD) :
    V6 m c (Proc.devRef .tc main_arg0) = m ((c.tc : Thread nD τ).loc main_arg0) := by
  unfold V6
  after_results_simp
  exact V5_main_arg0 m c
theorem V6_main_arg1 (m : (ℓ : Loc nD τ sig) → Buf (Elt F) ℓ) (c : Dev nD) :
    V6 m c (Proc.devRef .tc main_arg1) = m ((c.tc : Thread nD τ).loc main_arg1) := by
  unfold V6
  after_results_simp
  exact V5_main_arg1 m c
theorem V6_main_arg2 (m : (ℓ : Loc nD τ sig) → Buf (Elt F) ℓ) (c : Dev nD) :
    V6 m c (Proc.devRef .tc main_arg2) = m ((c.tc : Thread nD τ).loc main_arg2) := by
  unfold V6
  after_results_simp
  exact V5_main_arg2 m c
theorem V6_main_arg3 (m : (ℓ : Loc nD τ sig) → Buf (Elt F) ℓ) (c : Dev nD) :
    V6 m c (Proc.devRef .tc main_arg3) = m ((c.tc : Thread nD τ).loc main_arg3) := by
  unfold V6
  after_results_simp
  exact V5_main_arg3 m c
theorem V6_main_arg4 (m : (ℓ : Loc nD τ sig) → Buf (Elt F) ℓ) (c : Dev nD) :
    V6 m c (Proc.devRef .tc main_arg4) = m ((c.tc : Thread nD τ).loc main_arg4) := by
  unfold V6
  after_results_simp
  exact V5_main_arg4 m c
theorem V6_main_arg5 (m : (ℓ : Loc nD τ sig) → Buf (Elt F) ℓ) (c : Dev nD) :
    V6 m c (Proc.devRef .tc main_arg5) = m ((c.tc : Thread nD τ).loc main_arg5) := by
  unfold V6
  after_results_simp
  exact V5_main_arg5 m c
theorem V6_main_arg6 (m : (ℓ : Loc nD τ sig) → Buf (Elt F) ℓ) (c : Dev nD) :
    V6 m c (Proc.devRef .tc main_arg6) = m ((c.tc : Thread nD τ).loc main_arg6) := by
  unfold V6
  after_results_simp
  exact V5_main_arg6 m c
theorem V6_main_arg7 (m : (ℓ : Loc nD τ sig) → Buf (Elt F) ℓ) (c : Dev nD) :
    V6 m c (Proc.devRef .tc main_arg7) = m ((c.tc : Thread nD τ).loc main_arg7) := by
  unfold V6
  after_results_simp
  exact V5_main_arg7 m c
theorem V6_main_arg8 (m : (ℓ : Loc nD τ sig) → Buf (Elt F) ℓ) (c : Dev nD) :
    V6 m c (Proc.devRef .tc main_arg8) = m ((c.tc : Thread nD τ).loc main_arg8) := by
  unfold V6
  after_results_simp
  exact V5_main_arg8 m c
theorem V6_main_arg9 (m : (ℓ : Loc nD τ sig) → Buf (Elt F) ℓ) (c : Dev nD) :
    V6 m c (Proc.devRef .tc main_arg9) = m ((c.tc : Thread nD τ).loc main_arg9) := by
  unfold V6
  after_results_simp
  exact V5_main_arg9 m c
theorem V6_main_arg10 (m : (ℓ : Loc nD τ sig) → Buf (Elt F) ℓ) (c : Dev nD) :
    V6 m c (Proc.devRef .tc main_arg10) = m ((c.tc : Thread nD τ).loc main_arg10) := by
  unfold V6
  after_results_simp
  exact V5_main_arg10 m c
theorem V6_main_arg11 (m : (ℓ : Loc nD τ sig) → Buf (Elt F) ℓ) (c : Dev nD) :
    V6 m c (Proc.devRef .tc main_arg11) = m ((c.tc : Thread nD τ).loc main_arg11) := by
  unfold V6
  after_results_simp
  exact V5_main_arg11 m c
theorem V6_main_arg12 (m : (ℓ : Loc nD τ sig) → Buf (Elt F) ℓ) (c : Dev nD) :
    V6 m c (Proc.devRef .tc main_arg12) = m ((c.tc : Thread nD τ).loc main_arg12) := by
  unfold V6
  after_results_simp
  exact V5_main_arg12 m c
theorem V6_main_arg13 (m : (ℓ : Loc nD τ sig) → Buf (Elt F) ℓ) (c : Dev nD) :
    V6 m c (Proc.devRef .tc main_arg13) = m ((c.tc : Thread nD τ).loc main_arg13) := by
  unfold V6
  after_results_simp
  exact V5_main_arg13 m c
theorem V6_main_v56 (m : (ℓ : Loc nD τ sig) → Buf (Elt F) ℓ) (c : Dev nD) :
    V6 m c (Proc.devRef .tc main_v56) = ReadP.val_main_v56 (F := F) (m ((c.tc : Thread nD τ).loc main_arg0)) (m ((c.tc : Thread nD τ).loc main_arg2)) (m ((c.tc : Thread nD τ).loc main_arg6)) (m ((c.tc : Thread nD τ).loc main_arg7)) := by
  unfold V6
  after_results_simp
  exact V5_main_v56 m c
theorem V6_main_v57 (m : (ℓ : Loc nD τ sig) → Buf (Elt F) ℓ) (c : Dev nD) :
    V6 m c (Proc.devRef .tc main_v57) = ReadP.val_main_v57 (F := F) (m ((c.tc : Thread nD τ).loc main_arg5)) := by
  unfold V6
  after_results_simp
  rw [V5_main_arg5 m c]
  rfl

theorem V7_main_arg0 (m : (ℓ : Loc nD τ sig) → Buf (Elt F) ℓ) (c : Dev nD) :
    V7 m c (Proc.devRef .tc main_arg0) = m ((c.tc : Thread nD τ).loc main_arg0) := by
  unfold V7
  after_results_simp
  exact V6_main_arg0 m c
theorem V7_main_arg1 (m : (ℓ : Loc nD τ sig) → Buf (Elt F) ℓ) (c : Dev nD) :
    V7 m c (Proc.devRef .tc main_arg1) = m ((c.tc : Thread nD τ).loc main_arg1) := by
  unfold V7
  after_results_simp
  exact V6_main_arg1 m c
theorem V7_main_arg2 (m : (ℓ : Loc nD τ sig) → Buf (Elt F) ℓ) (c : Dev nD) :
    V7 m c (Proc.devRef .tc main_arg2) = m ((c.tc : Thread nD τ).loc main_arg2) := by
  unfold V7
  after_results_simp
  exact V6_main_arg2 m c
theorem V7_main_arg3 (m : (ℓ : Loc nD τ sig) → Buf (Elt F) ℓ) (c : Dev nD) :
    V7 m c (Proc.devRef .tc main_arg3) = m ((c.tc : Thread nD τ).loc main_arg3) := by
  unfold V7
  after_results_simp
  exact V6_main_arg3 m c
theorem V7_main_arg4 (m : (ℓ : Loc nD τ sig) → Buf (Elt F) ℓ) (c : Dev nD) :
    V7 m c (Proc.devRef .tc main_arg4) = m ((c.tc : Thread nD τ).loc main_arg4) := by
  unfold V7
  after_results_simp
  exact V6_main_arg4 m c
theorem V7_main_arg5 (m : (ℓ : Loc nD τ sig) → Buf (Elt F) ℓ) (c : Dev nD) :
    V7 m c (Proc.devRef .tc main_arg5) = m ((c.tc : Thread nD τ).loc main_arg5) := by
  unfold V7
  after_results_simp
  exact V6_main_arg5 m c
theorem V7_main_arg6 (m : (ℓ : Loc nD τ sig) → Buf (Elt F) ℓ) (c : Dev nD) :
    V7 m c (Proc.devRef .tc main_arg6) = m ((c.tc : Thread nD τ).loc main_arg6) := by
  unfold V7
  after_results_simp
  exact V6_main_arg6 m c
theorem V7_main_arg7 (m : (ℓ : Loc nD τ sig) → Buf (Elt F) ℓ) (c : Dev nD) :
    V7 m c (Proc.devRef .tc main_arg7) = m ((c.tc : Thread nD τ).loc main_arg7) := by
  unfold V7
  after_results_simp
  exact V6_main_arg7 m c
theorem V7_main_arg8 (m : (ℓ : Loc nD τ sig) → Buf (Elt F) ℓ) (c : Dev nD) :
    V7 m c (Proc.devRef .tc main_arg8) = m ((c.tc : Thread nD τ).loc main_arg8) := by
  unfold V7
  after_results_simp
  exact V6_main_arg8 m c
theorem V7_main_arg9 (m : (ℓ : Loc nD τ sig) → Buf (Elt F) ℓ) (c : Dev nD) :
    V7 m c (Proc.devRef .tc main_arg9) = m ((c.tc : Thread nD τ).loc main_arg9) := by
  unfold V7
  after_results_simp
  exact V6_main_arg9 m c
theorem V7_main_arg10 (m : (ℓ : Loc nD τ sig) → Buf (Elt F) ℓ) (c : Dev nD) :
    V7 m c (Proc.devRef .tc main_arg10) = m ((c.tc : Thread nD τ).loc main_arg10) := by
  unfold V7
  after_results_simp
  exact V6_main_arg10 m c
theorem V7_main_arg11 (m : (ℓ : Loc nD τ sig) → Buf (Elt F) ℓ) (c : Dev nD) :
    V7 m c (Proc.devRef .tc main_arg11) = m ((c.tc : Thread nD τ).loc main_arg11) := by
  unfold V7
  after_results_simp
  exact V6_main_arg11 m c
theorem V7_main_arg12 (m : (ℓ : Loc nD τ sig) → Buf (Elt F) ℓ) (c : Dev nD) :
    V7 m c (Proc.devRef .tc main_arg12) = m ((c.tc : Thread nD τ).loc main_arg12) := by
  unfold V7
  after_results_simp
  exact V6_main_arg12 m c
theorem V7_main_arg13 (m : (ℓ : Loc nD τ sig) → Buf (Elt F) ℓ) (c : Dev nD) :
    V7 m c (Proc.devRef .tc main_arg13) = m ((c.tc : Thread nD τ).loc main_arg13) := by
  unfold V7
  after_results_simp
  exact V6_main_arg13 m c
theorem V7_main_v76 (m : (ℓ : Loc nD τ sig) → Buf (Elt F) ℓ) (c : Dev nD) :
    V7 m c (Proc.devRef .tc main_v76) = ReadP.val_main_v76 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold V7
  after_results_simp
  rw [V6_main_arg3 m c, V6_main_arg4 m c, V6_main_v56 m c, V6_main_v57 m c]
  rfl

theorem V8_main_arg0 (m : (ℓ : Loc nD τ sig) → Buf (Elt F) ℓ) (c : Dev nD) :
    V8 m c (Proc.devRef .tc main_arg0) = m ((c.tc : Thread nD τ).loc main_arg0) := by
  unfold V8
  after_results_simp
  exact V7_main_arg0 m c
theorem V8_main_arg1 (m : (ℓ : Loc nD τ sig) → Buf (Elt F) ℓ) (c : Dev nD) :
    V8 m c (Proc.devRef .tc main_arg1) = m ((c.tc : Thread nD τ).loc main_arg1) := by
  unfold V8
  after_results_simp
  exact V7_main_arg1 m c
theorem V8_main_arg2 (m : (ℓ : Loc nD τ sig) → Buf (Elt F) ℓ) (c : Dev nD) :
    V8 m c (Proc.devRef .tc main_arg2) = m ((c.tc : Thread nD τ).loc main_arg2) := by
  unfold V8
  after_results_simp
  exact V7_main_arg2 m c
theorem V8_main_arg3 (m : (ℓ : Loc nD τ sig) → Buf (Elt F) ℓ) (c : Dev nD) :
    V8 m c (Proc.devRef .tc main_arg3) = m ((c.tc : Thread nD τ).loc main_arg3) := by
  unfold V8
  after_results_simp
  exact V7_main_arg3 m c
theorem V8_main_arg4 (m : (ℓ : Loc nD τ sig) → Buf (Elt F) ℓ) (c : Dev nD) :
    V8 m c (Proc.devRef .tc main_arg4) = m ((c.tc : Thread nD τ).loc main_arg4) := by
  unfold V8
  after_results_simp
  exact V7_main_arg4 m c
theorem V8_main_arg5 (m : (ℓ : Loc nD τ sig) → Buf (Elt F) ℓ) (c : Dev nD) :
    V8 m c (Proc.devRef .tc main_arg5) = m ((c.tc : Thread nD τ).loc main_arg5) := by
  unfold V8
  after_results_simp
  exact V7_main_arg5 m c
theorem V8_main_arg6 (m : (ℓ : Loc nD τ sig) → Buf (Elt F) ℓ) (c : Dev nD) :
    V8 m c (Proc.devRef .tc main_arg6) = m ((c.tc : Thread nD τ).loc main_arg6) := by
  unfold V8
  after_results_simp
  exact V7_main_arg6 m c
theorem V8_main_arg7 (m : (ℓ : Loc nD τ sig) → Buf (Elt F) ℓ) (c : Dev nD) :
    V8 m c (Proc.devRef .tc main_arg7) = m ((c.tc : Thread nD τ).loc main_arg7) := by
  unfold V8
  after_results_simp
  exact V7_main_arg7 m c
theorem V8_main_arg8 (m : (ℓ : Loc nD τ sig) → Buf (Elt F) ℓ) (c : Dev nD) :
    V8 m c (Proc.devRef .tc main_arg8) = m ((c.tc : Thread nD τ).loc main_arg8) := by
  unfold V8
  after_results_simp
  exact V7_main_arg8 m c
theorem V8_main_arg9 (m : (ℓ : Loc nD τ sig) → Buf (Elt F) ℓ) (c : Dev nD) :
    V8 m c (Proc.devRef .tc main_arg9) = m ((c.tc : Thread nD τ).loc main_arg9) := by
  unfold V8
  after_results_simp
  exact V7_main_arg9 m c
theorem V8_main_arg10 (m : (ℓ : Loc nD τ sig) → Buf (Elt F) ℓ) (c : Dev nD) :
    V8 m c (Proc.devRef .tc main_arg10) = m ((c.tc : Thread nD τ).loc main_arg10) := by
  unfold V8
  after_results_simp
  exact V7_main_arg10 m c
theorem V8_main_arg11 (m : (ℓ : Loc nD τ sig) → Buf (Elt F) ℓ) (c : Dev nD) :
    V8 m c (Proc.devRef .tc main_arg11) = m ((c.tc : Thread nD τ).loc main_arg11) := by
  unfold V8
  after_results_simp
  exact V7_main_arg11 m c
theorem V8_main_arg12 (m : (ℓ : Loc nD τ sig) → Buf (Elt F) ℓ) (c : Dev nD) :
    V8 m c (Proc.devRef .tc main_arg12) = m ((c.tc : Thread nD τ).loc main_arg12) := by
  unfold V8
  after_results_simp
  exact V7_main_arg12 m c
theorem V8_main_arg13 (m : (ℓ : Loc nD τ sig) → Buf (Elt F) ℓ) (c : Dev nD) :
    V8 m c (Proc.devRef .tc main_arg13) = m ((c.tc : Thread nD τ).loc main_arg13) := by
  unfold V8
  after_results_simp
  exact V7_main_arg13 m c
theorem V8_main_v90 (m : (ℓ : Loc nD τ sig) → Buf (Elt F) ℓ) (c : Dev nD) :
    V8 m c (Proc.devRef .tc main_v90) = ReadP.val_main_v90 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold V8
  after_results_simp
  rw [V7_main_v76 m c, V7_main_arg8 m c, V7_main_arg1 m c, V7_main_arg9 m c, V7_main_arg10 m c, V7_main_arg2 m c]
  rfl

theorem V9_main_arg0 (m : (ℓ : Loc nD τ sig) → Buf (Elt F) ℓ) (c : Dev nD) :
    V9 m c (Proc.devRef .tc main_arg0) = m ((c.tc : Thread nD τ).loc main_arg0) := by
  unfold V9
  after_results_simp
  exact V8_main_arg0 m c
theorem V9_main_arg1 (m : (ℓ : Loc nD τ sig) → Buf (Elt F) ℓ) (c : Dev nD) :
    V9 m c (Proc.devRef .tc main_arg1) = m ((c.tc : Thread nD τ).loc main_arg1) := by
  unfold V9
  after_results_simp
  exact V8_main_arg1 m c
theorem V9_main_arg2 (m : (ℓ : Loc nD τ sig) → Buf (Elt F) ℓ) (c : Dev nD) :
    V9 m c (Proc.devRef .tc main_arg2) = m ((c.tc : Thread nD τ).loc main_arg2) := by
  unfold V9
  after_results_simp
  exact V8_main_arg2 m c
theorem V9_main_arg3 (m : (ℓ : Loc nD τ sig) → Buf (Elt F) ℓ) (c : Dev nD) :
    V9 m c (Proc.devRef .tc main_arg3) = m ((c.tc : Thread nD τ).loc main_arg3) := by
  unfold V9
  after_results_simp
  exact V8_main_arg3 m c
theorem V9_main_arg4 (m : (ℓ : Loc nD τ sig) → Buf (Elt F) ℓ) (c : Dev nD) :
    V9 m c (Proc.devRef .tc main_arg4) = m ((c.tc : Thread nD τ).loc main_arg4) := by
  unfold V9
  after_results_simp
  exact V8_main_arg4 m c
theorem V9_main_arg5 (m : (ℓ : Loc nD τ sig) → Buf (Elt F) ℓ) (c : Dev nD) :
    V9 m c (Proc.devRef .tc main_arg5) = m ((c.tc : Thread nD τ).loc main_arg5) := by
  unfold V9
  after_results_simp
  exact V8_main_arg5 m c
theorem V9_main_arg6 (m : (ℓ : Loc nD τ sig) → Buf (Elt F) ℓ) (c : Dev nD) :
    V9 m c (Proc.devRef .tc main_arg6) = m ((c.tc : Thread nD τ).loc main_arg6) := by
  unfold V9
  after_results_simp
  exact V8_main_arg6 m c
theorem V9_main_arg7 (m : (ℓ : Loc nD τ sig) → Buf (Elt F) ℓ) (c : Dev nD) :
    V9 m c (Proc.devRef .tc main_arg7) = m ((c.tc : Thread nD τ).loc main_arg7) := by
  unfold V9
  after_results_simp
  exact V8_main_arg7 m c
theorem V9_main_arg8 (m : (ℓ : Loc nD τ sig) → Buf (Elt F) ℓ) (c : Dev nD) :
    V9 m c (Proc.devRef .tc main_arg8) = m ((c.tc : Thread nD τ).loc main_arg8) := by
  unfold V9
  after_results_simp
  exact V8_main_arg8 m c
theorem V9_main_arg9 (m : (ℓ : Loc nD τ sig) → Buf (Elt F) ℓ) (c : Dev nD) :
    V9 m c (Proc.devRef .tc main_arg9) = m ((c.tc : Thread nD τ).loc main_arg9) := by
  unfold V9
  after_results_simp
  exact V8_main_arg9 m c
theorem V9_main_arg10 (m : (ℓ : Loc nD τ sig) → Buf (Elt F) ℓ) (c : Dev nD) :
    V9 m c (Proc.devRef .tc main_arg10) = m ((c.tc : Thread nD τ).loc main_arg10) := by
  unfold V9
  after_results_simp
  exact V8_main_arg10 m c
theorem V9_main_arg11 (m : (ℓ : Loc nD τ sig) → Buf (Elt F) ℓ) (c : Dev nD) :
    V9 m c (Proc.devRef .tc main_arg11) = m ((c.tc : Thread nD τ).loc main_arg11) := by
  unfold V9
  after_results_simp
  exact V8_main_arg11 m c
theorem V9_main_arg12 (m : (ℓ : Loc nD τ sig) → Buf (Elt F) ℓ) (c : Dev nD) :
    V9 m c (Proc.devRef .tc main_arg12) = m ((c.tc : Thread nD τ).loc main_arg12) := by
  unfold V9
  after_results_simp
  exact V8_main_arg12 m c
theorem V9_main_arg13 (m : (ℓ : Loc nD τ sig) → Buf (Elt F) ℓ) (c : Dev nD) :
    V9 m c (Proc.devRef .tc main_arg13) = m ((c.tc : Thread nD τ).loc main_arg13) := by
  unfold V9
  after_results_simp
  exact V8_main_arg13 m c
theorem V9_main_v90 (m : (ℓ : Loc nD τ sig) → Buf (Elt F) ℓ) (c : Dev nD) :
    V9 m c (Proc.devRef .tc main_v90) = ReadP.val_main_v90 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold V9
  after_results_simp
  exact V8_main_v90 m c
theorem V9_main_v100 (m : (ℓ : Loc nD τ sig) → Buf (Elt F) ℓ) (c : Dev nD) :
    V9 m c (Proc.devRef .tc main_v100) = ReadP.val_main_v100 (F := F) (m ((c.tc : Thread nD τ).loc main_arg2)) := by
  unfold V9
  after_results_simp
  rw [V8_main_arg2 m c]
  rfl

theorem V10_main_arg0 (m : (ℓ : Loc nD τ sig) → Buf (Elt F) ℓ) (c : Dev nD) :
    V10 m c (Proc.devRef .tc main_arg0) = m ((c.tc : Thread nD τ).loc main_arg0) := by
  unfold V10
  after_results_simp
  exact V9_main_arg0 m c
theorem V10_main_arg1 (m : (ℓ : Loc nD τ sig) → Buf (Elt F) ℓ) (c : Dev nD) :
    V10 m c (Proc.devRef .tc main_arg1) = m ((c.tc : Thread nD τ).loc main_arg1) := by
  unfold V10
  after_results_simp
  exact V9_main_arg1 m c
theorem V10_main_arg2 (m : (ℓ : Loc nD τ sig) → Buf (Elt F) ℓ) (c : Dev nD) :
    V10 m c (Proc.devRef .tc main_arg2) = m ((c.tc : Thread nD τ).loc main_arg2) := by
  unfold V10
  after_results_simp
  exact V9_main_arg2 m c
theorem V10_main_arg3 (m : (ℓ : Loc nD τ sig) → Buf (Elt F) ℓ) (c : Dev nD) :
    V10 m c (Proc.devRef .tc main_arg3) = m ((c.tc : Thread nD τ).loc main_arg3) := by
  unfold V10
  after_results_simp
  exact V9_main_arg3 m c
theorem V10_main_arg4 (m : (ℓ : Loc nD τ sig) → Buf (Elt F) ℓ) (c : Dev nD) :
    V10 m c (Proc.devRef .tc main_arg4) = m ((c.tc : Thread nD τ).loc main_arg4) := by
  unfold V10
  after_results_simp
  exact V9_main_arg4 m c
theorem V10_main_arg5 (m : (ℓ : Loc nD τ sig) → Buf (Elt F) ℓ) (c : Dev nD) :
    V10 m c (Proc.devRef .tc main_arg5) = m ((c.tc : Thread nD τ).loc main_arg5) := by
  unfold V10
  after_results_simp
  exact V9_main_arg5 m c
theorem V10_main_arg6 (m : (ℓ : Loc nD τ sig) → Buf (Elt F) ℓ) (c : Dev nD) :
    V10 m c (Proc.devRef .tc main_arg6) = m ((c.tc : Thread nD τ).loc main_arg6) := by
  unfold V10
  after_results_simp
  exact V9_main_arg6 m c
theorem V10_main_arg7 (m : (ℓ : Loc nD τ sig) → Buf (Elt F) ℓ) (c : Dev nD) :
    V10 m c (Proc.devRef .tc main_arg7) = m ((c.tc : Thread nD τ).loc main_arg7) := by
  unfold V10
  after_results_simp
  exact V9_main_arg7 m c
theorem V10_main_arg8 (m : (ℓ : Loc nD τ sig) → Buf (Elt F) ℓ) (c : Dev nD) :
    V10 m c (Proc.devRef .tc main_arg8) = m ((c.tc : Thread nD τ).loc main_arg8) := by
  unfold V10
  after_results_simp
  exact V9_main_arg8 m c
theorem V10_main_arg9 (m : (ℓ : Loc nD τ sig) → Buf (Elt F) ℓ) (c : Dev nD) :
    V10 m c (Proc.devRef .tc main_arg9) = m ((c.tc : Thread nD τ).loc main_arg9) := by
  unfold V10
  after_results_simp
  exact V9_main_arg9 m c
theorem V10_main_arg10 (m : (ℓ : Loc nD τ sig) → Buf (Elt F) ℓ) (c : Dev nD) :
    V10 m c (Proc.devRef .tc main_arg10) = m ((c.tc : Thread nD τ).loc main_arg10) := by
  unfold V10
  after_results_simp
  exact V9_main_arg10 m c
theorem V10_main_arg11 (m : (ℓ : Loc nD τ sig) → Buf (Elt F) ℓ) (c : Dev nD) :
    V10 m c (Proc.devRef .tc main_arg11) = m ((c.tc : Thread nD τ).loc main_arg11) := by
  unfold V10
  after_results_simp
  exact V9_main_arg11 m c
theorem V10_main_arg12 (m : (ℓ : Loc nD τ sig) → Buf (Elt F) ℓ) (c : Dev nD) :
    V10 m c (Proc.devRef .tc main_arg12) = m ((c.tc : Thread nD τ).loc main_arg12) := by
  unfold V10
  after_results_simp
  exact V9_main_arg12 m c
theorem V10_main_arg13 (m : (ℓ : Loc nD τ sig) → Buf (Elt F) ℓ) (c : Dev nD) :
    V10 m c (Proc.devRef .tc main_arg13) = m ((c.tc : Thread nD τ).loc main_arg13) := by
  unfold V10
  after_results_simp
  exact V9_main_arg13 m c
theorem V10_main_v100 (m : (ℓ : Loc nD τ sig) → Buf (Elt F) ℓ) (c : Dev nD) :
    V10 m c (Proc.devRef .tc main_v100) = ReadP.val_main_v100 (F := F) (m ((c.tc : Thread nD τ).loc main_arg2)) := by
  unfold V10
  after_results_simp
  exact V9_main_v100 m c
theorem V10_main_v118 (m : (ℓ : Loc nD τ sig) → Buf (Elt F) ℓ) (c : Dev nD) :
    V10 m c (Proc.devRef .tc main_v118) = ReadP.val_main_v118 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold V10
  after_results_simp
  rw [V9_main_v90 m c, V9_main_arg2 m c, V9_main_v100 m c]
  rfl

theorem V11_main_arg0 (m : (ℓ : Loc nD τ sig) → Buf (Elt F) ℓ) (c : Dev nD) :
    V11 m c (Proc.devRef .tc main_arg0) = m ((c.tc : Thread nD τ).loc main_arg0) := by
  unfold V11
  after_results_simp
  exact V10_main_arg0 m c
theorem V11_main_arg1 (m : (ℓ : Loc nD τ sig) → Buf (Elt F) ℓ) (c : Dev nD) :
    V11 m c (Proc.devRef .tc main_arg1) = m ((c.tc : Thread nD τ).loc main_arg1) := by
  unfold V11
  after_results_simp
  exact V10_main_arg1 m c
theorem V11_main_arg2 (m : (ℓ : Loc nD τ sig) → Buf (Elt F) ℓ) (c : Dev nD) :
    V11 m c (Proc.devRef .tc main_arg2) = m ((c.tc : Thread nD τ).loc main_arg2) := by
  unfold V11
  after_results_simp
  exact V10_main_arg2 m c
theorem V11_main_arg3 (m : (ℓ : Loc nD τ sig) → Buf (Elt F) ℓ) (c : Dev nD) :
    V11 m c (Proc.devRef .tc main_arg3) = m ((c.tc : Thread nD τ).loc main_arg3) := by
  unfold V11
  after_results_simp
  exact V10_main_arg3 m c
theorem V11_main_arg4 (m : (ℓ : Loc nD τ sig) → Buf (Elt F) ℓ) (c : Dev nD) :
    V11 m c (Proc.devRef .tc main_arg4) = m ((c.tc : Thread nD τ).loc main_arg4) := by
  unfold V11
  after_results_simp
  exact V10_main_arg4 m c
theorem V11_main_arg5 (m : (ℓ : Loc nD τ sig) → Buf (Elt F) ℓ) (c : Dev nD) :
    V11 m c (Proc.devRef .tc main_arg5) = m ((c.tc : Thread nD τ).loc main_arg5) := by
  unfold V11
  after_results_simp
  exact V10_main_arg5 m c
theorem V11_main_arg6 (m : (ℓ : Loc nD τ sig) → Buf (Elt F) ℓ) (c : Dev nD) :
    V11 m c (Proc.devRef .tc main_arg6) = m ((c.tc : Thread nD τ).loc main_arg6) := by
  unfold V11
  after_results_simp
  exact V10_main_arg6 m c
theorem V11_main_arg7 (m : (ℓ : Loc nD τ sig) → Buf (Elt F) ℓ) (c : Dev nD) :
    V11 m c (Proc.devRef .tc main_arg7) = m ((c.tc : Thread nD τ).loc main_arg7) := by
  unfold V11
  after_results_simp
  exact V10_main_arg7 m c
theorem V11_main_arg8 (m : (ℓ : Loc nD τ sig) → Buf (Elt F) ℓ) (c : Dev nD) :
    V11 m c (Proc.devRef .tc main_arg8) = m ((c.tc : Thread nD τ).loc main_arg8) := by
  unfold V11
  after_results_simp
  exact V10_main_arg8 m c
theorem V11_main_arg9 (m : (ℓ : Loc nD τ sig) → Buf (Elt F) ℓ) (c : Dev nD) :
    V11 m c (Proc.devRef .tc main_arg9) = m ((c.tc : Thread nD τ).loc main_arg9) := by
  unfold V11
  after_results_simp
  exact V10_main_arg9 m c
theorem V11_main_arg10 (m : (ℓ : Loc nD τ sig) → Buf (Elt F) ℓ) (c : Dev nD) :
    V11 m c (Proc.devRef .tc main_arg10) = m ((c.tc : Thread nD τ).loc main_arg10) := by
  unfold V11
  after_results_simp
  exact V10_main_arg10 m c
theorem V11_main_arg11 (m : (ℓ : Loc nD τ sig) → Buf (Elt F) ℓ) (c : Dev nD) :
    V11 m c (Proc.devRef .tc main_arg11) = m ((c.tc : Thread nD τ).loc main_arg11) := by
  unfold V11
  after_results_simp
  exact V10_main_arg11 m c
theorem V11_main_arg12 (m : (ℓ : Loc nD τ sig) → Buf (Elt F) ℓ) (c : Dev nD) :
    V11 m c (Proc.devRef .tc main_arg12) = m ((c.tc : Thread nD τ).loc main_arg12) := by
  unfold V11
  after_results_simp
  exact V10_main_arg12 m c
theorem V11_main_arg13 (m : (ℓ : Loc nD τ sig) → Buf (Elt F) ℓ) (c : Dev nD) :
    V11 m c (Proc.devRef .tc main_arg13) = m ((c.tc : Thread nD τ).loc main_arg13) := by
  unfold V11
  after_results_simp
  exact V10_main_arg13 m c
theorem V11_main_v118 (m : (ℓ : Loc nD τ sig) → Buf (Elt F) ℓ) (c : Dev nD) :
    V11 m c (Proc.devRef .tc main_v118) = ReadP.val_main_v118 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold V11
  after_results_simp
  exact V10_main_v118 m c
theorem V11_main_v141 (m : (ℓ : Loc nD τ sig) → Buf (Elt F) ℓ) (c : Dev nD) :
    V11 m c (Proc.devRef .tc main_v141) = ReadP.val_main_v141 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold V11
  after_results_simp
  rw [V10_main_arg2 m c, V10_main_v118 m c, V10_main_v100 m c]
  rfl

theorem V12_main_arg0 (m : (ℓ : Loc nD τ sig) → Buf (Elt F) ℓ) (c : Dev nD) :
    V12 m c (Proc.devRef .tc main_arg0) = m ((c.tc : Thread nD τ).loc main_arg0) := by
  unfold V12
  after_results_simp
  exact V11_main_arg0 m c
theorem V12_main_arg1 (m : (ℓ : Loc nD τ sig) → Buf (Elt F) ℓ) (c : Dev nD) :
    V12 m c (Proc.devRef .tc main_arg1) = m ((c.tc : Thread nD τ).loc main_arg1) := by
  unfold V12
  after_results_simp
  exact V11_main_arg1 m c
theorem V12_main_arg2 (m : (ℓ : Loc nD τ sig) → Buf (Elt F) ℓ) (c : Dev nD) :
    V12 m c (Proc.devRef .tc main_arg2) = m ((c.tc : Thread nD τ).loc main_arg2) := by
  unfold V12
  after_results_simp
  exact V11_main_arg2 m c
theorem V12_main_arg3 (m : (ℓ : Loc nD τ sig) → Buf (Elt F) ℓ) (c : Dev nD) :
    V12 m c (Proc.devRef .tc main_arg3) = m ((c.tc : Thread nD τ).loc main_arg3) := by
  unfold V12
  after_results_simp
  exact V11_main_arg3 m c
theorem V12_main_arg4 (m : (ℓ : Loc nD τ sig) → Buf (Elt F) ℓ) (c : Dev nD) :
    V12 m c (Proc.devRef .tc main_arg4) = m ((c.tc : Thread nD τ).loc main_arg4) := by
  unfold V12
  after_results_simp
  exact V11_main_arg4 m c
theorem V12_main_arg5 (m : (ℓ : Loc nD τ sig) → Buf (Elt F) ℓ) (c : Dev nD) :
    V12 m c (Proc.devRef .tc main_arg5) = m ((c.tc : Thread nD τ).loc main_arg5) := by
  unfold V12
  after_results_simp
  exact V11_main_arg5 m c
theorem V12_main_arg6 (m : (ℓ : Loc nD τ sig) → Buf (Elt F) ℓ) (c : Dev nD) :
    V12 m c (Proc.devRef .tc main_arg6) = m ((c.tc : Thread nD τ).loc main_arg6) := by
  unfold V12
  after_results_simp
  exact V11_main_arg6 m c
theorem V12_main_arg7 (m : (ℓ : Loc nD τ sig) → Buf (Elt F) ℓ) (c : Dev nD) :
    V12 m c (Proc.devRef .tc main_arg7) = m ((c.tc : Thread nD τ).loc main_arg7) := by
  unfold V12
  after_results_simp
  exact V11_main_arg7 m c
theorem V12_main_arg8 (m : (ℓ : Loc nD τ sig) → Buf (Elt F) ℓ) (c : Dev nD) :
    V12 m c (Proc.devRef .tc main_arg8) = m ((c.tc : Thread nD τ).loc main_arg8) := by
  unfold V12
  after_results_simp
  exact V11_main_arg8 m c
theorem V12_main_arg9 (m : (ℓ : Loc nD τ sig) → Buf (Elt F) ℓ) (c : Dev nD) :
    V12 m c (Proc.devRef .tc main_arg9) = m ((c.tc : Thread nD τ).loc main_arg9) := by
  unfold V12
  after_results_simp
  exact V11_main_arg9 m c
theorem V12_main_arg10 (m : (ℓ : Loc nD τ sig) → Buf (Elt F) ℓ) (c : Dev nD) :
    V12 m c (Proc.devRef .tc main_arg10) = m ((c.tc : Thread nD τ).loc main_arg10) := by
  unfold V12
  after_results_simp
  exact V11_main_arg10 m c
theorem V12_main_arg11 (m : (ℓ : Loc nD τ sig) → Buf (Elt F) ℓ) (c : Dev nD) :
    V12 m c (Proc.devRef .tc main_arg11) = m ((c.tc : Thread nD τ).loc main_arg11) := by
  unfold V12
  after_results_simp
  exact V11_main_arg11 m c
theorem V12_main_arg12 (m : (ℓ : Loc nD τ sig) → Buf (Elt F) ℓ) (c : Dev nD) :
    V12 m c (Proc.devRef .tc main_arg12) = m ((c.tc : Thread nD τ).loc main_arg12) := by
  unfold V12
  after_results_simp
  exact V11_main_arg12 m c
theorem V12_main_arg13 (m : (ℓ : Loc nD τ sig) → Buf (Elt F) ℓ) (c : Dev nD) :
    V12 m c (Proc.devRef .tc main_arg13) = m ((c.tc : Thread nD τ).loc main_arg13) := by
  unfold V12
  after_results_simp
  exact V11_main_arg13 m c
theorem V12_main_v146 (m : (ℓ : Loc nD τ sig) → Buf (Elt F) ℓ) (c : Dev nD) :
    V12 m c (Proc.devRef .tc main_v146) = ReadP.val_main_v146 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold V12
  after_results_simp
  rw [V11_main_v118 m c, V11_main_v141 m c, V11_main_arg11 m c, V11_main_arg12 m c]
  rfl

theorem V13_main_arg0 (m : (ℓ : Loc nD τ sig) → Buf (Elt F) ℓ) (c : Dev nD) :
    V13 m c (Proc.devRef .tc main_arg0) = m ((c.tc : Thread nD τ).loc main_arg0) := by
  unfold V13
  after_results_simp
  exact V12_main_arg0 m c
theorem V13_main_arg1 (m : (ℓ : Loc nD τ sig) → Buf (Elt F) ℓ) (c : Dev nD) :
    V13 m c (Proc.devRef .tc main_arg1) = m ((c.tc : Thread nD τ).loc main_arg1) := by
  unfold V13
  after_results_simp
  exact V12_main_arg1 m c
theorem V13_main_arg2 (m : (ℓ : Loc nD τ sig) → Buf (Elt F) ℓ) (c : Dev nD) :
    V13 m c (Proc.devRef .tc main_arg2) = m ((c.tc : Thread nD τ).loc main_arg2) := by
  unfold V13
  after_results_simp
  exact V12_main_arg2 m c
theorem V13_main_arg3 (m : (ℓ : Loc nD τ sig) → Buf (Elt F) ℓ) (c : Dev nD) :
    V13 m c (Proc.devRef .tc main_arg3) = m ((c.tc : Thread nD τ).loc main_arg3) := by
  unfold V13
  after_results_simp
  exact V12_main_arg3 m c
theorem V13_main_arg4 (m : (ℓ : Loc nD τ sig) → Buf (Elt F) ℓ) (c : Dev nD) :
    V13 m c (Proc.devRef .tc main_arg4) = m ((c.tc : Thread nD τ).loc main_arg4) := by
  unfold V13
  after_results_simp
  exact V12_main_arg4 m c
theorem V13_main_arg5 (m : (ℓ : Loc nD τ sig) → Buf (Elt F) ℓ) (c : Dev nD) :
    V13 m c (Proc.devRef .tc main_arg5) = m ((c.tc : Thread nD τ).loc main_arg5) := by
  unfold V13
  after_results_simp
  exact V12_main_arg5 m c
theorem V13_main_arg6 (m : (ℓ : Loc nD τ sig) → Buf (Elt F) ℓ) (c : Dev nD) :
    V13 m c (Proc.devRef .tc main_arg6) = m ((c.tc : Thread nD τ).loc main_arg6) := by
  unfold V13
  after_results_simp
  exact V12_main_arg6 m c
theorem V13_main_arg7 (m : (ℓ : Loc nD τ sig) → Buf (Elt F) ℓ) (c : Dev nD) :
    V13 m c (Proc.devRef .tc main_arg7) = m ((c.tc : Thread nD τ).loc main_arg7) := by
  unfold V13
  after_results_simp
  exact V12_main_arg7 m c
theorem V13_main_arg8 (m : (ℓ : Loc nD τ sig) → Buf (Elt F) ℓ) (c : Dev nD) :
    V13 m c (Proc.devRef .tc main_arg8) = m ((c.tc : Thread nD τ).loc main_arg8) := by
  unfold V13
  after_results_simp
  exact V12_main_arg8 m c
theorem V13_main_arg9 (m : (ℓ : Loc nD τ sig) → Buf (Elt F) ℓ) (c : Dev nD) :
    V13 m c (Proc.devRef .tc main_arg9) = m ((c.tc : Thread nD τ).loc main_arg9) := by
  unfold V13
  after_results_simp
  exact V12_main_arg9 m c
theorem V13_main_arg10 (m : (ℓ : Loc nD τ sig) → Buf (Elt F) ℓ) (c : Dev nD) :
    V13 m c (Proc.devRef .tc main_arg10) = m ((c.tc : Thread nD τ).loc main_arg10) := by
  unfold V13
  after_results_simp
  exact V12_main_arg10 m c
theorem V13_main_arg11 (m : (ℓ : Loc nD τ sig) → Buf (Elt F) ℓ) (c : Dev nD) :
    V13 m c (Proc.devRef .tc main_arg11) = m ((c.tc : Thread nD τ).loc main_arg11) := by
  unfold V13
  after_results_simp
  exact V12_main_arg11 m c
theorem V13_main_arg12 (m : (ℓ : Loc nD τ sig) → Buf (Elt F) ℓ) (c : Dev nD) :
    V13 m c (Proc.devRef .tc main_arg12) = m ((c.tc : Thread nD τ).loc main_arg12) := by
  unfold V13
  after_results_simp
  exact V12_main_arg12 m c
theorem V13_main_arg13 (m : (ℓ : Loc nD τ sig) → Buf (Elt F) ℓ) (c : Dev nD) :
    V13 m c (Proc.devRef .tc main_arg13) = m ((c.tc : Thread nD τ).loc main_arg13) := by
  unfold V13
  after_results_simp
  exact V12_main_arg13 m c
theorem V13_main_v147 (m : (ℓ : Loc nD τ sig) → Buf (Elt F) ℓ) (c : Dev nD) :
    V13 m c (Proc.devRef .tc main_v147) = ReadP.val_main_v147 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold V13
  after_results_simp
  rw [V12_main_v146 m c]
  rfl

theorem V14_main_arg0 (m : (ℓ : Loc nD τ sig) → Buf (Elt F) ℓ) (c : Dev nD) :
    V14 m c (Proc.devRef .tc main_arg0) = m ((c.tc : Thread nD τ).loc main_arg0) := by
  unfold V14
  after_results_simp
  exact V13_main_arg0 m c
theorem V14_main_arg1 (m : (ℓ : Loc nD τ sig) → Buf (Elt F) ℓ) (c : Dev nD) :
    V14 m c (Proc.devRef .tc main_arg1) = m ((c.tc : Thread nD τ).loc main_arg1) := by
  unfold V14
  after_results_simp
  exact V13_main_arg1 m c
theorem V14_main_arg2 (m : (ℓ : Loc nD τ sig) → Buf (Elt F) ℓ) (c : Dev nD) :
    V14 m c (Proc.devRef .tc main_arg2) = m ((c.tc : Thread nD τ).loc main_arg2) := by
  unfold V14
  after_results_simp
  exact V13_main_arg2 m c
theorem V14_main_arg3 (m : (ℓ : Loc nD τ sig) → Buf (Elt F) ℓ) (c : Dev nD) :
    V14 m c (Proc.devRef .tc main_arg3) = m ((c.tc : Thread nD τ).loc main_arg3) := by
  unfold V14
  after_results_simp
  exact V13_main_arg3 m c
theorem V14_main_arg4 (m : (ℓ : Loc nD τ sig) → Buf (Elt F) ℓ) (c : Dev nD) :
    V14 m c (Proc.devRef .tc main_arg4) = m ((c.tc : Thread nD τ).loc main_arg4) := by
  unfold V14
  after_results_simp
  exact V13_main_arg4 m c
theorem V14_main_arg5 (m : (ℓ : Loc nD τ sig) → Buf (Elt F) ℓ) (c : Dev nD) :
    V14 m c (Proc.devRef .tc main_arg5) = m ((c.tc : Thread nD τ).loc main_arg5) := by
  unfold V14
  after_results_simp
  exact V13_main_arg5 m c
theorem V14_main_arg6 (m : (ℓ : Loc nD τ sig) → Buf (Elt F) ℓ) (c : Dev nD) :
    V14 m c (Proc.devRef .tc main_arg6) = m ((c.tc : Thread nD τ).loc main_arg6) := by
  unfold V14
  after_results_simp
  exact V13_main_arg6 m c
theorem V14_main_arg7 (m : (ℓ : Loc nD τ sig) → Buf (Elt F) ℓ) (c : Dev nD) :
    V14 m c (Proc.devRef .tc main_arg7) = m ((c.tc : Thread nD τ).loc main_arg7) := by
  unfold V14
  after_results_simp
  exact V13_main_arg7 m c
theorem V14_main_arg8 (m : (ℓ : Loc nD τ sig) → Buf (Elt F) ℓ) (c : Dev nD) :
    V14 m c (Proc.devRef .tc main_arg8) = m ((c.tc : Thread nD τ).loc main_arg8) := by
  unfold V14
  after_results_simp
  exact V13_main_arg8 m c
theorem V14_main_arg9 (m : (ℓ : Loc nD τ sig) → Buf (Elt F) ℓ) (c : Dev nD) :
    V14 m c (Proc.devRef .tc main_arg9) = m ((c.tc : Thread nD τ).loc main_arg9) := by
  unfold V14
  after_results_simp
  exact V13_main_arg9 m c
theorem V14_main_arg10 (m : (ℓ : Loc nD τ sig) → Buf (Elt F) ℓ) (c : Dev nD) :
    V14 m c (Proc.devRef .tc main_arg10) = m ((c.tc : Thread nD τ).loc main_arg10) := by
  unfold V14
  after_results_simp
  exact V13_main_arg10 m c
theorem V14_main_arg11 (m : (ℓ : Loc nD τ sig) → Buf (Elt F) ℓ) (c : Dev nD) :
    V14 m c (Proc.devRef .tc main_arg11) = m ((c.tc : Thread nD τ).loc main_arg11) := by
  unfold V14
  after_results_simp
  exact V13_main_arg11 m c
theorem V14_main_arg12 (m : (ℓ : Loc nD τ sig) → Buf (Elt F) ℓ) (c : Dev nD) :
    V14 m c (Proc.devRef .tc main_arg12) = m ((c.tc : Thread nD τ).loc main_arg12) := by
  unfold V14
  after_results_simp
  exact V13_main_arg12 m c
theorem V14_main_arg13 (m : (ℓ : Loc nD τ sig) → Buf (Elt F) ℓ) (c : Dev nD) :
    V14 m c (Proc.devRef .tc main_arg13) = m ((c.tc : Thread nD τ).loc main_arg13) := by
  unfold V14
  after_results_simp
  exact V13_main_arg13 m c
theorem V14_main_v147 (m : (ℓ : Loc nD τ sig) → Buf (Elt F) ℓ) (c : Dev nD) :
    V14 m c (Proc.devRef .tc main_v147) = ReadP.val_main_v147 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold V14
  after_results_simp
  exact V13_main_v147 m c
theorem V14_main_v148 (m : (ℓ : Loc nD τ sig) → Buf (Elt F) ℓ) (c : Dev nD) :
    V14 m c (Proc.devRef .tc main_v148) = ReadP.val_main_v148 (F := F) (m ((c.tc : Thread nD τ).loc main_arg5)) := by
  unfold V14
  after_results_simp
  rw [V13_main_arg5 m c]
  rfl

theorem V15_main_arg0 (m : (ℓ : Loc nD τ sig) → Buf (Elt F) ℓ) (c : Dev nD) :
    V15 m c (Proc.devRef .tc main_arg0) = m ((c.tc : Thread nD τ).loc main_arg0) := by
  unfold V15
  after_results_simp
  exact V14_main_arg0 m c
theorem V15_main_arg1 (m : (ℓ : Loc nD τ sig) → Buf (Elt F) ℓ) (c : Dev nD) :
    V15 m c (Proc.devRef .tc main_arg1) = m ((c.tc : Thread nD τ).loc main_arg1) := by
  unfold V15
  after_results_simp
  exact V14_main_arg1 m c
theorem V15_main_arg2 (m : (ℓ : Loc nD τ sig) → Buf (Elt F) ℓ) (c : Dev nD) :
    V15 m c (Proc.devRef .tc main_arg2) = m ((c.tc : Thread nD τ).loc main_arg2) := by
  unfold V15
  after_results_simp
  exact V14_main_arg2 m c
theorem V15_main_arg3 (m : (ℓ : Loc nD τ sig) → Buf (Elt F) ℓ) (c : Dev nD) :
    V15 m c (Proc.devRef .tc main_arg3) = m ((c.tc : Thread nD τ).loc main_arg3) := by
  unfold V15
  after_results_simp
  exact V14_main_arg3 m c
theorem V15_main_arg4 (m : (ℓ : Loc nD τ sig) → Buf (Elt F) ℓ) (c : Dev nD) :
    V15 m c (Proc.devRef .tc main_arg4) = m ((c.tc : Thread nD τ).loc main_arg4) := by
  unfold V15
  after_results_simp
  exact V14_main_arg4 m c
theorem V15_main_arg5 (m : (ℓ : Loc nD τ sig) → Buf (Elt F) ℓ) (c : Dev nD) :
    V15 m c (Proc.devRef .tc main_arg5) = m ((c.tc : Thread nD τ).loc main_arg5) := by
  unfold V15
  after_results_simp
  exact V14_main_arg5 m c
theorem V15_main_arg6 (m : (ℓ : Loc nD τ sig) → Buf (Elt F) ℓ) (c : Dev nD) :
    V15 m c (Proc.devRef .tc main_arg6) = m ((c.tc : Thread nD τ).loc main_arg6) := by
  unfold V15
  after_results_simp
  exact V14_main_arg6 m c
theorem V15_main_arg7 (m : (ℓ : Loc nD τ sig) → Buf (Elt F) ℓ) (c : Dev nD) :
    V15 m c (Proc.devRef .tc main_arg7) = m ((c.tc : Thread nD τ).loc main_arg7) := by
  unfold V15
  after_results_simp
  exact V14_main_arg7 m c
theorem V15_main_arg8 (m : (ℓ : Loc nD τ sig) → Buf (Elt F) ℓ) (c : Dev nD) :
    V15 m c (Proc.devRef .tc main_arg8) = m ((c.tc : Thread nD τ).loc main_arg8) := by
  unfold V15
  after_results_simp
  exact V14_main_arg8 m c
theorem V15_main_arg9 (m : (ℓ : Loc nD τ sig) → Buf (Elt F) ℓ) (c : Dev nD) :
    V15 m c (Proc.devRef .tc main_arg9) = m ((c.tc : Thread nD τ).loc main_arg9) := by
  unfold V15
  after_results_simp
  exact V14_main_arg9 m c
theorem V15_main_arg10 (m : (ℓ : Loc nD τ sig) → Buf (Elt F) ℓ) (c : Dev nD) :
    V15 m c (Proc.devRef .tc main_arg10) = m ((c.tc : Thread nD τ).loc main_arg10) := by
  unfold V15
  after_results_simp
  exact V14_main_arg10 m c
theorem V15_main_arg11 (m : (ℓ : Loc nD τ sig) → Buf (Elt F) ℓ) (c : Dev nD) :
    V15 m c (Proc.devRef .tc main_arg11) = m ((c.tc : Thread nD τ).loc main_arg11) := by
  unfold V15
  after_results_simp
  exact V14_main_arg11 m c
theorem V15_main_arg12 (m : (ℓ : Loc nD τ sig) → Buf (Elt F) ℓ) (c : Dev nD) :
    V15 m c (Proc.devRef .tc main_arg12) = m ((c.tc : Thread nD τ).loc main_arg12) := by
  unfold V15
  after_results_simp
  exact V14_main_arg12 m c
theorem V15_main_arg13 (m : (ℓ : Loc nD τ sig) → Buf (Elt F) ℓ) (c : Dev nD) :
    V15 m c (Proc.devRef .tc main_arg13) = m ((c.tc : Thread nD τ).loc main_arg13) := by
  unfold V15
  after_results_simp
  exact V14_main_arg13 m c
theorem V15_main_v167 (m : (ℓ : Loc nD τ sig) → Buf (Elt F) ℓ) (c : Dev nD) :
    V15 m c (Proc.devRef .tc main_v167) = ReadP.val_main_v167 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold V15
  after_results_simp
  rw [V14_main_arg3 m c, V14_main_arg4 m c, V14_main_v147 m c, V14_main_v148 m c]
  rfl

theorem V16_main_arg0 (m : (ℓ : Loc nD τ sig) → Buf (Elt F) ℓ) (c : Dev nD) :
    V16 m c (Proc.devRef .tc main_arg0) = m ((c.tc : Thread nD τ).loc main_arg0) := by
  unfold V16
  after_results_simp
  exact V15_main_arg0 m c
theorem V16_main_arg1 (m : (ℓ : Loc nD τ sig) → Buf (Elt F) ℓ) (c : Dev nD) :
    V16 m c (Proc.devRef .tc main_arg1) = m ((c.tc : Thread nD τ).loc main_arg1) := by
  unfold V16
  after_results_simp
  exact V15_main_arg1 m c
theorem V16_main_arg2 (m : (ℓ : Loc nD τ sig) → Buf (Elt F) ℓ) (c : Dev nD) :
    V16 m c (Proc.devRef .tc main_arg2) = m ((c.tc : Thread nD τ).loc main_arg2) := by
  unfold V16
  after_results_simp
  exact V15_main_arg2 m c
theorem V16_main_arg3 (m : (ℓ : Loc nD τ sig) → Buf (Elt F) ℓ) (c : Dev nD) :
    V16 m c (Proc.devRef .tc main_arg3) = m ((c.tc : Thread nD τ).loc main_arg3) := by
  unfold V16
  after_results_simp
  exact V15_main_arg3 m c
theorem V16_main_arg4 (m : (ℓ : Loc nD τ sig) → Buf (Elt F) ℓ) (c : Dev nD) :
    V16 m c (Proc.devRef .tc main_arg4) = m ((c.tc : Thread nD τ).loc main_arg4) := by
  unfold V16
  after_results_simp
  exact V15_main_arg4 m c
theorem V16_main_arg5 (m : (ℓ : Loc nD τ sig) → Buf (Elt F) ℓ) (c : Dev nD) :
    V16 m c (Proc.devRef .tc main_arg5) = m ((c.tc : Thread nD τ).loc main_arg5) := by
  unfold V16
  after_results_simp
  exact V15_main_arg5 m c
theorem V16_main_arg6 (m : (ℓ : Loc nD τ sig) → Buf (Elt F) ℓ) (c : Dev nD) :
    V16 m c (Proc.devRef .tc main_arg6) = m ((c.tc : Thread nD τ).loc main_arg6) := by
  unfold V16
  after_results_simp
  exact V15_main_arg6 m c
theorem V16_main_arg7 (m : (ℓ : Loc nD τ sig) → Buf (Elt F) ℓ) (c : Dev nD) :
    V16 m c (Proc.devRef .tc main_arg7) = m ((c.tc : Thread nD τ).loc main_arg7) := by
  unfold V16
  after_results_simp
  exact V15_main_arg7 m c
theorem V16_main_arg8 (m : (ℓ : Loc nD τ sig) → Buf (Elt F) ℓ) (c : Dev nD) :
    V16 m c (Proc.devRef .tc main_arg8) = m ((c.tc : Thread nD τ).loc main_arg8) := by
  unfold V16
  after_results_simp
  exact V15_main_arg8 m c
theorem V16_main_arg9 (m : (ℓ : Loc nD τ sig) → Buf (Elt F) ℓ) (c : Dev nD) :
    V16 m c (Proc.devRef .tc main_arg9) = m ((c.tc : Thread nD τ).loc main_arg9) := by
  unfold V16
  after_results_simp
  exact V15_main_arg9 m c
theorem V16_main_arg10 (m : (ℓ : Loc nD τ sig) → Buf (Elt F) ℓ) (c : Dev nD) :
    V16 m c (Proc.devRef .tc main_arg10) = m ((c.tc : Thread nD τ).loc main_arg10) := by
  unfold V16
  after_results_simp
  exact V15_main_arg10 m c
theorem V16_main_arg11 (m : (ℓ : Loc nD τ sig) → Buf (Elt F) ℓ) (c : Dev nD) :
    V16 m c (Proc.devRef .tc main_arg11) = m ((c.tc : Thread nD τ).loc main_arg11) := by
  unfold V16
  after_results_simp
  exact V15_main_arg11 m c
theorem V16_main_arg12 (m : (ℓ : Loc nD τ sig) → Buf (Elt F) ℓ) (c : Dev nD) :
    V16 m c (Proc.devRef .tc main_arg12) = m ((c.tc : Thread nD τ).loc main_arg12) := by
  unfold V16
  after_results_simp
  exact V15_main_arg12 m c
theorem V16_main_arg13 (m : (ℓ : Loc nD τ sig) → Buf (Elt F) ℓ) (c : Dev nD) :
    V16 m c (Proc.devRef .tc main_arg13) = m ((c.tc : Thread nD τ).loc main_arg13) := by
  unfold V16
  after_results_simp
  exact V15_main_arg13 m c
theorem V16_main_v169 (m : (ℓ : Loc nD τ sig) → Buf (Elt F) ℓ) (c : Dev nD) :
    V16 m c (Proc.devRef .tc main_v169) = ReadP.val_main_v169 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold V16
  after_results_simp
  rw [V15_main_arg0 m c, V15_main_v167 m c, V15_main_arg13 m c]
  rfl

/-! ## The run -/

/-- The result buffer after the whole line, from the launch contents. -/
theorem result_eq (m : (ℓ : Loc nD τ sig) → Buf (Elt F) ℓ) (c : Dev nD) :
    after (ops : List (HloOp τ sig (Elt F))) (launchContents m c) (Proc.devRef .tc main_v169) = ReadP.val_main_v169 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [ops_cut]
  simp only [after_append]
  exact V16_main_v169 m c

/-- No operation writes argument 0: it ends at its launch contents. -/
theorem arg0_eq (m : (ℓ : Loc nD τ sig) → Buf (Elt F) ℓ) (c : Dev nD) :
    after (ops : List (HloOp τ sig (Elt F))) (launchContents m c) (Proc.devRef .tc main_arg0) = m ((c.tc : Thread nD τ).loc main_arg0) := by
  rw [ops_cut]
  simp only [after_append]
  exact V16_main_arg0 m c

/-- No operation writes argument 1: it ends at its launch contents. -/
theorem arg1_eq (m : (ℓ : Loc nD τ sig) → Buf (Elt F) ℓ) (c : Dev nD) :
    after (ops : List (HloOp τ sig (Elt F))) (launchContents m c) (Proc.devRef .tc main_arg1) = m ((c.tc : Thread nD τ).loc main_arg1) := by
  rw [ops_cut]
  simp only [after_append]
  exact V16_main_arg1 m c

/-- No operation writes argument 2: it ends at its launch contents. -/
theorem arg2_eq (m : (ℓ : Loc nD τ sig) → Buf (Elt F) ℓ) (c : Dev nD) :
    after (ops : List (HloOp τ sig (Elt F))) (launchContents m c) (Proc.devRef .tc main_arg2) = m ((c.tc : Thread nD τ).loc main_arg2) := by
  rw [ops_cut]
  simp only [after_append]
  exact V16_main_arg2 m c

/-- No operation writes argument 3: it ends at its launch contents. -/
theorem arg3_eq (m : (ℓ : Loc nD τ sig) → Buf (Elt F) ℓ) (c : Dev nD) :
    after (ops : List (HloOp τ sig (Elt F))) (launchContents m c) (Proc.devRef .tc main_arg3) = m ((c.tc : Thread nD τ).loc main_arg3) := by
  rw [ops_cut]
  simp only [after_append]
  exact V16_main_arg3 m c

/-- No operation writes argument 4: it ends at its launch contents. -/
theorem arg4_eq (m : (ℓ : Loc nD τ sig) → Buf (Elt F) ℓ) (c : Dev nD) :
    after (ops : List (HloOp τ sig (Elt F))) (launchContents m c) (Proc.devRef .tc main_arg4) = m ((c.tc : Thread nD τ).loc main_arg4) := by
  rw [ops_cut]
  simp only [after_append]
  exact V16_main_arg4 m c

/-- No operation writes argument 5: it ends at its launch contents. -/
theorem arg5_eq (m : (ℓ : Loc nD τ sig) → Buf (Elt F) ℓ) (c : Dev nD) :
    after (ops : List (HloOp τ sig (Elt F))) (launchContents m c) (Proc.devRef .tc main_arg5) = m ((c.tc : Thread nD τ).loc main_arg5) := by
  rw [ops_cut]
  simp only [after_append]
  exact V16_main_arg5 m c

/-- No operation writes argument 6: it ends at its launch contents. -/
theorem arg6_eq (m : (ℓ : Loc nD τ sig) → Buf (Elt F) ℓ) (c : Dev nD) :
    after (ops : List (HloOp τ sig (Elt F))) (launchContents m c) (Proc.devRef .tc main_arg6) = m ((c.tc : Thread nD τ).loc main_arg6) := by
  rw [ops_cut]
  simp only [after_append]
  exact V16_main_arg6 m c

/-- No operation writes argument 7: it ends at its launch contents. -/
theorem arg7_eq (m : (ℓ : Loc nD τ sig) → Buf (Elt F) ℓ) (c : Dev nD) :
    after (ops : List (HloOp τ sig (Elt F))) (launchContents m c) (Proc.devRef .tc main_arg7) = m ((c.tc : Thread nD τ).loc main_arg7) := by
  rw [ops_cut]
  simp only [after_append]
  exact V16_main_arg7 m c

/-- No operation writes argument 8: it ends at its launch contents. -/
theorem arg8_eq (m : (ℓ : Loc nD τ sig) → Buf (Elt F) ℓ) (c : Dev nD) :
    after (ops : List (HloOp τ sig (Elt F))) (launchContents m c) (Proc.devRef .tc main_arg8) = m ((c.tc : Thread nD τ).loc main_arg8) := by
  rw [ops_cut]
  simp only [after_append]
  exact V16_main_arg8 m c

/-- No operation writes argument 9: it ends at its launch contents. -/
theorem arg9_eq (m : (ℓ : Loc nD τ sig) → Buf (Elt F) ℓ) (c : Dev nD) :
    after (ops : List (HloOp τ sig (Elt F))) (launchContents m c) (Proc.devRef .tc main_arg9) = m ((c.tc : Thread nD τ).loc main_arg9) := by
  rw [ops_cut]
  simp only [after_append]
  exact V16_main_arg9 m c

/-- No operation writes argument 10: it ends at its launch contents. -/
theorem arg10_eq (m : (ℓ : Loc nD τ sig) → Buf (Elt F) ℓ) (c : Dev nD) :
    after (ops : List (HloOp τ sig (Elt F))) (launchContents m c) (Proc.devRef .tc main_arg10) = m ((c.tc : Thread nD τ).loc main_arg10) := by
  rw [ops_cut]
  simp only [after_append]
  exact V16_main_arg10 m c

/-- No operation writes argument 11: it ends at its launch contents. -/
theorem arg11_eq (m : (ℓ : Loc nD τ sig) → Buf (Elt F) ℓ) (c : Dev nD) :
    after (ops : List (HloOp τ sig (Elt F))) (launchContents m c) (Proc.devRef .tc main_arg11) = m ((c.tc : Thread nD τ).loc main_arg11) := by
  rw [ops_cut]
  simp only [after_append]
  exact V16_main_arg11 m c

/-- No operation writes argument 12: it ends at its launch contents. -/
theorem arg12_eq (m : (ℓ : Loc nD τ sig) → Buf (Elt F) ℓ) (c : Dev nD) :
    after (ops : List (HloOp τ sig (Elt F))) (launchContents m c) (Proc.devRef .tc main_arg12) = m ((c.tc : Thread nD τ).loc main_arg12) := by
  rw [ops_cut]
  simp only [after_append]
  exact V16_main_arg12 m c

/-- No operation writes argument 13: it ends at its launch contents. -/
theorem arg13_eq (m : (ℓ : Loc nD τ sig) → Buf (Elt F) ℓ) (c : Dev nD) :
    after (ops : List (HloOp τ sig (Elt F))) (launchContents m c) (Proc.devRef .tc main_arg13) = m ((c.tc : Thread nD τ).loc main_arg13) := by
  rw [ops_cut]
  simp only [after_append]
  exact V16_main_arg13 m c

/-- On every device, for any float values, from any memory with zero counters: every weakly fair execution of the
    program terminates with the result buffer at `val_main_v169` of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v169) = Cert.ReferenceIdeal.ReadP.val_main_v169 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v169).trans (result_eq m c),
      (h c main_arg0).trans (arg0_eq m c),
      (h c main_arg1).trans (arg1_eq m c),
      (h c main_arg2).trans (arg2_eq m c),
      (h c main_arg3).trans (arg3_eq m c),
      (h c main_arg4).trans (arg4_eq m c),
      (h c main_arg5).trans (arg5_eq m c),
      (h c main_arg6).trans (arg6_eq m c),
      (h c main_arg7).trans (arg7_eq m c),
      (h c main_arg8).trans (arg8_eq m c),
      (h c main_arg9).trans (arg9_eq m c),
      (h c main_arg10).trans (arg10_eq m c),
      (h c main_arg11).trans (arg11_eq m c),
      (h c main_arg12).trans (arg12_eq m c),
      (h c main_arg13).trans (arg13_eq m c)⟩)
    (run_seq scopedRefs_eq scopedSems_eq defs main (fun _ => ops) main_eq (fun _ => ops_sub) m ρ)

end Cert.ReferenceIdeal.RefRun

end
-- ==== Proof.lean ====
/-
  The certificate of a two-layer graph block — group normalisation, silu, a typed neighbour sum and a dense product,
  twice, with an embedding added after the first layer and the input after the second — written as four pipelined
  regions (the two activations, the two products) among stretches of host operations, against a reference that spells
  the same computation with host operations only.

  Both programs apply the same operations to the same arguments except inside the regions.  There, entry by entry:
  an activation region computes n · logistic(n) for n = x · s · w + b, the reference n · (1 / (1 + exp(−n))) — one
  function on the extended reals; a product region accumulates a row of the left operand against a column of the right
  one into zero and adds a third array, the reference applies a dot_general and an add — the same finite sum, the two
  summands exchanged in the last step.  No law used needs finiteness, so the precondition is never opened.

  The kernel program's result is read off its run: the contents at each boundary between stretches and regions form a
  fold from the launch memory (Proof/KRun.lean); each region's output array is one function of its operand arrays
  (Proof/RegionAct.lean, Proof/RegionDot.lean); each stretch's outputs are the reference's stages of the same arguments
  (Proof/KStage0.lean … KStage3.lean, joined to the regions by Proof/BridgeAct.lean and Proof/BridgeDot.lean).  The
  reference's run is read back stage by stage (Proof/RefRun.lean) to the same last stage.
-/
import proofs.«124730_j2224793059399_1_alg».proof.Defs
import proofs.«124730_j2224793059399_1_alg».proof.Proof.Gen.Kernel
import proofs.«124730_j2224793059399_1_alg».proof.Proof.Gen.Kernel.Skeleton
import proofs.«124730_j2224793059399_1_alg».proof.Proof.Gen.Kernel.Launch
import proofs.«124730_j2224793059399_1_alg».proof.Proof.Gen.Kernel.Points
import proofs.«124730_j2224793059399_1_alg».proof.Proof.Gen.Kernel.Frame
import proofs.«124730_j2224793059399_1_alg».proof.Proof.Gen.KernelIdeal
import proofs.«124730_j2224793059399_1_alg».proof.Proof.Gen.KernelIdeal.Skeleton
import proofs.«124730_j2224793059399_1_alg».proof.Proof.Gen.KernelIdeal.Launch
import proofs.«124730_j2224793059399_1_alg».proof.Proof.Gen.KernelIdeal.Points
import proofs.«124730_j2224793059399_1_alg».proof.Proof.Gen.KernelIdeal.Frame
import proofs.«124730_j2224793059399_1_alg».proof.Proof.Gen.ReferenceIdeal
import proofs.«124730_j2224793059399_1_alg».proof.Proof.Gen.Pre_finite_inputs
import proofs.«124730_j2224793059399_1_alg».proof.Proof.KRun
import proofs.«124730_j2224793059399_1_alg».proof.Proof.KStage3
import proofs.«124730_j2224793059399_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_p : Cert.frame_Kernel := fun m ρ _ => Cert.Kernel.Gen.frame m ρ

/-- So does the idealized kernel program. -/
theorem frame_pi : Cert.frame_KernelIdeal := fun m ρ _ => Cert.KernelIdeal.Gen.frame m ρ

/-- The reference's run with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- From memories agreeing on the arguments both programs end with the reference's last stage of those arguments in
    their result buffers. -/
theorem algebraic : Cert.algebraic_KernelIdeal_ReferenceIdeal := by
  intro m ρ m' ρ' _ hagree
  refine ⟨fun c => Cert.ReferenceIdeal.ReadP.val_main_v169 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.HostValue.result m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
